-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v124)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v77)) (v3 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_v82) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S64x64 : Shape := ⟨2, ![64, 64]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S2x1048576 : Shape := ⟨2, ![2, 1048576]⟩
abbrev S262144 : Shape := ⟨1, ![262144]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S128x128 .f32) (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg16
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S64 .f32) (main_arg8 : FVec F S128x64 .f32) (main_arg9 : FVec F S64 .f32) (main_arg10 : FVec F S64x128 .f32) (main_arg11 : FVec F S128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_arg15 main_arg16 main_arg17 main_v48 main_v49 main_v50

def fn_part1 {F : FTy → Type} [FloatOps F] (main_arg4 : FVec F S128x128 .f32) (main_arg5 : FVec F S128 .f32) (main_arg6 : FVec F S128x64 .f32) (main_arg7 : FVec F S64 .f32) (main_arg8 : FVec F S128x64 .f32) (main_arg9 : FVec F S64 .f32) (main_arg10 : FVec F S64x128 .f32) (main_arg11 : FVec F S128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S262144x1 .f32) (main_arg1 : FVec F S64x64 .f32) (main_arg2 : FVec F S1x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) (main_arg10 : FVec F S64x128 .f32) (main_arg11 : FVec F S128 .f32) (main_arg12 : FVec F S128x128 .f32) (main_arg13 : FVec F S128 .f32) (main_arg14 : FVec F S128x128 .f32) (main_arg15 : FVec F S128 .f32) (main_arg16 : FVec F S128x1 .f32) (main_arg17 : FVec F S1 .f32) (main_arg18 : IVec S2x1048576 32) (main_arg19 : IVec S262144 32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S262144x1 : Shape := ⟨2, ![262144, 1]⟩
abbrev S64x64 : Shape := ⟨2, ![64, 64]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S2x1048576 : Shape := ⟨2, ![2, 1048576]⟩
abbrev S262144 : Shape := ⟨1, ![262144]⟩
abbrev S1x1048576 : Shape := ⟨2, ![1, 1048576]⟩
abbrev S1048576 : Shape := ⟨1, ![1048576]⟩
abbrev S1310720 : Shape := ⟨1, ![1310720]⟩
abbrev S_ : Shape := ⟨0, ![]⟩
abbrev S1310720x1 : Shape := ⟨2, ![1310720, 1]⟩
abbrev S262144x128 : Shape := ⟨2, ![262144, 128]⟩
abbrev S8192x1 : Shape := ⟨2, ![8192, 1]⟩
abbrev S8192x128 : Shape := ⟨2, ![8192, 128]⟩
abbrev S1310720x128 : Shape := ⟨2, ![1310720, 128]⟩
abbrev S64x1 : Shape := ⟨2, ![64, 1]⟩
abbrev S1x64 : Shape := ⟨2, ![1, 64]⟩
abbrev S1x1 : Shape := ⟨2, ![1, 1]⟩
abbrev S64x4096 : Shape := ⟨2, ![64, 4096]⟩

abbrev nBuf : Space → Nat
  | .hbm => 173
  | .vmem => 34
  | .smem => 0
  | _ => 0

abbrev hbmTy0_0 (i : Nat) : BufTy := match i % 128 with
  | 0 => ⟨S262144x1, .f32⟩
  | 1 => ⟨S64x64, .f32⟩
  | 2 => ⟨S1x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S64x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x1, .f32⟩
  | 17 => ⟨S1, .f32⟩
  | 18 => ⟨S2x1048576, .i32⟩
  | 19 => ⟨S262144, .i32⟩
  | 20 => ⟨S262144, .i32⟩
  | 21 => ⟨S1x1048576, .i32⟩
  | 22 => ⟨S1048576, .i32⟩
  | 23 => ⟨S1310720, .i32⟩
  | 24 => ⟨S1x1048576, .i32⟩
  | 25 => ⟨S1048576, .i32⟩
  | 26 => ⟨S1310720, .i32⟩
  | 27 => ⟨S_, .f32⟩
  | 28 => ⟨S1310720, .f32⟩
  | 29 => ⟨S_, .f32⟩
  | 30 => ⟨S262144, .f32⟩
  | 31 => ⟨S1310720x1, .i32⟩
  | 32 => ⟨S262144, .f32⟩
  | 33 => ⟨S_, .f32⟩
  | 34 => ⟨S262144, .f32⟩
  | 35 => ⟨S262144, .i1⟩
  | 36 => ⟨S262144, .f32⟩
  | 37 => ⟨S_, .f32⟩
  | 38 => ⟨S_, .f32⟩
  | 39 => ⟨S262144, .f32⟩
  | 40 => ⟨S262144, .f32⟩
  | 41 => ⟨S_, .i32⟩
  | 42 => ⟨S1310720, .i32⟩
  | 43 => ⟨S1310720, .i1⟩
  | 44 => ⟨S_, .i32⟩
  | 45 => ⟨S1310720, .i32⟩
  | 46 => ⟨S1310720, .i32⟩
  | 47 => ⟨S1310720, .i32⟩
  | 48 => ⟨S1310720x1, .i32⟩
  | 49 => ⟨S1310720, .f32⟩
  | 50 => ⟨S_, .i32⟩
  | 51 => ⟨S1310720, .i32⟩
  | 52 => ⟨S1310720, .i1⟩
  | 53 => ⟨S_, .i32⟩
  | 54 => ⟨S1310720, .i32⟩
  | 55 => ⟨S1310720, .i32⟩
  | 56 => ⟨S1310720, .i32⟩
  | 57 => ⟨S1310720x1, .i32⟩
  | 58 => ⟨S1310720, .f32⟩
  | 59 => ⟨S1310720, .f32⟩
  | 60 => ⟨S1310720x1, .f32⟩
  | 61 => ⟨S262144x128, .f32⟩
  | 62 => ⟨S_, .i32⟩
  | 63 => ⟨S1310720, .i32⟩
  | 64 => ⟨S1310720, .i1⟩
  | 65 => ⟨S_, .i32⟩
  | 66 => ⟨S1310720, .i32⟩
  | 67 => ⟨S1310720, .i32⟩
  | 68 => ⟨S1310720, .i32⟩
  | 69 => ⟨S1310720x1, .i32⟩
  | 70 => ⟨S1310720x128, .f32⟩
  | 71 => ⟨S1310720x128, .f32⟩
  | 72 => ⟨S1310720x128, .f32⟩
  | 73 => ⟨S_, .f32⟩
  | 74 => ⟨S262144x128, .f32⟩
  | 75 => ⟨S1310720x1, .i32⟩
  | 76 => ⟨S262144x128, .f32⟩
  | 77 => ⟨S1x128, .f32⟩
  | 78 => ⟨S262144x128, .f32⟩
  | 79 => ⟨S_, .i32⟩
  | 80 => ⟨S1310720, .i32⟩
  | 81 => ⟨S1310720, .i1⟩
  | 82 => ⟨S_, .i32⟩
  | 83 => ⟨S1310720, .i32⟩
  | 84 => ⟨S1310720, .i32⟩
  | 85 => ⟨S1310720, .i32⟩
  | 86 => ⟨S1310720x1, .i32⟩
  | 87 => ⟨S1310720x128, .f32⟩
  | 88 => ⟨S1310720x128, .f32⟩
  | 89 => ⟨S1310720x128, .f32⟩
  | 90 => ⟨S_, .f32⟩
  | 91 => ⟨S262144x128, .f32⟩
  | 92 => ⟨S1310720x1, .i32⟩
  | 93 => ⟨S262144x128, .f32⟩
  | 94 => ⟨S1x128, .f32⟩
  | 95 => ⟨S262144x128, .f32⟩
  | 96 => ⟨S_, .f32⟩
  | 97 => ⟨S262144, .f32⟩
  | 98 => ⟨S_, .f32⟩
  | 99 => ⟨S64, .f32⟩
  | 100 => ⟨S262144x1, .i32⟩
  | 101 => ⟨S64, .f32⟩
  | 102 => ⟨S_, .f32⟩
  | 103 => ⟨S64x128, .f32⟩
  | 104 => ⟨S262144x1, .i32⟩
  | 105 => ⟨S64x128, .f32⟩
  | 106 => ⟨S64x1, .f32⟩
  | 107 => ⟨S64x128, .f32⟩
  | 108 => ⟨S64x128, .f32⟩
  | 109 => ⟨S64x64, .f32⟩
  | 110 => ⟨S1x64, .f32⟩
  | 111 => ⟨S64x64, .f32⟩
  | 112 => ⟨S64x64, .f32⟩
  | 113 => ⟨S64x64, .f32⟩
  | 114 => ⟨S1x64, .f32⟩
  | 115 => ⟨S64x64, .f32⟩
  | 116 => ⟨S64x64, .f32⟩
  | 117 => ⟨S_, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x128, .f32⟩
  | 124 => ⟨S1x128, .f32⟩
  | 125 => ⟨S64x128, .f32⟩
  | 126 => ⟨S64x128, .f32⟩
  | 127 => ⟨S_, .i32⟩
  | _ => ⟨S262144x1, .f32⟩

abbrev hbmTy0_1 (i : Nat) : BufTy := match i % 128 with
  | 0 => ⟨S262144, .i32⟩
  | 1 => ⟨S262144, .i1⟩
  | 2 => ⟨S_, .i32⟩
  | 3 => ⟨S262144, .i32⟩
  | 4 => ⟨S262144, .i32⟩
  | 5 => ⟨S262144, .i32⟩
  | 6 => ⟨S262144x1, .i32⟩
  | 7 => ⟨S262144x128, .f32⟩
  | 8 => ⟨S262144x128, .f32⟩
  | 9 => ⟨S_, .i32⟩
  | 10 => ⟨S1310720, .i32⟩
  | 11 => ⟨S1310720, .i1⟩
  | 12 => ⟨S_, .i32⟩
  | 13 => ⟨S1310720, .i32⟩
  | 14 => ⟨S1310720, .i32⟩
  | 15 => ⟨S1310720, .i32⟩
  | 16 => ⟨S1310720x1, .i32⟩
  | 17 => ⟨S1310720x128, .f32⟩
  | 18 => ⟨S1310720x128, .f32⟩
  | 19 => ⟨S1310720x128, .f32⟩
  | 20 => ⟨S_, .f32⟩
  | 21 => ⟨S262144x128, .f32⟩
  | 22 => ⟨S1310720x1, .i32⟩
  | 23 => ⟨S262144x128, .f32⟩
  | 24 => ⟨S1x128, .f32⟩
  | 25 => ⟨S262144x128, .f32⟩
  | 26 => ⟨S_, .i32⟩
  | 27 => ⟨S1310720, .i32⟩
  | 28 => ⟨S1310720, .i1⟩
  | 29 => ⟨S_, .i32⟩
  | 30 => ⟨S1310720, .i32⟩
  | 31 => ⟨S1310720, .i32⟩
  | 32 => ⟨S1310720, .i32⟩
  | 33 => ⟨S1310720x1, .i32⟩
  | 34 => ⟨S1310720x128, .f32⟩
  | 35 => ⟨S1310720x128, .f32⟩
  | 36 => ⟨S1310720x128, .f32⟩
  | 37 => ⟨S_, .f32⟩
  | 38 => ⟨S262144x128, .f32⟩
  | 39 => ⟨S1310720x1, .i32⟩
  | 40 => ⟨S262144x128, .f32⟩
  | 41 => ⟨S1x128, .f32⟩
  | 42 => ⟨S1x1, .f32⟩
  | 43 => ⟨S262144x1, .f32⟩
  | 44 => ⟨S64x4096, .f32⟩
  | _ => ⟨S262144x1, .f32⟩

abbrev hbmTy (i : Nat) : BufTy := match i / 128 with
  | 0 => hbmTy0_0 i
  | 1 => hbmTy0_1 i
  | _ => ⟨S262144x1, .f32⟩

abbrev bufTy : (tb : Table) → Fin (tcTables nBuf tb) → BufTy
  | .hbm, ⟨i, _⟩ => hbmTy i
  | .local _ .vmem, ⟨0, _⟩ => ⟨S8192x1, .f32⟩
  | .local _ .vmem, ⟨1, _⟩ => ⟨S8192x1, .f32⟩
  | .local _ .vmem, ⟨2, _⟩ => ⟨S1x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S1x128, .f32⟩
  | .local _ .vmem, ⟨8, _⟩ => ⟨S128x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S1x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S128x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S1x128, .f32⟩
  | .local _ .vmem, ⟨24, _⟩ => ⟨S128x128, .f32⟩
  | .local _ .vmem, ⟨25, _⟩ => ⟨S8192x128, .f32⟩
  | .local _ .vmem, ⟨26, _⟩ => ⟨S8192x128, .f32⟩
  | .local _ .vmem, ⟨27, _⟩ => ⟨S8192x128, .f32⟩
  | .local _ .vmem, ⟨28, _⟩ => ⟨S8192x128, .f32⟩
  | .local _ .vmem, ⟨29, _⟩ => ⟨S1x128, .f32⟩
  | .local _ .vmem, ⟨30, _⟩ => ⟨S128x1, .f32⟩
  | .local _ .vmem, ⟨31, _⟩ => ⟨S1x1, .f32⟩
  | .local _ .vmem, ⟨32, _⟩ => ⟨S8192x1, .f32⟩
  | .local _ .vmem, ⟨33, _⟩ => ⟨S8192x1, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_6 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_9 : Ref sig .tc := ⟨.hbm, 79, rfl⟩
abbrev main_v46 : Ref sig .tc := ⟨.hbm, 80, rfl⟩
abbrev main_v47 : Ref sig .tc := ⟨.hbm, 81, rfl⟩
abbrev main_c_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_12 : Ref sig .tc := ⟨.hbm, 96, rfl⟩
abbrev main_v60 : Ref sig .tc := ⟨.hbm, 97, rfl⟩
abbrev main_cst_13 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_14 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_16 : Ref sig .tc := ⟨.hbm, 127, rfl⟩
abbrev main_v87 : Ref sig .tc := ⟨.hbm, 128, rfl⟩
abbrev main_v88 : Ref sig .tc := ⟨.hbm, 129, rfl⟩
abbrev main_c_17 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_18 : Ref sig .tc := ⟨.hbm, 137, rfl⟩
abbrev main_v95 : Ref sig .tc := ⟨.hbm, 138, rfl⟩
abbrev main_v96 : Ref sig .tc := ⟨.hbm, 139, rfl⟩
abbrev main_c_19 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_20 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_21 : Ref sig .tc := ⟨.hbm, 154, rfl⟩
abbrev main_v109 : Ref sig .tc := ⟨.hbm, 155, rfl⟩
abbrev main_v110 : Ref sig .tc := ⟨.hbm, 156, rfl⟩
abbrev main_c_22 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_23 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8192x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8192x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1048576_S1x1048576_0_0 : S2x1048576.Slices ![0, 0] S1x1048576
  shapeCasts_S1x1048576_S1048576 : S1x1048576.ShapeCasts S1048576
  concatenates_S1048576_S262144_S1310720_d0 : Shape.Concatenates [S1048576, S262144] S1310720 0
  slices_S2x1048576_S1x1048576_1_0 : S2x1048576.Slices ![1, 0] S1x1048576
  bcast_S_S1310720 : S_.BroadcastsInDim S1310720 (![] : Fin 0 → Fin S1310720.rank)
  bcast_S_S262144 : S_.BroadcastsInDim S262144 (![] : Fin 0 → Fin S262144.rank)
  bcast_S1310720_S1310720x1_0 : S1310720.BroadcastsInDim S1310720x1 (![0] : Fin 1 → Fin S1310720x1.rank)
  inb_S8192x1_S8192x1_0_0 : ∀ a, (![0, 0] : Fin 2 → Nat) a + S8192x1.size a ≤ S8192x1.size a
  h_S8192x1 : 0 < S8192x1.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  inb_S8192x128_S8192x128_0_0 : ∀ a, (![0, 0] : Fin 2 → Nat) a + S8192x128.size a ≤ S8192x128.size a
  h_S8192x128 : 0 < S8192x128.numel
  bcast_S1310720x1_S1310720x128_0_1 : S1310720x1.BroadcastsInDim S1310720x128 (![0, 1] : Fin 2 → Fin S1310720x128.rank)
  bcast_S_S262144x128 : S_.BroadcastsInDim S262144x128 (![] : Fin 0 → Fin S262144x128.rank)
  shapeCasts_S128_S1x128 : S128.ShapeCasts S1x128
  shapeCasts_S8192x128_S8192x128 : S8192x128.ShapeCasts S8192x128
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  bcast_S262144_S262144x1_0 : S262144.BroadcastsInDim S262144x1 (![0] : Fin 1 → Fin S262144x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S262144x1_S64x4096 : S262144x1.ShapeCasts S64x4096
  scatter_S262144_S1310720x1_S1310720_n_0_0_1_wf : ScatterDims.WF S262144 S1310720x1 S1310720 [] [0] [0] 1
  gather_S262144_S1310720x1_S1310720_n_0_n_n_0_1_1_wf : GatherDims.WF S262144 S1310720x1 S1310720 [] [0] [] [0] [] 1 ![1]
  dot_S8192x1_S1x128_S8192x128_1_0_0_1_n_n_wf : DotDims.WF S8192x1 S1x128 S8192x128 [1] [0] [0] [1] [] []
  gather_S262144x128_S1310720x1_S1310720x128_1_0_n_n_0_1_1128_wf : GatherDims.WF S262144x128 S1310720x1 S1310720x128 [1] [0] [] [0] [] 1 ![1, 128]
  scatter_S262144x128_S1310720x1_S1310720x128_1_0_0_1_wf : ScatterDims.WF S262144x128 S1310720x1 S1310720x128 [1] [0] [0] 1
  dot_S8192x128_S128x128_S8192x128_1_0_0_1_n_n_wf : DotDims.WF S8192x128 S128x128 S8192x128 [1] [0] [0] [1] [] []
  scatter_S64_S262144x1_S262144_n_0_0_1_wf : ScatterDims.WF S64 S262144x1 S262144 [] [0] [0] 1
  scatter_S64x128_S262144x1_S262144x128_1_0_0_1_wf : ScatterDims.WF S64x128 S262144x1 S262144x128 [1] [0] [0] 1
  dot_S64x128_S128x64_S64x64_1_0_0_1_n_n_wf : DotDims.WF S64x128 S128x64 S64x64 [1] [0] [0] [1] [] []
  dot_S64x64_S64x128_S64x128_1_0_0_1_n_n_wf : DotDims.WF S64x64 S64x128 S64x128 [1] [0] [0] [1] [] []
  gather_S64x128_S262144x1_S262144x128_1_0_n_n_0_1_1128_wf : GatherDims.WF S64x128 S262144x1 S262144x128 [1] [0] [] [0] [] 1 ![1, 128]
  dot_S8192x128_S128x1_S8192x1_1_0_0_1_n_n_wf : DotDims.WF S8192x128 S128x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S262144x1.size a
  hwx0_0 : ∀ i : grid0.Coords, EltTy.bits .f32 = 32 ∨ (Rect.block (s := S262144x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S262144x128.size a
  hwx1_3 : ∀ i : grid1.Coords, EltTy.bits .f32 = 32 ∨ (Rect.block (s := S262144x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S262144x128.size a
  hwx2_0 : ∀ i : grid2.Coords, EltTy.bits .f32 = 32 ∨ (Rect.block (s := S262144x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S262144x128.size a
  hwx2_2 : ∀ i : grid2.Coords, EltTy.bits .f32 = 32 ∨ (Rect.block (s := S262144x128) S8192x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S262144x128.size a
  hwx3_0 : ∀ i : grid3.Coords, EltTy.bits .f32 = 32 ∨ (Rect.block (s := S262144x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S262144x128.size a
  hwx3_2 : ∀ i : grid3.Coords, EltTy.bits .f32 = 32 ∨ (Rect.block (s := S262144x128) S8192x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S262144x128.size a
  hwx4_0 : ∀ i : grid4.Coords, EltTy.bits .f32 = 32 ∨ (Rect.block (s := S262144x128) S8192x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x128.size a ≤ S262144x128.size a
  hwx4_3 : ∀ i : grid4.Coords, EltTy.bits .f32 = 32 ∨ (Rect.block (s := S262144x128) S8192x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S262144x128.size a
  hwx5_0 : ∀ i : grid5.Coords, EltTy.bits .f32 = 32 ∨ (Rect.block (s := S262144x128) S8192x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x1.size a ≤ S128x1.size a
  hwx5_2 : ∀ i : grid5.Coords, EltTy.bits .f32 = 32 ∨ (Rect.block (s := S128x1) S128x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8192x1.size a ≤ S262144x1.size a
  hwx5_4 : ∀ i : grid5.Coords, EltTy.bits .f32 = 32 ∨ (Rect.block (s := S262144x1) S8192x1.size (cc5_transform_4 i) (hinb5_4 i)).WholeWords (EltTy.packing .f32)

variable [Facts₀]

def scatter_S262144_S1310720x1_S1310720_n_0_0_1 : ScatterDims S262144 S1310720x1 S1310720 where
  updateWindowDims := []
  insertedWindowDims := [0]
  scatterDimsToOperandDims := [0]
  indexVectorDim := 1
  wf := scatter_S262144_S1310720x1_S1310720_n_0_0_1_wf
def gather_S262144_S1310720x1_S1310720_n_0_n_n_0_1_1 : GatherDims S262144 S1310720x1 S1310720 where
  offsetDims := []
  collapsedSliceDims := [0]
  operandBatchingDims := []
  startIndicesBatchingDims := []
  startIndexMap := [0]
  indexVectorDim := 1
  sliceSizes := ![1]
  wf := gather_S262144_S1310720x1_S1310720_n_0_n_n_0_1_1_wf
def dot_S8192x1_S1x128_S8192x128_1_0_0_1_n_n : DotDims S8192x1 S1x128 S8192x128 where
  lhsContracting := [1]
  rhsContracting := [0]
  lhsNonContracting := [0]
  rhsNonContracting := [1]
  lhsBatch := []
  rhsBatch := []
  wf := dot_S8192x1_S1x128_S8192x128_1_0_0_1_n_n_wf
def gather_S262144x128_S1310720x1_S1310720x128_1_0_n_n_0_1_1128 : GatherDims S262144x128 S1310720x1 S1310720x128 where
  offsetDims := [1]
  collapsedSliceDims := [0]
  operandBatchingDims := []
  startIndicesBatchingDims := []
  startIndexMap := [0]
  indexVectorDim := 1
  sliceSizes := ![1, 128]
  wf := gather_S262144x128_S1310720x1_S1310720x128_1_0_n_n_0_1_1128_wf
def scatter_S262144x128_S1310720x1_S1310720x128_1_0_0_1 : ScatterDims S262144x128 S1310720x1 S1310720x128 where
  updateWindowDims := [1]
  insertedWindowDims := [0]
  scatterDimsToOperandDims := [0]
  indexVectorDim := 1
  wf := scatter_S262144x128_S1310720x1_S1310720x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def scatter_S64x128_S262144x1_S262144x128_1_0_0_1 : ScatterDims S64x128 S262144x1 S262144x128 where
  updateWindowDims := [1]
  insertedWindowDims := [0]
  scatterDimsToOperandDims := [0]
  indexVectorDim := 1
  wf := scatter_S64x128_S262144x1_S262144x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

abbrev win0_0 : Pipeline.Window sig grid0 :=
  Pipeline.Window.ofSpec (Memref.whole main_arg0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S8192x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v93) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S8192x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v106) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v107) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S8192x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v120) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S128x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S8192x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S262144x1 : Shape := ⟨2, ![262144, 1]⟩
abbrev S64x64 : Shape := ⟨2, ![64, 64]⟩
abbrev S1x128 : Shape := ⟨2, ![1, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S128x1 : Shape := ⟨2, ![128, 1]⟩
abbrev S1 : Shape := ⟨1, ![1]⟩
abbrev S2x1048576 : Shape := ⟨2, ![2, 1048576]⟩
abbrev S262144 : Shape := ⟨1, ![262144]⟩
abbrev S1x1048576 : Shape := ⟨2, ![1, 1048576]⟩
abbrev S1048576 : Shape := ⟨1, ![1048576]⟩
abbrev S1310720 : Shape := ⟨1, ![1310720]⟩
abbrev S_ : Shape := ⟨0, ![]⟩
abbrev S1310720x1 : Shape := ⟨2, ![1310720, 1]⟩
abbrev S262144x128 : Shape := ⟨2, ![262144, 128]⟩
abbrev S1310720x128 : Shape := ⟨2, ![1310720, 128]⟩
abbrev S64x1 : Shape := ⟨2, ![64, 1]⟩
abbrev S1x64 : Shape := ⟨2, ![1, 64]⟩
abbrev S1x1 : Shape := ⟨2, ![1, 1]⟩
abbrev S64x4096 : Shape := ⟨2, ![64, 4096]⟩

abbrev nBuf : Space → Nat
  | .hbm => 198
  | .vmem => 0
  | .smem => 0
  | _ => 0

abbrev hbmTy0_0 (i : Nat) : BufTy := match i % 128 with
  | 0 => ⟨S262144x1, .f32⟩
  | 1 => ⟨S64x64, .f32⟩
  | 2 => ⟨S1x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S128x64, .f32⟩
  | 9 => ⟨S64, .f32⟩
  | 10 => ⟨S64x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x1, .f32⟩
  | 17 => ⟨S1, .f32⟩
  | 18 => ⟨S2x1048576, .i32⟩
  | 19 => ⟨S262144, .i32⟩
  | 20 => ⟨S262144, .i32⟩
  | 21 => ⟨S1x1048576, .i32⟩
  | 22 => ⟨S1048576, .i32⟩
  | 23 => ⟨S1310720, .i32⟩
  | 24 => ⟨S1x1048576, .i32⟩
  | 25 => ⟨S1048576, .i32⟩
  | 26 => ⟨S1310720, .i32⟩
  | 27 => ⟨S_, .f32⟩
  | 28 => ⟨S1310720, .f32⟩
  | 29 => ⟨S_, .f32⟩
  | 30 => ⟨S262144, .f32⟩
  | 31 => ⟨S1310720x1, .i32⟩
  | 32 => ⟨S262144, .f32⟩
  | 33 => ⟨S_, .f32⟩
  | 34 => ⟨S262144, .f32⟩
  | 35 => ⟨S262144, .i1⟩
  | 36 => ⟨S262144, .f32⟩
  | 37 => ⟨S_, .f32⟩
  | 38 => ⟨S_, .f32⟩
  | 39 => ⟨S262144, .f32⟩
  | 40 => ⟨S262144, .f32⟩
  | 41 => ⟨S_, .i32⟩
  | 42 => ⟨S1310720, .i32⟩
  | 43 => ⟨S1310720, .i1⟩
  | 44 => ⟨S_, .i32⟩
  | 45 => ⟨S1310720, .i32⟩
  | 46 => ⟨S1310720, .i32⟩
  | 47 => ⟨S1310720, .i32⟩
  | 48 => ⟨S1310720x1, .i32⟩
  | 49 => ⟨S1310720, .f32⟩
  | 50 => ⟨S_, .i32⟩
  | 51 => ⟨S1310720, .i32⟩
  | 52 => ⟨S1310720, .i1⟩
  | 53 => ⟨S_, .i32⟩
  | 54 => ⟨S1310720, .i32⟩
  | 55 => ⟨S1310720, .i32⟩
  | 56 => ⟨S1310720, .i32⟩
  | 57 => ⟨S1310720x1, .i32⟩
  | 58 => ⟨S1310720, .f32⟩
  | 59 => ⟨S1310720, .f32⟩
  | 60 => ⟨S262144x128, .f32⟩
  | 61 => ⟨S_, .i32⟩
  | 62 => ⟨S1310720, .i32⟩
  | 63 => ⟨S1310720, .i1⟩
  | 64 => ⟨S_, .i32⟩
  | 65 => ⟨S1310720, .i32⟩
  | 66 => ⟨S1310720, .i32⟩
  | 67 => ⟨S1310720, .i32⟩
  | 68 => ⟨S1310720x1, .i32⟩
  | 69 => ⟨S1310720x128, .f32⟩
  | 70 => ⟨S1310720x1, .f32⟩
  | 71 => ⟨S1310720x128, .f32⟩
  | 72 => ⟨S1310720x128, .f32⟩
  | 73 => ⟨S_, .f32⟩
  | 74 => ⟨S262144x128, .f32⟩
  | 75 => ⟨S1310720x1, .i32⟩
  | 76 => ⟨S262144x128, .f32⟩
  | 77 => ⟨S1x128, .f32⟩
  | 78 => ⟨S262144x128, .f32⟩
  | 79 => ⟨S262144x128, .f32⟩
  | 80 => ⟨S_, .f32⟩
  | 81 => ⟨S262144x128, .f32⟩
  | 82 => ⟨S262144x128, .f32⟩
  | 83 => ⟨S262144x128, .f32⟩
  | 84 => ⟨S_, .i32⟩
  | 85 => ⟨S1310720, .i32⟩
  | 86 => ⟨S1310720, .i1⟩
  | 87 => ⟨S_, .i32⟩
  | 88 => ⟨S1310720, .i32⟩
  | 89 => ⟨S1310720, .i32⟩
  | 90 => ⟨S1310720, .i32⟩
  | 91 => ⟨S1310720x1, .i32⟩
  | 92 => ⟨S1310720x128, .f32⟩
  | 93 => ⟨S1310720x1, .f32⟩
  | 94 => ⟨S1310720x128, .f32⟩
  | 95 => ⟨S1310720x128, .f32⟩
  | 96 => ⟨S_, .f32⟩
  | 97 => ⟨S262144x128, .f32⟩
  | 98 => ⟨S1310720x1, .i32⟩
  | 99 => ⟨S262144x128, .f32⟩
  | 100 => ⟨S1x128, .f32⟩
  | 101 => ⟨S262144x128, .f32⟩
  | 102 => ⟨S262144x128, .f32⟩
  | 103 => ⟨S_, .f32⟩
  | 104 => ⟨S262144x128, .f32⟩
  | 105 => ⟨S262144x128, .f32⟩
  | 106 => ⟨S_, .f32⟩
  | 107 => ⟨S262144, .f32⟩
  | 108 => ⟨S_, .f32⟩
  | 109 => ⟨S64, .f32⟩
  | 110 => ⟨S262144x1, .i32⟩
  | 111 => ⟨S64, .f32⟩
  | 112 => ⟨S_, .f32⟩
  | 113 => ⟨S64x128, .f32⟩
  | 114 => ⟨S262144x1, .i32⟩
  | 115 => ⟨S64x128, .f32⟩
  | 116 => ⟨S64x1, .f32⟩
  | 117 => ⟨S64x128, .f32⟩
  | 118 => ⟨S64x128, .f32⟩
  | 119 => ⟨S64x64, .f32⟩
  | 120 => ⟨S1x64, .f32⟩
  | 121 => ⟨S64x64, .f32⟩
  | 122 => ⟨S64x64, .f32⟩
  | 123 => ⟨S64x64, .f32⟩
  | 124 => ⟨S1x64, .f32⟩
  | 125 => ⟨S64x64, .f32⟩
  | 126 => ⟨S64x64, .f32⟩
  | 127 => ⟨S_, .f32⟩
  | _ => ⟨S262144x1, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x128, .f32⟩
  | 6 => ⟨S1x128, .f32⟩
  | 7 => ⟨S64x128, .f32⟩
  | 8 => ⟨S64x128, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S262144x1, .i32⟩
  | 17 => ⟨S262144x128, .f32⟩
  | 18 => ⟨S262144x128, .f32⟩
  | 19 => ⟨S_, .i32⟩
  | 20 => ⟨S1310720, .i32⟩
  | 21 => ⟨S1310720, .i1⟩
  | 22 => ⟨S_, .i32⟩
  | 23 => ⟨S1310720, .i32⟩
  | 24 => ⟨S1310720, .i32⟩
  | 25 => ⟨S1310720, .i32⟩
  | 26 => ⟨S1310720x1, .i32⟩
  | 27 => ⟨S1310720x128, .f32⟩
  | 28 => ⟨S1310720x1, .f32⟩
  | 29 => ⟨S1310720x128, .f32⟩
  | 30 => ⟨S1310720x128, .f32⟩
  | 31 => ⟨S_, .f32⟩
  | 32 => ⟨S262144x128, .f32⟩
  | 33 => ⟨S1310720x1, .i32⟩
  | 34 => ⟨S262144x128, .f32⟩
  | 35 => ⟨S1x128, .f32⟩
  | 36 => ⟨S262144x128, .f32⟩
  | 37 => ⟨S262144x128, .f32⟩
  | 38 => ⟨S_, .f32⟩
  | 39 => ⟨S262144x128, .f32⟩
  | 40 => ⟨S262144x128, .f32⟩
  | 41 => ⟨S262144x128, .f32⟩
  | 42 => ⟨S_, .i32⟩
  | 43 => ⟨S1310720, .i32⟩
  | 44 => ⟨S1310720, .i1⟩
  | 45 => ⟨S_, .i32⟩
  | 46 => ⟨S1310720, .i32⟩
  | 47 => ⟨S1310720, .i32⟩
  | 48 => ⟨S1310720, .i32⟩
  | 49 => ⟨S1310720x1, .i32⟩
  | 50 => ⟨S1310720x128, .f32⟩
  | 51 => ⟨S1310720x1, .f32⟩
  | 52 => ⟨S1310720x128, .f32⟩
  | 53 => ⟨S1310720x128, .f32⟩
  | 54 => ⟨S_, .f32⟩
  | 55 => ⟨S262144x128, .f32⟩
  | 56 => ⟨S1310720x1, .i32⟩
  | 57 => ⟨S262144x128, .f32⟩
  | 58 => ⟨S1x128, .f32⟩
  | 59 => ⟨S262144x128, .f32⟩
  | 60 => ⟨S262144x128, .f32⟩
  | 61 => ⟨S_, .f32⟩
  | 62 => ⟨S262144x128, .f32⟩
  | 63 => ⟨S262144x128, .f32⟩
  | 64 => ⟨S262144x1, .f32⟩
  | 65 => ⟨S1x1, .f32⟩
  | 66 => ⟨S262144x1, .f32⟩
  | 67 => ⟨S262144x1, .f32⟩
  | 68 => ⟨S262144x1, .f32⟩
  | 69 => ⟨S64x4096, .f32⟩
  | _ => ⟨S262144x1, .f32⟩

abbrev hbmTy (i : Nat) : BufTy := match i / 128 with
  | 0 => hbmTy0_0 i
  | 1 => hbmTy0_1 i
  | _ => ⟨S262144x1, .f32⟩

abbrev bufTy : (tb : Table) → Fin (tcTables nBuf tb) → BufTy
  | .hbm, ⟨i, _⟩ => hbmTy i
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_cst : Ref sig .tc := ⟨.hbm, 80, rfl⟩
abbrev main_call1_v0 : Ref sig .tc := ⟨.hbm, 81, rfl⟩
abbrev main_v47 : Ref sig .tc := ⟨.hbm, 82, rfl⟩
abbrev main_v48 : Ref sig .tc := ⟨.hbm, 83, rfl⟩
abbrev main_c_9 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_11 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_call2_cst : Ref sig .tc := ⟨.hbm, 103, rfl⟩
abbrev main_call2_v0 : Ref sig .tc := ⟨.hbm, 104, rfl⟩
abbrev main_v65 : Ref sig .tc := ⟨.hbm, 105, rfl⟩
abbrev main_cst_12 : Ref sig .tc := ⟨.hbm, 106, rfl⟩
abbrev main_v66 : Ref sig .tc := ⟨.hbm, 107, rfl⟩
abbrev main_cst_13 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_14 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_15 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_16 : Ref sig .tc := ⟨.hbm, 137, rfl⟩
abbrev main_v93 : Ref sig .tc := ⟨.hbm, 138, rfl⟩
abbrev main_v94 : Ref sig .tc := ⟨.hbm, 139, rfl⟩
abbrev main_c_17 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_18 : Ref sig .tc := ⟨.hbm, 147, rfl⟩
abbrev main_v101 : Ref sig .tc := ⟨.hbm, 148, rfl⟩
abbrev main_v102 : Ref sig .tc := ⟨.hbm, 149, rfl⟩
abbrev main_c_19 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_20 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_call3_cst : Ref sig .tc := ⟨.hbm, 166, rfl⟩
abbrev main_call3_v0 : Ref sig .tc := ⟨.hbm, 167, rfl⟩
abbrev main_v117 : Ref sig .tc := ⟨.hbm, 168, rfl⟩
abbrev main_v118 : Ref sig .tc := ⟨.hbm, 169, rfl⟩
abbrev main_c_21 : Ref sig .tc := ⟨.hbm, 170, rfl⟩
abbrev main_v119 : Ref sig .tc := ⟨.hbm, 171, rfl⟩
abbrev main_v120 : Ref sig .tc := ⟨.hbm, 172, rfl⟩
abbrev main_c_22 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_23 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call4_cst : Ref sig .tc := ⟨.hbm, 189, rfl⟩
abbrev main_call4_v0 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  concatenates_S1048576_S262144_S1310720_d0 : Shape.Concatenates [S1048576, S262144] S1310720 0
  slices_S2x1048576_S1x1048576_1_0 : S2x1048576.Slices ![1, 0] S1x1048576
  bcast_S_S1310720 : S_.BroadcastsInDim S1310720 (![] : Fin 0 → Fin S1310720.rank)
  bcast_S_S262144 : S_.BroadcastsInDim S262144 (![] : Fin 0 → Fin S262144.rank)
  bcast_S1310720_S1310720x1_0 : S1310720.BroadcastsInDim S1310720x1 (![0] : Fin 1 → Fin S1310720x1.rank)
  bcast_S1310720x1_S1310720x128_0_1 : S1310720x1.BroadcastsInDim S1310720x128 (![0, 1] : Fin 2 → Fin S1310720x128.rank)
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S64 : S_.BroadcastsInDim S64 (![] : Fin 0 → Fin S64.rank)
  bcast_S262144_S262144x1_0 : S262144.BroadcastsInDim S262144x1 (![0] : Fin 1 → Fin S262144x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S64x4096 : S262144x1.ShapeCasts S64x4096
  scatter_S262144_S1310720x1_S1310720_n_0_0_1_wf : ScatterDims.WF S262144 S1310720x1 S1310720 [] [0] [0] 1
  gather_S262144_S1310720x1_S1310720_n_0_n_n_0_1_1_wf : GatherDims.WF S262144 S1310720x1 S1310720 [] [0] [] [0] [] 1 ![1]
  dot_S262144x1_S1x128_S262144x128_1_0_0_1_n_n_wf : DotDims.WF S262144x1 S1x128 S262144x128 [1] [0] [0] [1] [] []
  gather_S262144x128_S1310720x1_S1310720x128_1_0_n_n_0_1_1128_wf : GatherDims.WF S262144x128 S1310720x1 S1310720x128 [1] [0] [] [0] [] 1 ![1, 128]
  scatter_S262144x128_S1310720x1_S1310720x128_1_0_0_1_wf : ScatterDims.WF S262144x128 S1310720x1 S1310720x128 [1] [0] [0] 1
  dot_S262144x128_S128x128_S262144x128_1_0_0_1_n_n_wf : DotDims.WF S262144x128 S128x128 S262144x128 [1] [0] [0] [1] [] []
  scatter_S64_S262144x1_S262144_n_0_0_1_wf : ScatterDims.WF S64 S262144x1 S262144 [] [0] [0] 1
  scatter_S64x128_S262144x1_S262144x128_1_0_0_1_wf : ScatterDims.WF S64x128 S262144x1 S262144x128 [1] [0] [0] 1
  dot_S64x128_S128x64_S64x64_1_0_0_1_n_n_wf : DotDims.WF S64x128 S128x64 S64x64 [1] [0] [0] [1] [] []
  dot_S64x64_S64x128_S64x128_1_0_0_1_n_n_wf : DotDims.WF S64x64 S64x128 S64x128 [1] [0] [0] [1] [] []
  gather_S64x128_S262144x1_S262144x128_1_0_n_n_0_1_1128_wf : GatherDims.WF S64x128 S262144x1 S262144x128 [1] [0] [] [0] [] 1 ![1, 128]
  dot_S262144x128_S128x1_S262144x1_1_0_0_1_n_n_wf : DotDims.WF S262144x128 S128x1 S262144x1 [1] [0] [0] [1] [] []

variable [Facts₀]

def scatter_S262144_S1310720x1_S1310720_n_0_0_1 : ScatterDims S262144 S1310720x1 S1310720 where
  updateWindowDims := []
  insertedWindowDims := [0]
  scatterDimsToOperandDims := [0]
  indexVectorDim := 1
  wf := scatter_S262144_S1310720x1_S1310720_n_0_0_1_wf
def gather_S262144_S1310720x1_S1310720_n_0_n_n_0_1_1 : GatherDims S262144 S1310720x1 S1310720 where
  offsetDims := []
  collapsedSliceDims := [0]
  operandBatchingDims := []
  startIndicesBatchingDims := []
  startIndexMap := [0]
  indexVectorDim := 1
  sliceSizes := ![1]
  wf := gather_S262144_S1310720x1_S1310720_n_0_n_n_0_1_1_wf
def dot_S262144x1_S1x128_S262144x128_1_0_0_1_n_n : DotDims S262144x1 S1x128 S262144x128 where
  lhsContracting := [1]
  rhsContracting := [0]
  lhsNonContracting := [0]
  rhsNonContracting := [1]
  lhsBatch := []
  rhsBatch := []
  wf := dot_S262144x1_S1x128_S262144x128_1_0_0_1_n_n_wf
def gather_S262144x128_S1310720x1_S1310720x128_1_0_n_n_0_1_1128 : GatherDims S262144x128 S1310720x1 S1310720x128 where
  offsetDims := [1]
  collapsedSliceDims := [0]
  operandBatchingDims := []
  startIndicesBatchingDims := []
  startIndexMap := [0]
  indexVectorDim := 1
  sliceSizes := ![1, 128]
  wf := gather_S262144x128_S1310720x1_S1310720x128_1_0_n_n_0_1_1128_wf
def scatter_S262144x128_S1310720x1_S1310720x128_1_0_0_1 : ScatterDims S262144x128 S1310720x1 S1310720x128 where
  updateWindowDims := [1]
  insertedWindowDims := [0]
  scatterDimsToOperandDims := [0]
  indexVectorDim := 1
  wf := scatter_S262144x128_S1310720x1_S1310720x128_1_0_0_1_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf
def scatter_S64x128_S262144x1_S262144x128_1_0_0_1 : ScatterDims S64x128 S262144x1 S262144x128 where
  updateWindowDims := [1]
  insertedWindowDims := [0]
  scatterDimsToOperandDims := [0]
  indexVectorDim := 1
  wf := scatter_S64x128_S262144x1_S262144x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.KernelRun.lean ====
/-
  The idealized kernel's whole run, with its four results named.

  @main is fifteen segments: seven stretches of host operations and six row-tiled dense stages.  The
  contents of every unscoped buffer at each segment boundary are the fold `W0 … W15` from the launch
  memory (a stretch applies its operations, a dense stage replaces its output array by what its grid
  points wrote back).  Every weakly fair execution terminates without a fault in a state whose
  unscoped buffers hold `W15`; read at the four result buffers and at the twenty arguments this is
  the statement below.  What `W15` holds at the results, as a function of the arguments, is the
  subject of the modules that build on this one.
-/
import proofs.«168201_j91182155694152_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates, nothing faulting, with the four results at the last
    boundary's contents and the arguments as launched. -/
theorem run_values : θ_run defs (onTc (τ := τ) (main (F := F))) ⟨m, fun _ => 0, ρ⟩ (fun r => ∀ c : Dev nD,
      r.2.mem ((c.tc : Thread nD τ).loc main_v124) = W15 m ρ c (Proc.devRef .tc main_v124)
      ∧ r.2.mem ((c.tc : Thread nD τ).loc main_v73) = W15 m ρ c (Proc.devRef .tc main_v73)
      ∧ r.2.mem ((c.tc : Thread nD τ).loc main_v77) = W15 m ρ c (Proc.devRef .tc main_v77)
      ∧ r.2.mem ((c.tc : Thread nD τ).loc main_v82) = W15 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v124 (by decide)),
       h c _ (mem_uc main_v73 (by decide)),
       h c _ (mem_uc main_v77 (by decide)),
       h c _ (mem_uc main_v82 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c)⟩)

end Cert.KernelIdeal.Whole

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«168201_j91182155694152_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.DenseStages.lean ====
/-
  The dense stages of the network, each as one function of whole arrays, and each read at one entry.

  A graph-convolution layer is  rows ↦ relu (scatter (gather (rows · W)) + b).  The network computes the
  row-wise dense parts in four shapes, all over the 262144 node rows:
    * linear1 / linear      rows · W                                  (one input feature, or 128)
    * biasRelu              max (rows + b, 0)                         (b broadcast along the rows)
    * reluLinear            max (rows + b, 0) · W
    * reluLinearTanh        tanh (max (rows + b, 0) · w + c)          (w one column, c one number)
  They are spelt with the host's own operations, so that a host program computing a layer is such a
  function on the nose, and each is read at entry (p, q) as a finite sum over the contracted axis:
  entry (p, q) depends on row p of the left operand only.  That is what lets a row-tiled computation
  of the same stage be compared with it tile by tile.
-/
import proofs.«168201_j91182155694152_1_alg».proof.Proof.Gen.ReferenceIdeal
import proofs.«168201_j91182155694152_1_alg».proof.Proof.LibDotColsHost
import Idealize.ShloMosaic.Lib.ValueIdx
import Idealize.ShloMosaic.Lib.Pipeline.Value

noncomputable section

open scoped BigOperators

namespace Cert.Dense

open Idealize.ShloMosaic Idealize.ShloMosaic.ValueIdx Cert.ReferenceIdeal Cert.ReferenceIdeal.Gen

/-- rows · W for rows of one feature. -/
def linear1 (x : FVec Ideal S262144x1 .f32) (w : FVec Ideal S1x128 .f32) : FVec Ideal S262144x128 .f32 :=
  Host.dotGeneral dot_S262144x1_S1x128_S262144x128_1_0_0_1_n_n none x w

/-- rows · W for rows of 128 features. -/
def linear (x : FVec Ideal S262144x128 .f32) (w : FVec Ideal S128x128 .f32) : FVec Ideal S262144x128 .f32 :=
  Host.dotGeneral dot_S262144x128_S128x128_S262144x128_1_0_0_1_n_n none x w

/-- max (rows + b, 0), the bias broadcast along the rows. -/
def biasRelu (a : FVec Ideal S262144x128 .f32) (b : FVec Ideal S128 .f32) : FVec Ideal S262144x128 .f32 :=
  maximumf (addf a (broadcastInDim S262144x128 ![0, 1] bcast_S1x128_S262144x128_0_1 (broadcastInDim S1x128 ![1] bcast_S128_S1x128_1 b)))
    (broadcastInDim S262144x128 ![] bcast_S_S262144x128 (constant S_ .f32 0x00000000#32))

/-- max (rows + b, 0) · W. -/
def reluLinear (a : FVec Ideal S262144x128 .f32) (b : FVec Ideal S128 .f32) (w : FVec Ideal S128x128 .f32) : FVec Ideal S262144x128 .f32 :=
  linear (biasRelu a b) w

/-- tanh (max (rows + b, 0) · w + c). -/
def reluLinearTanh (a : FVec Ideal S262144x128 .f32) (b : FVec Ideal S128 .f32) (w : FVec Ideal S128x1 .f32) (c : FVec Ideal S1 .f32) :
    FVec Ideal S262144x1 .f32 :=
  Host.tanh (addf (Host.dotGeneral dot_S262144x128_S128x1_S262144x1_1_0_0_1_n_n none (biasRelu a b) w)
    (broadcastInDim S262144x1 ![0, 1] bcast_S1x1_S262144x1_0_1 (broadcastInDim S1x1 ![1] bcast_S1_S1x1_1 c)))

theorem linear1_apply (x : FVec Ideal S262144x1 .f32) (w : FVec Ideal S1x128 .f32) (p : Fin 262144) (q : Fin 128) :
    linear1 x w (ix2 p q) = ∑ k : Fin 1, x (ix2 p k) * w (ix2 k q) := by
  unfold linear1
  exact Cert.Lib.DotColsHost.dotGeneral_cols_apply _ rfl none _ x w p q

theorem linear_apply (x : FVec Ideal S262144x128 .f32) (w : FVec Ideal S128x128 .f32) (p : Fin 262144) (q : Fin 128) :
    linear x w (ix2 p q) = ∑ k : Fin 128, x (ix2 p k) * w (ix2 k q) := by
  unfold linear
  exact Cert.Lib.DotColsHost.dotGeneral_cols_apply _ rfl none _ x w p q

theorem biasRelu_apply (a : FVec Ideal S262144x128 .f32) (b : FVec Ideal S128 .f32) (p : Fin 262144) (q : Fin 128) :
    biasRelu a b (ix2 p q) = max (a (ix2 p q) + b (ix1 q)) (Ideal.ofBits .f32 0x00000000#32) := by
  unfold biasRelu
  rw [maximumf_apply, addf_apply]
  rw [broadcastInDim_apply _ bcast_S1x128_S262144x128_0_1 _ (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])]
  rw [broadcastInDim_apply _ bcast_S128_S1x128_1 b (ix2 (0 : Fin 1) q) (ix1 q) (fun a => match a with
      | ⟨0, _⟩ => by show q.val = if (128 : Nat) = 1 then 0 else q.val; rw [if_neg (by decide)])]
  rw [broadcastInDim_apply _ bcast_S_S262144x128 _ (ix2 p q) (fun a => a.elim0) (fun a => a.elim0)]
  rfl

theorem reluLinear_apply (a : FVec Ideal S262144x128 .f32) (b : FVec Ideal S128 .f32) (w : FVec Ideal S128x128 .f32)
    (p : Fin 262144) (q : Fin 128) :
    reluLinear a b w (ix2 p q)
      = ∑ k : Fin 128, max (a (ix2 p k) + b (ix1 k)) (Ideal.ofBits .f32 0x00000000#32) * w (ix2 k q) := by
  unfold reluLinear
  rw [linear_apply]
  exact Finset.sum_congr rfl fun k _ => by rw [biasRelu_apply]

theorem reluLinearTanh_apply (a : FVec Ideal S262144x128 .f32) (b : FVec Ideal S128 .f32) (w : FVec Ideal S128x1 .f32)
    (c : FVec Ideal S1 .f32) (p : Fin 262144) (q : Fin 1) :
    reluLinearTanh a b w c (ix2 p q)
      = Ideal.tanh ((∑ k : Fin 128, max (a (ix2 p k) + b (ix1 k)) (Ideal.ofBits .f32 0x00000000#32) * w (ix2 k q)) + c (ix1 q)) := by
  unfold reluLinearTanh
  show Ideal.tanh (_ + _) = _
  refine congrArg Ideal.tanh (congrArg₂ (· + ·) ?_ ?_)
  · refine (Cert.Lib.DotColsHost.dotGeneral_cols_apply _ rfl none _ (biasRelu a b) w p q).trans ?_
    exact Finset.sum_congr rfl fun k _ => by rw [biasRelu_apply]
  · rw [broadcastInDim_apply _ bcast_S1x1_S262144x1_0_1 _ (ix2 p q) (ix2 (0 : Fin 1) q) (fun a => match a with
        | ⟨0, _⟩ => by show 0 = if (1 : Nat) = 1 then 0 else p.val; rw [if_pos rfl]
        | ⟨1, _⟩ => by show q.val = if (1 : Nat) = 1 then 0 else q.val; rw [if_pos rfl]; exact Nat.lt_one_iff.mp q.isLt)]
    rw [broadcastInDim_apply _ bcast_S1_S1x1_1 c (ix2 (0 : Fin 1) q) (ix1 q) (fun a => match a with
        | ⟨0, _⟩ => by show q.val = if (1 : Nat) = 1 then 0 else q.val; rw [if_pos rfl]; exact Nat.lt_one_iff.mp q.isLt)]

end Cert.Dense

end
-- ==== Proof.Stage0.lean ====
/-
  The first dense stage of the encoder, tile by tile.

  The stage is  rows · W  for the 262144 node rows of one input feature.  It is computed in 32 tiles of 8192 rows:
  tile t reads rows 8192·t … 8192·t + 8191 of the input and the whole weight row, and writes the same rows of
  the result.  Entry (p, q) of a tile's result is x[p, 0] · W[0, q], which is entry (8192·t + p, q) of the stage
  applied to the whole arrays.  The 32 tiles cover every row, so the array the stage leaves is the stage's
  function of the arrays it found.
-/
import proofs.«168201_j91182155694152_1_alg».proof.Proof.Gen.KernelIdeal.Frame
import proofs.«168201_j91182155694152_1_alg».proof.Proof.DenseStages
import proofs.«168201_j91182155694152_1_alg».proof.Proof.LibDotCols

set_option maxRecDepth 16384

noncomputable section

open scoped BigOperators

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at an entry: the one-term sum over the single input feature. Rounding to the matrix
    unit's input format is the identity on the extended reals. -/
theorem tile_apply (x0 : Vec Ideal S8192x1 .f32) (x1 : Vec Ideal S1x128 .f32) (p : Fin 8192) (q : Fin 128) :
    k0_pay1 x0 x1 (ix2 p q) = ∑ k : Fin 1, x0 (ix2 p k) * x1 (ix2 k q) := by
  unfold k0_pay1
  exact Cert.Lib.DotCols.matmul_cols_apply _ rfl none _ _ p q

/-- A tile against the whole arrays: if the tile's rows are rows P … of `a` and its weights are `w`, entry (p, q)
    of the tile's result is entry (P, q) of the stage. -/
theorem tile_eq (a : FVec Ideal S262144x1 .f32) (w : FVec Ideal S1x128 .f32)
    (x0 : Vec Ideal S8192x1 .f32) (x1 : Vec Ideal S1x128 .f32)
    (p : Fin 8192) (q : Fin 128) (P : Fin 262144)
    (h0 : ∀ k : Fin 1, x0 (ix2 p k) = a (ix2 P k))
    (h1 : ∀ k : Fin 1, x1 (ix2 k q) = w (ix2 k q)) :
    k0_pay1 x0 x1 (ix2 p q) = Cert.Dense.linear1 a w (ix2 P q) := by
  rw [tile_apply, Cert.Dense.linear1_apply]
  exact Finset.sum_congr rfl fun k _ => by rw [h0, h1]

/-- The tiles' positions, decided over the 32 grid points: tile t is rows 8192·t …; the weights are the whole
    array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is tile t of the stage applied to the arrays the stage found. -/
theorem flushed_eq (c : Dev nD) (t : Fin cfg0.N) :
    (dat0 V c).flushed 2 t
      = ((cfg0.win 2).blk t).view.read (Elt Ideal) (Cert.Dense.linear1 (V c main_arg0) (V c main_arg2)) := by
  show (cfg0.win 2).cut (grid0.coords t) ((dat0 V c).after 2 t) = _
  rw [after0_2]
  unfold out0_2
  rw [View.canon_unit_zero hz]
  simp only [View.ld_unit_zero (S := S8192x1) hz, View.ld_unit_zero (S := S1x128) hz]
  obtain ⟨e0, e1, e2, e3, e6, e7⟩ := idx_facts t
  have ht : t.val < 32 := by have := t.isLt; have hN : cfg0.N = 32 := N_0; omega
  funext j
  obtain ⟨p, q, rfl⟩ : ∃ (p : Fin 8192) (q : Fin 128), j = ix2 p q := ⟨j 0, j 1, eq_ix2 j⟩
  show k0_pay1 (iblk0 V c 0 t) (iblk0 V c 1 t) (ix2 p q)
    = Cert.Dense.linear1 (V c main_arg0) (V c main_arg2) (((cfg0.win 2).blk t).view.emb (ix2 p q))
  have hemb : ((cfg0.win 2).blk t).view.emb (ix2 p q) = ix2 (⟨t.val * 8192 + p.val, by omega⟩ : Fin 262144) q := by
    funext a; apply Fin.ext
    match a with
    | ⟨0, _⟩ => show win0_2.index t (0 : Fin 2) * 8192 + 1 * p.val = t.val * 8192 + p.val; omega
    | ⟨1, _⟩ => show win0_2.index t (1 : Fin 2) * 128 + 1 * q.val = q.val; omega
  rw [hemb]
  refine tile_eq _ _ _ _ p q _ (fun k => ?_) (fun k => ?_)
  · show V c main_arg0 (((cfg0.win 0).blk t).view.emb (ix2 p k)) = V c main_arg0 _
    refine congrArg _ (funext fun a => Fin.ext ?_)
    match a with
    | ⟨0, _⟩ => show win0_0.index t (0 : Fin 2) * 8192 + 1 * p.val = t.val * 8192 + p.val; omega
    | ⟨1, _⟩ => show win0_0.index t (1 : Fin 2) * 1 + 1 * k.val = k.val; omega
  · show V c main_arg2 (((cfg0.win 1).blk t).view.emb (ix2 k q)) = V c main_arg2 _
    refine congrArg _ (funext fun a => Fin.ext ?_)
    match a with
    | ⟨0, _⟩ => show win0_1.index t (0 : Fin 2) * 1 + 1 * k.val = k.val; omega
    | ⟨1, _⟩ => show win0_1.index t (1 : Fin 2) * 128 + 1 * q.val = q.val; omega

/-- An index of the result array is in tile t iff each coordinate is in the tile's range on its axis. -/
theorem mem_blk (t : Fin cfg0.N) (i : S262144x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v31).slice (win0_2.rect t)).set ↔ _
  rw [View.set_slice_whole, Rect.mem_set_unit]
  exact Iff.rfl

/-- Every row is in some tile: row r is in tile r / 8192. -/
theorem cover (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  have hN : cfg0.N = 32 := N_0
  have ht : (i 0).val / 8192 < cfg0.N := by omega
  obtain ⟨e0, e1, e2, e3, e6, e7⟩ := idx_facts ⟨(i 0).val / 8192, ht⟩
  refine ⟨⟨(i 0).val / 8192, ht⟩, flush0_2 _, ?_⟩
  rw [mem_blk]
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    have e6' : win0_2.index ⟨(i 0).val / 8192, ht⟩ (0 : Fin 2) = (i 0).val / 8192 := e6
    omega
  | ⟨1, _⟩ =>
    show win0_2.index ⟨(i 0).val / 8192, ht⟩ (1 : Fin 2) * 128 ≤ (i 1).val
      ∧ (i 1).val < win0_2.index ⟨(i 0).val / 8192, ht⟩ (1 : Fin 2) * 128 + 128
    omega

/-- THE STAGE'S RESULT: the array the 32 tiles leave is the stage's function of the arrays it found, whatever
    those are. -/
theorem result (c : Dev nD) :
    (dat0 V c).arrAt 2 cfg0.N = Cert.Dense.linear1 (V c main_arg0) (V c main_arg2) :=
  (dat0 V c).arrAt_eq_of_cover 2 _ (fun t _ => flushed_eq V c t) cover

end Cert.KernelIdeal.Stage0

end
-- ==== Proof.Stage1.lean ====
/-
  The second dense stage of the encoder, tile by tile.

  The stage is  max (rows + b, 0) · W  over the 262144 node rows.  It is computed in 32 tiles of 8192 rows:
  tile t reads rows 8192·t … 8192·t + 8191 of the aggregated features, the whole bias row and the whole
  weight matrix, and writes the same rows of the result.  Entry (p, q) of a tile's result is
  Σ_k max (x[p, k] + b[k], 0) · W[k, q], which is entry (8192·t + p, q) of the stage applied to the whole
  arrays, because that entry reads row 8192·t + p only.  The 32 tiles cover every row, so the array the
  stage leaves is the stage's function of the arrays it found.
-/
import proofs.«168201_j91182155694152_1_alg».proof.Proof.Gen.KernelIdeal.Frame
import proofs.«168201_j91182155694152_1_alg».proof.Proof.DenseStages
import proofs.«168201_j91182155694152_1_alg».proof.Proof.LibDotCols

set_option maxRecDepth 16384

noncomputable section

open scoped BigOperators

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at an entry: the sum over the 128 features. Rounding to the matrix unit's input format
    is the identity on the extended reals. -/
theorem tile_apply (x0 : Vec Ideal S8192x128 .f32) (x1 : Vec Ideal S1x128 .f32) (x2 : Vec Ideal S128x128 .f32)
    (p : Fin 8192) (q : Fin 128) :
    k1_pay1 x0 x1 x2 (ix2 p q)
      = ∑ k : Fin 128, max (x0 (ix2 p k) + x1 (ix2 (0 : Fin 1) k)) (Ideal.ofBits .f32 0x00000000#32) * x2 (ix2 k q) := by
  unfold k1_pay1
  refine (Cert.Lib.DotCols.matmul_cols_apply _ rfl none _ _ p q).trans ?_
  refine Finset.sum_congr rfl fun k _ => ?_
  refine congrArg₂ (· * ·) ?_ rfl
  refine congrArg₂ max ?_ rfl
  refine congrArg₂ (· + ·) (congrFun (shapeCast_self x0 _) _) ?_
  refine (broadcastTo_apply _ broadcasts_S1x128_S8192x128 (ix2 p k) (ix2 (0 : Fin 1) k) (fun a => match a with
      | ⟨0, _⟩ => by show 0 = if (1 : Nat) = 1 then 0 else p.val; rw [if_pos rfl]
      | ⟨1, _⟩ => by show k.val = if (128 : Nat) = 1 then 0 else k.val; rw [if_neg (by decide)])).trans ?_
  exact congrFun (shapeCast_self x1 _) _

/-- A tile against the whole arrays: if the tile's rows are rows P … of `a`, its bias row is `b` and its
    weights are `w`, entry (p, q) of the tile's result is entry (P, q) of the stage. -/
theorem tile_eq (a : FVec Ideal S262144x128 .f32) (b : FVec Ideal S128 .f32) (w : FVec Ideal S128x128 .f32)
    (x0 : Vec Ideal S8192x128 .f32) (x1 : Vec Ideal S1x128 .f32) (x2 : Vec Ideal S128x128 .f32)
    (p : Fin 8192) (q : Fin 128) (P : Fin 262144)
    (h0 : ∀ k : Fin 128, x0 (ix2 p k) = a (ix2 P k))
    (h1 : ∀ k : Fin 128, x1 (ix2 (0 : Fin 1) k) = b (ix1 k))
    (h2 : ∀ k : Fin 128, x2 (ix2 k q) = w (ix2 k q)) :
    k1_pay1 x0 x1 x2 (ix2 p q) = Cert.Dense.reluLinear a b w (ix2 P q) := by
  rw [tile_apply, Cert.Dense.reluLinear_apply]
  exact Finset.sum_congr rfl fun k _ => by rw [h0, h1, h2]

/-- The tiles' positions, decided over the 32 grid points: tile t is rows 8192·t …; the bias row and the
    weights are the whole arrays at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is tile t of the stage applied to the arrays the stage found. -/
theorem flushed_eq (c : Dev nD) (b : FVec Ideal S128 .f32)
    (hb : ∀ k : Fin 128, V c main_v44 (ix2 (0 : Fin 1) k) = b (ix1 k)) (t : Fin cfg1.N) :
    (dat1 V c).flushed 3 t
      = ((cfg1.win 3).blk t).view.read (Elt Ideal) (Cert.Dense.reluLinear (V c main_v43) b (V c main_arg4)) := by
  show (cfg1.win 3).cut (grid1.coords t) ((dat1 V c).after 3 t) = _
  rw [after1_3]
  unfold out1_3
  rw [View.canon_unit_zero hz]
  simp only [View.ld_unit_zero (S := S8192x128) hz, View.ld_unit_zero (S := S1x128) hz, View.ld_unit_zero (S := S128x128) hz]
  obtain ⟨e0, e1, e2, e3, e4, e5, e6, e7⟩ := idx_facts t
  have ht : t.val < 32 := by have := t.isLt; have hN : cfg1.N = 32 := N_1; omega
  funext j
  obtain ⟨p, q, rfl⟩ : ∃ (p : Fin 8192) (q : Fin 128), j = ix2 p q := ⟨j 0, j 1, eq_ix2 j⟩
  show k1_pay1 (iblk1 V c 0 t) (iblk1 V c 1 t) (iblk1 V c 2 t) (ix2 p q)
    = Cert.Dense.reluLinear (V c main_v43) b (V c main_arg4) (((cfg1.win 3).blk t).view.emb (ix2 p q))
  have hemb : ((cfg1.win 3).blk t).view.emb (ix2 p q) = ix2 (⟨t.val * 8192 + p.val, by omega⟩ : Fin 262144) q := by
    funext a; apply Fin.ext
    match a with
    | ⟨0, _⟩ => show win1_3.index t (0 : Fin 2) * 8192 + 1 * p.val = t.val * 8192 + p.val; omega
    | ⟨1, _⟩ => show win1_3.index t (1 : Fin 2) * 128 + 1 * q.val = q.val; omega
  rw [hemb]
  refine tile_eq _ b _ _ _ _ p q _ (fun k => ?_) (fun k => ?_) (fun k => ?_)
  · show V c main_v43 (((cfg1.win 0).blk t).view.emb (ix2 p k)) = V c main_v43 _
    refine congrArg _ (funext fun a => Fin.ext ?_)
    match a with
    | ⟨0, _⟩ => show win1_0.index t (0 : Fin 2) * 8192 + 1 * p.val = t.val * 8192 + p.val; omega
    | ⟨1, _⟩ => show win1_0.index t (1 : Fin 2) * 128 + 1 * k.val = k.val; omega
  · refine Eq.trans ?_ (hb k)
    show V c main_v44 (((cfg1.win 1).blk t).view.emb (ix2 (0 : Fin 1) k)) = V c main_v44 _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 k q)) = V c main_arg4 _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega

/-- An index of the result array is in tile t iff each coordinate is in the tile's range on its axis. -/
theorem mem_blk (t : Fin cfg1.N) (i : S262144x128.Idx) :
    i ∈ ((cfg1.win 3).blk t).view.set ↔ ∀ a : Fin 2, win1_3.index t a * S8192x128.size a ≤ (i a).val
      ∧ (i a).val < win1_3.index t a * S8192x128.size a + S8192x128.size a := by
  show i ∈ ((View.whole main_v45).slice (win1_3.rect t)).set ↔ _
  rw [View.set_slice_whole, Rect.mem_set_unit]
  exact Iff.rfl

/-- Every row is in some tile: row r is in tile r / 8192. -/
theorem cover (i : S262144x128.Idx) :
    ∃ t : Fin cfg1.N, (cfg1.win 3).flush t = true ∧ i ∈ ((cfg1.win 3).blk t).view.set := by
  have hi0 : (i 0).val < 262144 := (i 0).isLt
  have hi1 : (i 1).val < 128 := (i 1).isLt
  have hN : cfg1.N = 32 := N_1
  have ht : (i 0).val / 8192 < cfg1.N := by omega
  obtain ⟨e0, e1, e2, e3, e4, e5, e6, e7⟩ := idx_facts ⟨(i 0).val / 8192, ht⟩
  refine ⟨⟨(i 0).val / 8192, ht⟩, flush1_3 _, ?_⟩
  rw [mem_blk]
  intro a
  match a with
  | ⟨0, _⟩ =>
    show win1_3.index ⟨(i 0).val / 8192, ht⟩ (0 : Fin 2) * 8192 ≤ (i 0).val
      ∧ (i 0).val < win1_3.index ⟨(i 0).val / 8192, ht⟩ (0 : Fin 2) * 8192 + 8192
    have e6' : win1_3.index ⟨(i 0).val / 8192, ht⟩ (0 : Fin 2) = (i 0).val / 8192 := e6
    omega
  | ⟨1, _⟩ =>
    show win1_3.index ⟨(i 0).val / 8192, ht⟩ (1 : Fin 2) * 128 ≤ (i 1).val
      ∧ (i 1).val < win1_3.index ⟨(i 0).val / 8192, ht⟩ (1 : Fin 2) * 128 + 128
    omega

/-- THE STAGE'S RESULT: the array the 32 tiles leave is the stage's function of the arrays it found, whatever
    those are, provided the bias row it found is `b` laid out as a row. -/
theorem result (c : Dev nD) (b : FVec Ideal S128 .f32)
    (hb : ∀ k : Fin 128, V c main_v44 (ix2 (0 : Fin 1) k) = b (ix1 k)) :
    (dat1 V c).arrAt 3 cfg1.N = Cert.Dense.reluLinear (V c main_v43) b (V c main_arg4) :=
  (dat1 V c).arrAt_eq_of_cover 3 _ (fun t _ => flushed_eq V c b hb t) cover

end Cert.KernelIdeal.Stage1

end
-- ==== Proof.Stage2.lean ====
/-
  The encoder's closing stage, tile by tile.

  The stage is  max (rows + b, 0)  over the 262144 node rows, entry by entry.  It is computed in 32 tiles of 8192
  rows: tile t reads rows 8192·t … 8192·t + 8191 of the aggregated features and the whole bias row, and writes
  the same rows of the result.  Entry (p, q) of a tile's result is max (x[p, q] + b[q], 0), which is entry
  (8192·t + p, q) of the stage applied to the whole arrays.  The 32 tiles cover every row, so the array the
  stage leaves is the stage's function of the arrays it found.
-/
import proofs.«168201_j91182155694152_1_alg».proof.Proof.Gen.KernelIdeal.Frame
import proofs.«168201_j91182155694152_1_alg».proof.Proof.DenseStages
import proofs.«168201_j91182155694152_1_alg».proof.Proof.LibDotCols

set_option maxRecDepth 16384

noncomputable section

open scoped BigOperators

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at an entry. -/
theorem tile_apply (x0 : Vec Ideal S8192x128 .f32) (x1 : Vec Ideal S1x128 .f32) (p : Fin 8192) (q : Fin 128) :
    k2_pay1 x0 x1 (ix2 p q) = max (x0 (ix2 p q) + x1 (ix2 (0 : Fin 1) q)) (Ideal.ofBits .f32 0x00000000#32) := by
  unfold k2_pay1
  refine congrArg₂ max ?_ rfl
  refine congrArg₂ (· + ·) (congrFun (shapeCast_self x0 _) _) ?_
  refine (broadcastTo_apply _ broadcasts_S1x128_S8192x128 (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])).trans ?_
  exact congrFun (shapeCast_self x1 _) _

/-- A tile against the whole arrays: if the tile's rows are rows P … of `a` and its bias row is `b`, entry (p, q)
    of the tile's result is entry (P, q) of the stage. -/
theorem tile_eq (a : FVec Ideal S262144x128 .f32) (b : FVec Ideal S128 .f32)
    (x0 : Vec Ideal S8192x128 .f32) (x1 : Vec Ideal S1x128 .f32)
    (p : Fin 8192) (q : Fin 128) (P : Fin 262144)
    (h0 : x0 (ix2 p q) = a (ix2 P q))
    (h1 : x1 (ix2 (0 : Fin 1) q) = b (ix1 q)) :
    k2_pay1 x0 x1 (ix2 p q) = Cert.Dense.biasRelu a b (ix2 P q) := by
  rw [tile_apply, Cert.Dense.biasRelu_apply, h0, h1]

/-- The tiles' positions, decided over the 32 grid points: tile t is rows 8192·t …; the bias row is the whole
    array at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is tile t of the stage applied to the arrays the stage found. -/
theorem flushed_eq (c : Dev nD) (b : FVec Ideal S128 .f32)
    (hb : ∀ k : Fin 128, V c main_v58 (ix2 (0 : Fin 1) k) = b (ix1 k)) (t : Fin cfg2.N) :
    (dat2 V c).flushed 2 t
      = ((cfg2.win 2).blk t).view.read (Elt Ideal) (Cert.Dense.biasRelu (V c main_v57) b) := by
  show (cfg2.win 2).cut (grid2.coords t) ((dat2 V c).after 2 t) = _
  rw [after2_2]
  unfold out2_2
  rw [View.canon_unit_zero hz]
  simp only [View.ld_unit_zero (S := S8192x128) hz, View.ld_unit_zero (S := S1x128) hz]
  obtain ⟨e0, e1, e2, e3, e6, e7⟩ := idx_facts t
  have ht : t.val < 32 := by have := t.isLt; have hN : cfg2.N = 32 := N_2; omega
  funext j
  obtain ⟨p, q, rfl⟩ : ∃ (p : Fin 8192) (q : Fin 128), j = ix2 p q := ⟨j 0, j 1, eq_ix2 j⟩
  show k2_pay1 (iblk2 V c 0 t) (iblk2 V c 1 t) (ix2 p q)
    = Cert.Dense.biasRelu (V c main_v57) b (((cfg2.win 2).blk t).view.emb (ix2 p q))
  have hemb : ((cfg2.win 2).blk t).view.emb (ix2 p q) = ix2 (⟨t.val * 8192 + p.val, by omega⟩ : Fin 262144) q := by
    funext a; apply Fin.ext
    match a with
    | ⟨0, _⟩ => show win2_2.index t (0 : Fin 2) * 8192 + 1 * p.val = t.val * 8192 + p.val; omega
    | ⟨1, _⟩ => show win2_2.index t (1 : Fin 2) * 128 + 1 * q.val = q.val; omega
  rw [hemb]
  refine tile_eq _ b _ _ p q _ ?_ ?_
  · show V c main_v57 (((cfg2.win 0).blk t).view.emb (ix2 p q)) = V c main_v57 _
    refine congrArg _ (funext fun a => Fin.ext ?_)
    match a with
    | ⟨0, _⟩ => show win2_0.index t (0 : Fin 2) * 8192 + 1 * p.val = t.val * 8192 + p.val; omega
    | ⟨1, _⟩ => show win2_0.index t (1 : Fin 2) * 128 + 1 * q.val = q.val; omega
  · refine Eq.trans ?_ (hb q)
    show V c main_v58 (((cfg2.win 1).blk t).view.emb (ix2 (0 : Fin 1) q)) = V c main_v58 _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega

/-- An index of the result array is in tile t iff each coordinate is in the tile's range on its axis. -/
theorem mem_blk (t : Fin cfg2.N) (i : S262144x128.Idx) :
    i ∈ ((cfg2.win 2).blk t).view.set ↔ ∀ a : Fin 2, win2_2.index t a * S8192x128.size a ≤ (i a).val
      ∧ (i a).val < win2_2.index t a * S8192x128.size a + S8192x128.size a := by
  show i ∈ ((View.whole main_v59).slice (win2_2.rect t)).set ↔ _
  rw [View.set_slice_whole, Rect.mem_set_unit]
  exact Iff.rfl

/-- Every row is in some tile: row r is in tile r / 8192. -/
theorem cover (i : S262144x128.Idx) :
    ∃ t : Fin cfg2.N, (cfg2.win 2).flush t = true ∧ i ∈ ((cfg2.win 2).blk t).view.set := by
  have hi0 : (i 0).val < 262144 := (i 0).isLt
  have hi1 : (i 1).val < 128 := (i 1).isLt
  have hN : cfg2.N = 32 := N_2
  have ht : (i 0).val / 8192 < cfg2.N := by omega
  obtain ⟨e0, e1, e2, e3, e6, e7⟩ := idx_facts ⟨(i 0).val / 8192, ht⟩
  refine ⟨⟨(i 0).val / 8192, ht⟩, flush2_2 _, ?_⟩
  rw [mem_blk]
  intro a
  match a with
  | ⟨0, _⟩ =>
    show win2_2.index ⟨(i 0).val / 8192, ht⟩ (0 : Fin 2) * 8192 ≤ (i 0).val
      ∧ (i 0).val < win2_2.index ⟨(i 0).val / 8192, ht⟩ (0 : Fin 2) * 8192 + 8192
    have e6' : win2_2.index ⟨(i 0).val / 8192, ht⟩ (0 : Fin 2) = (i 0).val / 8192 := e6
    omega
  | ⟨1, _⟩ =>
    show win2_2.index ⟨(i 0).val / 8192, ht⟩ (1 : Fin 2) * 128 ≤ (i 1).val
      ∧ (i 1).val < win2_2.index ⟨(i 0).val / 8192, ht⟩ (1 : Fin 2) * 128 + 128
    omega

/-- THE STAGE'S RESULT: the array the 32 tiles leave is the stage's function of the arrays it found, whatever
    those are, provided the bias row it found is `b` laid out as a row. -/
theorem result (c : Dev nD) (b : FVec Ideal S128 .f32)
    (hb : ∀ k : Fin 128, V c main_v58 (ix2 (0 : Fin 1) k) = b (ix1 k)) :
    (dat2 V c).arrAt 2 cfg2.N = Cert.Dense.biasRelu (V c main_v57) b :=
  (dat2 V c).arrAt_eq_of_cover 2 _ (fun t _ => flushed_eq V c b hb t) cover

end Cert.KernelIdeal.Stage2

end
-- ==== Proof.Stage3.lean ====
/-
  The first dense stage of the decoder, tile by tile.

  The stage is  rows · W  for the 262144 node rows of 128 features (each node's row is its graph's latent
  row).  It is computed in 32 tiles of 8192 rows: tile t reads rows 8192·t … 8192·t + 8191 of the input and the
  whole weight matrix, and writes the same rows of the result.  Entry (p, q) of a tile's result is
  Σ_k x[p, k] · W[k, q], which is entry (8192·t + p, q) of the stage applied to the whole arrays.  The 32 tiles
  cover every row, so the array the stage leaves is the stage's function of the arrays it found.
-/
import proofs.«168201_j91182155694152_1_alg».proof.Proof.Gen.KernelIdeal.Frame
import proofs.«168201_j91182155694152_1_alg».proof.Proof.DenseStages
import proofs.«168201_j91182155694152_1_alg».proof.Proof.LibDotCols

set_option maxRecDepth 16384

noncomputable section

open scoped BigOperators

namespace Cert.KernelIdeal.Stage3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at an entry: the sum over the 128 features. Rounding to the matrix
    unit's input format is the identity on the extended reals. -/
theorem tile_apply (x0 : Vec Ideal S8192x128 .f32) (x1 : Vec Ideal S128x128 .f32) (p : Fin 8192) (q : Fin 128) :
    k3_pay1 x0 x1 (ix2 p q) = ∑ k : Fin 128, x0 (ix2 p k) * x1 (ix2 k q) := by
  unfold k3_pay1
  refine (Cert.Lib.DotCols.matmul_cols_apply _ rfl none _ _ p q).trans ?_
  refine Finset.sum_congr rfl fun k _ => ?_
  exact congrArg₂ (· * ·) (congrFun (shapeCast_self x0 _) _) rfl

/-- A tile against the whole arrays: if the tile's rows are rows P … of `a` and its weights are `w`, entry (p, q)
    of the tile's result is entry (P, q) of the stage. -/
theorem tile_eq (a : FVec Ideal S262144x128 .f32) (w : FVec Ideal S128x128 .f32)
    (x0 : Vec Ideal S8192x128 .f32) (x1 : Vec Ideal S128x128 .f32)
    (p : Fin 8192) (q : Fin 128) (P : Fin 262144)
    (h0 : ∀ k : Fin 128, x0 (ix2 p k) = a (ix2 P k))
    (h1 : ∀ k : Fin 128, x1 (ix2 k q) = w (ix2 k q)) :
    k3_pay1 x0 x1 (ix2 p q) = Cert.Dense.linear a w (ix2 P q) := by
  rw [tile_apply, Cert.Dense.linear_apply]
  exact Finset.sum_congr rfl fun k _ => by rw [h0, h1]

/-- The tiles' positions, decided over the 32 grid points: tile t is rows 8192·t …; the weights are the whole
    array at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is tile t of the stage applied to the arrays the stage found. -/
theorem flushed_eq (c : Dev nD) (t : Fin cfg3.N) :
    (dat3 V c).flushed 2 t
      = ((cfg3.win 2).blk t).view.read (Elt Ideal) (Cert.Dense.linear (V c main_v93) (V c main_arg12)) := by
  show (cfg3.win 2).cut (grid3.coords t) ((dat3 V c).after 2 t) = _
  rw [after3_2]
  unfold out3_2
  rw [View.canon_unit_zero hz]
  simp only [View.ld_unit_zero (S := S8192x128) hz, View.ld_unit_zero (S := S128x128) hz]
  obtain ⟨e0, e1, e2, e3, e6, e7⟩ := idx_facts t
  have ht : t.val < 32 := by have := t.isLt; have hN : cfg3.N = 32 := N_3; omega
  funext j
  obtain ⟨p, q, rfl⟩ : ∃ (p : Fin 8192) (q : Fin 128), j = ix2 p q := ⟨j 0, j 1, eq_ix2 j⟩
  show k3_pay1 (iblk3 V c 0 t) (iblk3 V c 1 t) (ix2 p q)
    = Cert.Dense.linear (V c main_v93) (V c main_arg12) (((cfg3.win 2).blk t).view.emb (ix2 p q))
  have hemb : ((cfg3.win 2).blk t).view.emb (ix2 p q) = ix2 (⟨t.val * 8192 + p.val, by omega⟩ : Fin 262144) q := by
    funext a; apply Fin.ext
    match a with
    | ⟨0, _⟩ => show win3_2.index t (0 : Fin 2) * 8192 + 1 * p.val = t.val * 8192 + p.val; omega
    | ⟨1, _⟩ => show win3_2.index t (1 : Fin 2) * 128 + 1 * q.val = q.val; omega
  rw [hemb]
  refine tile_eq _ _ _ _ p q _ (fun k => ?_) (fun k => ?_)
  · show V c main_v93 (((cfg3.win 0).blk t).view.emb (ix2 p k)) = V c main_v93 _
    refine congrArg _ (funext fun a => Fin.ext ?_)
    match a with
    | ⟨0, _⟩ => show win3_0.index t (0 : Fin 2) * 8192 + 1 * p.val = t.val * 8192 + p.val; omega
    | ⟨1, _⟩ => show win3_0.index t (1 : Fin 2) * 128 + 1 * k.val = k.val; omega
  · show V c main_arg12 (((cfg3.win 1).blk t).view.emb (ix2 k q)) = V c main_arg12 _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega

/-- An index of the result array is in tile t iff each coordinate is in the tile's range on its axis. -/
theorem mem_blk (t : Fin cfg3.N) (i : S262144x128.Idx) :
    i ∈ ((cfg3.win 2).blk t).view.set ↔ ∀ a : Fin 2, win3_2.index t a * S8192x128.size a ≤ (i a).val
      ∧ (i a).val < win3_2.index t a * S8192x128.size a + S8192x128.size a := by
  show i ∈ ((View.whole main_v94).slice (win3_2.rect t)).set ↔ _
  rw [View.set_slice_whole, Rect.mem_set_unit]
  exact Iff.rfl

/-- Every row is in some tile: row r is in tile r / 8192. -/
theorem cover (i : S262144x128.Idx) :
    ∃ t : Fin cfg3.N, (cfg3.win 2).flush t = true ∧ i ∈ ((cfg3.win 2).blk t).view.set := by
  have hi0 : (i 0).val < 262144 := (i 0).isLt
  have hi1 : (i 1).val < 128 := (i 1).isLt
  have hN : cfg3.N = 32 := N_3
  have ht : (i 0).val / 8192 < cfg3.N := by omega
  obtain ⟨e0, e1, e2, e3, e6, e7⟩ := idx_facts ⟨(i 0).val / 8192, ht⟩
  refine ⟨⟨(i 0).val / 8192, ht⟩, flush3_2 _, ?_⟩
  rw [mem_blk]
  intro a
  match a with
  | ⟨0, _⟩ =>
    show win3_2.index ⟨(i 0).val / 8192, ht⟩ (0 : Fin 2) * 8192 ≤ (i 0).val
      ∧ (i 0).val < win3_2.index ⟨(i 0).val / 8192, ht⟩ (0 : Fin 2) * 8192 + 8192
    have e6' : win3_2.index ⟨(i 0).val / 8192, ht⟩ (0 : Fin 2) = (i 0).val / 8192 := e6
    omega
  | ⟨1, _⟩ =>
    show win3_2.index ⟨(i 0).val / 8192, ht⟩ (1 : Fin 2) * 128 ≤ (i 1).val
      ∧ (i 1).val < win3_2.index ⟨(i 0).val / 8192, ht⟩ (1 : Fin 2) * 128 + 128
    omega

/-- THE STAGE'S RESULT: the array the 32 tiles leave is the stage's function of the arrays it found, whatever
    those are. -/
theorem result (c : Dev nD) :
    (dat3 V c).arrAt 2 cfg3.N = Cert.Dense.linear (V c main_v93) (V c main_arg12) :=
  (dat3 V c).arrAt_eq_of_cover 2 _ (fun t _ => flushed_eq V c t) cover

end Cert.KernelIdeal.Stage3

end
-- ==== Proof.Stage4.lean ====
/-
  The second dense stage of the decoder, tile by tile.

  The stage is  max (rows + b, 0) · W  over the 262144 node rows.  It is computed in 32 tiles of 8192 rows:
  tile t reads rows 8192·t … 8192·t + 8191 of the aggregated features, the whole bias row and the whole
  weight matrix, and writes the same rows of the result.  Entry (p, q) of a tile's result is
  Σ_k max (x[p, k] + b[k], 0) · W[k, q], which is entry (8192·t + p, q) of the stage applied to the whole
  arrays, because that entry reads row 8192·t + p only.  The 32 tiles cover every row, so the array the
  stage leaves is the stage's function of the arrays it found.
-/
import proofs.«168201_j91182155694152_1_alg».proof.Proof.Gen.KernelIdeal.Frame
import proofs.«168201_j91182155694152_1_alg».proof.Proof.DenseStages
import proofs.«168201_j91182155694152_1_alg».proof.Proof.LibDotCols

set_option maxRecDepth 16384

noncomputable section

open scoped BigOperators

namespace Cert.KernelIdeal.Stage4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at an entry: the sum over the 128 features. Rounding to the matrix unit's input format
    is the identity on the extended reals. -/
theorem tile_apply (x0 : Vec Ideal S8192x128 .f32) (x1 : Vec Ideal S1x128 .f32) (x2 : Vec Ideal S128x128 .f32)
    (p : Fin 8192) (q : Fin 128) :
    k4_pay1 x0 x1 x2 (ix2 p q)
      = ∑ k : Fin 128, max (x0 (ix2 p k) + x1 (ix2 (0 : Fin 1) k)) (Ideal.ofBits .f32 0x00000000#32) * x2 (ix2 k q) := by
  unfold k4_pay1
  refine (Cert.Lib.DotCols.matmul_cols_apply _ rfl none _ _ p q).trans ?_
  refine Finset.sum_congr rfl fun k _ => ?_
  refine congrArg₂ (· * ·) ?_ rfl
  refine congrArg₂ max ?_ rfl
  refine congrArg₂ (· + ·) (congrFun (shapeCast_self x0 _) _) ?_
  refine (broadcastTo_apply _ broadcasts_S1x128_S8192x128 (ix2 p k) (ix2 (0 : Fin 1) k) (fun a => match a with
      | ⟨0, _⟩ => by show 0 = if (1 : Nat) = 1 then 0 else p.val; rw [if_pos rfl]
      | ⟨1, _⟩ => by show k.val = if (128 : Nat) = 1 then 0 else k.val; rw [if_neg (by decide)])).trans ?_
  exact congrFun (shapeCast_self x1 _) _

/-- A tile against the whole arrays: if the tile's rows are rows P … of `a`, its bias row is `b` and its
    weights are `w`, entry (p, q) of the tile's result is entry (P, q) of the stage. -/
theorem tile_eq (a : FVec Ideal S262144x128 .f32) (b : FVec Ideal S128 .f32) (w : FVec Ideal S128x128 .f32)
    (x0 : Vec Ideal S8192x128 .f32) (x1 : Vec Ideal S1x128 .f32) (x2 : Vec Ideal S128x128 .f32)
    (p : Fin 8192) (q : Fin 128) (P : Fin 262144)
    (h0 : ∀ k : Fin 128, x0 (ix2 p k) = a (ix2 P k))
    (h1 : ∀ k : Fin 128, x1 (ix2 (0 : Fin 1) k) = b (ix1 k))
    (h2 : ∀ k : Fin 128, x2 (ix2 k q) = w (ix2 k q)) :
    k4_pay1 x0 x1 x2 (ix2 p q) = Cert.Dense.reluLinear a b w (ix2 P q) := by
  rw [tile_apply, Cert.Dense.reluLinear_apply]
  exact Finset.sum_congr rfl fun k _ => by rw [h0, h1, h2]

/-- The tiles' positions, decided over the 32 grid points: tile t is rows 8192·t …; the bias row and the
    weights are the whole arrays at every point. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What grid point t writes back is tile t of the stage applied to the arrays the stage found. -/
theorem flushed_eq (c : Dev nD) (b : FVec Ideal S128 .f32)
    (hb : ∀ k : Fin 128, V c main_v107 (ix2 (0 : Fin 1) k) = b (ix1 k)) (t : Fin cfg4.N) :
    (dat4 V c).flushed 3 t
      = ((cfg4.win 3).blk t).view.read (Elt Ideal) (Cert.Dense.reluLinear (V c main_v106) b (V c main_arg14)) := by
  show (cfg4.win 3).cut (grid4.coords t) ((dat4 V c).after 3 t) = _
  rw [after4_3]
  unfold out4_3
  rw [View.canon_unit_zero hz]
  simp only [View.ld_unit_zero (S := S8192x128) hz, View.ld_unit_zero (S := S1x128) hz, View.ld_unit_zero (S := S128x128) hz]
  obtain ⟨e0, e1, e2, e3, e4, e5, e6, e7⟩ := idx_facts t
  have ht : t.val < 32 := by have := t.isLt; have hN : cfg4.N = 32 := N_4; omega
  funext j
  obtain ⟨p, q, rfl⟩ : ∃ (p : Fin 8192) (q : Fin 128), j = ix2 p q := ⟨j 0, j 1, eq_ix2 j⟩
  show k4_pay1 (iblk4 V c 0 t) (iblk4 V c 1 t) (iblk4 V c 2 t) (ix2 p q)
    = Cert.Dense.reluLinear (V c main_v106) b (V c main_arg14) (((cfg4.win 3).blk t).view.emb (ix2 p q))
  have hemb : ((cfg4.win 3).blk t).view.emb (ix2 p q) = ix2 (⟨t.val * 8192 + p.val, by omega⟩ : Fin 262144) q := by
    funext a; apply Fin.ext
    match a with
    | ⟨0, _⟩ => show win4_3.index t (0 : Fin 2) * 8192 + 1 * p.val = t.val * 8192 + p.val; omega
    | ⟨1, _⟩ => show win4_3.index t (1 : Fin 2) * 128 + 1 * q.val = q.val; omega
  rw [hemb]
  refine tile_eq _ b _ _ _ _ p q _ (fun k => ?_) (fun k => ?_) (fun k => ?_)
  · show V c main_v106 (((cfg4.win 0).blk t).view.emb (ix2 p k)) = V c main_v106 _
    refine congrArg _ (funext fun a => Fin.ext ?_)
    match a with
    | ⟨0, _⟩ => show win4_0.index t (0 : Fin 2) * 8192 + 1 * p.val = t.val * 8192 + p.val; omega
    | ⟨1, _⟩ => show win4_0.index t (1 : Fin 2) * 128 + 1 * k.val = k.val; omega
  · refine Eq.trans ?_ (hb k)
    show V c main_v107 (((cfg4.win 1).blk t).view.emb (ix2 (0 : Fin 1) k)) = V c main_v107 _
    refine congrArg _ (funext fun a => Fin.ext ?_)
    match a with
    | ⟨0, _⟩ => show win4_1.index t (0 : Fin 2) * 1 + 1 * 0 = 0; omega
    | ⟨1, _⟩ => show win4_1.index t (1 : Fin 2) * 128 + 1 * k.val = k.val; omega
  · show V c main_arg14 (((cfg4.win 2).blk t).view.emb (ix2 k q)) = V c main_arg14 _
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * q.val = q.val; omega

/-- An index of the result array is in tile t iff each coordinate is in the tile's range on its axis. -/
theorem mem_blk (t : Fin cfg4.N) (i : S262144x128.Idx) :
    i ∈ ((cfg4.win 3).blk t).view.set ↔ ∀ a : Fin 2, win4_3.index t a * S8192x128.size a ≤ (i a).val
      ∧ (i a).val < win4_3.index t a * S8192x128.size a + S8192x128.size a := by
  show i ∈ ((View.whole main_v108).slice (win4_3.rect t)).set ↔ _
  rw [View.set_slice_whole, Rect.mem_set_unit]
  exact Iff.rfl

/-- Every row is in some tile: row r is in tile r / 8192. -/
theorem cover (i : S262144x128.Idx) :
    ∃ t : Fin cfg4.N, (cfg4.win 3).flush t = true ∧ i ∈ ((cfg4.win 3).blk t).view.set := by
  have hi0 : (i 0).val < 262144 := (i 0).isLt
  have hi1 : (i 1).val < 128 := (i 1).isLt
  have hN : cfg4.N = 32 := N_4
  have ht : (i 0).val / 8192 < cfg4.N := by omega
  obtain ⟨e0, e1, e2, e3, e4, e5, e6, e7⟩ := idx_facts ⟨(i 0).val / 8192, ht⟩
  refine ⟨⟨(i 0).val / 8192, ht⟩, flush4_3 _, ?_⟩
  rw [mem_blk]
  intro a
  match a with
  | ⟨0, _⟩ =>
    show win4_3.index ⟨(i 0).val / 8192, ht⟩ (0 : Fin 2) * 8192 ≤ (i 0).val
      ∧ (i 0).val < win4_3.index ⟨(i 0).val / 8192, ht⟩ (0 : Fin 2) * 8192 + 8192
    have e6' : win4_3.index ⟨(i 0).val / 8192, ht⟩ (0 : Fin 2) = (i 0).val / 8192 := e6
    omega
  | ⟨1, _⟩ =>
    show win4_3.index ⟨(i 0).val / 8192, ht⟩ (1 : Fin 2) * 128 ≤ (i 1).val
      ∧ (i 1).val < win4_3.index ⟨(i 0).val / 8192, ht⟩ (1 : Fin 2) * 128 + 128
    omega

/-- THE STAGE'S RESULT: the array the 32 tiles leave is the stage's function of the arrays it found, whatever
    those are, provided the bias row it found is `b` laid out as a row. -/
theorem result (c : Dev nD) (b : FVec Ideal S128 .f32)
    (hb : ∀ k : Fin 128, V c main_v107 (ix2 (0 : Fin 1) k) = b (ix1 k)) :
    (dat4 V c).arrAt 3 cfg4.N = Cert.Dense.reluLinear (V c main_v106) b (V c main_arg14) :=
  (dat4 V c).arrAt_eq_of_cover 3 _ (fun t _ => flushed_eq V c b hb t) cover

end Cert.KernelIdeal.Stage4

end
-- ==== Proof.Stage5.lean ====
/-
  The decoder's closing stage, tile by tile.

  The stage is  tanh (max (rows + b, 0) · w + c)  over the 262144 node rows, with w one column and c one
  number: one output per node.  It is computed in 32 tiles of 8192 rows: tile t reads rows 8192·t … 8192·t + 8191
  of the aggregated features, the whole bias row, the whole weight column and the output bias, and writes the
  same rows of the result.  Entry (p, 0) of a tile's result is tanh (Σ_k max (x[p, k] + b[k], 0) · w[k, 0] + c),
  which is entry (8192·t + p, 0) of the stage applied to the whole arrays.  The 32 tiles cover every row, so
  the array the stage leaves is the stage's function of the arrays it found.
-/
import proofs.«168201_j91182155694152_1_alg».proof.Proof.Gen.KernelIdeal.Frame
import proofs.«168201_j91182155694152_1_alg».proof.Proof.DenseStages
import proofs.«168201_j91182155694152_1_alg».proof.Proof.LibDotCols

set_option maxRecDepth 16384

noncomputable section

open scoped BigOperators

namespace Cert.KernelIdeal.Stage5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- One tile's result at an entry: tanh of the sum over the 128 features plus the output bias. Rounding to the
    matrix unit's input format is the identity on the extended reals. -/
theorem tile_apply (x0 : Vec Ideal S8192x128 .f32) (x1 : Vec Ideal S1x128 .f32) (x2 : Vec Ideal S128x1 .f32)
    (x3 : Vec Ideal S1x1 .f32) (p : Fin 8192) (q : Fin 1) :
    k5_pay1 x0 x1 x2 x3 (ix2 p q)
      = Ideal.tanh ((∑ k : Fin 128, max (x0 (ix2 p k) + x1 (ix2 (0 : Fin 1) k)) (Ideal.ofBits .f32 0x00000000#32) * x2 (ix2 k q))
          + x3 (ix2 (0 : Fin 1) q)) := by
  unfold k5_pay1
  show Ideal.tanh (_ + _) = _
  refine congrArg Ideal.tanh (congrArg₂ (· + ·) ?_ ?_)
  · refine (Cert.Lib.DotCols.matmul_cols_apply _ rfl none _ _ p q).trans ?_
    refine Finset.sum_congr rfl fun k _ => ?_
    refine congrArg₂ (· * ·) ?_ rfl
    refine congrArg₂ max ?_ rfl
    refine congrArg₂ (· + ·) (congrFun (shapeCast_self x0 _) _) ?_
    refine (broadcastTo_apply _ broadcasts_S1x128_S8192x128 (ix2 p k) (ix2 (0 : Fin 1) k) (fun a => match a with
        | ⟨0, _⟩ => by show 0 = if (1 : Nat) = 1 then 0 else p.val; rw [if_pos rfl]
        | ⟨1, _⟩ => by show k.val = if (128 : Nat) = 1 then 0 else k.val; rw [if_neg (by decide)])).trans ?_
    exact congrFun (shapeCast_self x1 _) _
  · refine (broadcastTo_apply _ broadcasts_S1x1_S8192x1 (ix2 p q) (ix2 (0 : Fin 1) q) (fun a => match a with
        | ⟨0, _⟩ => by show 0 = if (1 : Nat) = 1 then 0 else p.val; rw [if_pos rfl]
        | ⟨1, _⟩ => by show q.val = if (1 : Nat) = 1 then 0 else q.val; rw [if_pos rfl]; exact Nat.lt_one_iff.mp q.isLt)).trans ?_
    exact congrFun (shapeCast_self x3 _) _

/-- A tile against the whole arrays: if the tile's rows are rows P … of `a`, its bias row is `b`, its weights
    are `w` and its output bias is `c`, entry (p, q) of the tile's result is entry (P, q) of the stage. -/
theorem tile_eq (a : FVec Ideal S262144x128 .f32) (b : FVec Ideal S128 .f32) (w : FVec Ideal S128x1 .f32) (c : FVec Ideal S1 .f32)
    (x0 : Vec Ideal S8192x128 .f32) (x1 : Vec Ideal S1x128 .f32) (x2 : Vec Ideal S128x1 .f32) (x3 : Vec Ideal S1x1 .f32)
    (p : Fin 8192) (q : Fin 1) (P : Fin 262144)
    (h0 : ∀ k : Fin 128, x0 (ix2 p k) = a (ix2 P k))
    (h1 : ∀ k : Fin 128, x1 (ix2 (0 : Fin 1) k) = b (ix1 k))
    (h2 : ∀ k : Fin 128, x2 (ix2 k q) = w (ix2 k q))
    (h3 : x3 (ix2 (0 : Fin 1) q) = c (ix1 q)) :
    k5_pay1 x0 x1 x2 x3 (ix2 p q) = Cert.Dense.reluLinearTanh a b w c (ix2 P q) := by
  rw [tile_apply, Cert.Dense.reluLinearTanh_apply, h3]
  refine congrArg Ideal.tanh (congrArg₂ (· + ·) ?_ rfl)
  exact Finset.sum_congr rfl fun k _ => by rw [h0, h1, h2]

/-- The tiles' positions, decided over the 32 grid points: tile t is rows 8192·t …; the bias row, the weights
    and the output bias are the whole arrays at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What grid point t writes back is tile t of the stage applied to the arrays the stage found. -/
theorem flushed_eq (c : Dev nD) (b : FVec Ideal S128 .f32) (ob : FVec Ideal S1 .f32)
    (hb : ∀ k : Fin 128, V c main_v121 (ix2 (0 : Fin 1) k) = b (ix1 k))
    (hob : ∀ q : Fin 1, V c main_v122 (ix2 (0 : Fin 1) q) = ob (ix1 q)) (t : Fin cfg5.N) :
    (dat5 V c).flushed 4 t
      = ((cfg5.win 4).blk t).view.read (Elt Ideal) (Cert.Dense.reluLinearTanh (V c main_v120) b (V c main_arg16) ob) := by
  show (cfg5.win 4).cut (grid5.coords t) ((dat5 V c).after 4 t) = _
  rw [after5_4]
  unfold out5_4
  rw [View.canon_unit_zero hz]
  simp only [View.ld_unit_zero (S := S8192x128) hz, View.ld_unit_zero (S := S1x128) hz, View.ld_unit_zero (S := S128x1) hz,
    View.ld_unit_zero (S := S1x1) hz]
  obtain ⟨e0, e1, e2, e3, e4, e5, e8, e9, e6, e7⟩ := idx_facts t
  have ht : t.val < 32 := by have := t.isLt; have hN : cfg5.N = 32 := N_5; omega
  funext j
  obtain ⟨p, q, rfl⟩ : ∃ (p : Fin 8192) (q : Fin 1), j = ix2 p q := ⟨j 0, j 1, eq_ix2 j⟩
  show k5_pay1 (iblk5 V c 0 t) (iblk5 V c 1 t) (iblk5 V c 2 t) (iblk5 V c 3 t) (ix2 p q)
    = Cert.Dense.reluLinearTanh (V c main_v120) b (V c main_arg16) ob (((cfg5.win 4).blk t).view.emb (ix2 p q))
  have hemb : ((cfg5.win 4).blk t).view.emb (ix2 p q) = ix2 (⟨t.val * 8192 + p.val, by omega⟩ : Fin 262144) q := by
    funext a; apply Fin.ext
    match a with
    | ⟨0, _⟩ => show win5_4.index t (0 : Fin 2) * 8192 + 1 * p.val = t.val * 8192 + p.val; omega
    | ⟨1, _⟩ => show win5_4.index t (1 : Fin 2) * 1 + 1 * q.val = q.val; omega
  rw [hemb]
  refine tile_eq _ b _ ob _ _ _ _ p q _ (fun k => ?_) (fun k => ?_) (fun k => ?_) ?_
  · show V c main_v120 (((cfg5.win 0).blk t).view.emb (ix2 p k)) = V c main_v120 _
    refine congrArg _ (funext fun a => Fin.ext ?_)
    match a with
    | ⟨0, _⟩ => show win5_0.index t (0 : Fin 2) * 8192 + 1 * p.val = t.val * 8192 + p.val; omega
    | ⟨1, _⟩ => show win5_0.index t (1 : Fin 2) * 128 + 1 * k.val = k.val; omega
  · refine Eq.trans ?_ (hb k)
    show V c main_v121 (((cfg5.win 1).blk t).view.emb (ix2 (0 : Fin 1) k)) = V c main_v121 _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * k.val = k.val; omega
  · show V c main_arg16 (((cfg5.win 2).blk t).view.emb (ix2 k q)) = V c main_arg16 _
    refine congrArg _ (funext fun a => Fin.ext ?_)
    match a with
    | ⟨0, _⟩ => show win5_2.index t (0 : Fin 2) * 128 + 1 * k.val = k.val; omega
    | ⟨1, _⟩ => show win5_2.index t (1 : Fin 2) * 1 + 1 * q.val = q.val; omega
  · refine Eq.trans ?_ (hob q)
    show V c main_v122 (((cfg5.win 3).blk t).view.emb (ix2 (0 : Fin 1) q)) = V c main_v122 _
    refine congrArg _ (funext fun a => Fin.ext ?_)
    match a with
    | ⟨0, _⟩ => show win5_3.index t (0 : Fin 2) * 1 + 1 * 0 = 0; omega
    | ⟨1, _⟩ => show win5_3.index t (1 : Fin 2) * 1 + 1 * q.val = q.val; omega

/-- An index of the result array is in tile t iff each coordinate is in the tile's range on its axis. -/
theorem mem_blk (t : Fin cfg5.N) (i : S262144x1.Idx) :
    i ∈ ((cfg5.win 4).blk t).view.set ↔ ∀ a : Fin 2, win5_4.index t a * S8192x1.size a ≤ (i a).val
      ∧ (i a).val < win5_4.index t a * S8192x1.size a + S8192x1.size a := by
  show i ∈ ((View.whole main_v123).slice (win5_4.rect t)).set ↔ _
  rw [View.set_slice_whole, Rect.mem_set_unit]
  exact Iff.rfl

/-- Every row is in some tile: row r is in tile r / 8192. -/
theorem cover (i : S262144x1.Idx) :
    ∃ t : Fin cfg5.N, (cfg5.win 4).flush t = true ∧ i ∈ ((cfg5.win 4).blk t).view.set := by
  have hi0 : (i 0).val < 262144 := (i 0).isLt
  have hi1 : (i 1).val < 1 := (i 1).isLt
  have hN : cfg5.N = 32 := N_5
  have ht : (i 0).val / 8192 < cfg5.N := by omega
  obtain ⟨e0, e1, e2, e3, e4, e5, e8, e9, e6, e7⟩ := idx_facts ⟨(i 0).val / 8192, ht⟩
  refine ⟨⟨(i 0).val / 8192, ht⟩, flush5_4 _, ?_⟩
  rw [mem_blk]
  intro a
  match a with
  | ⟨0, _⟩ =>
    show win5_4.index ⟨(i 0).val / 8192, ht⟩ (0 : Fin 2) * 8192 ≤ (i 0).val
      ∧ (i 0).val < win5_4.index ⟨(i 0).val / 8192, ht⟩ (0 : Fin 2) * 8192 + 8192
    have e6' : win5_4.index ⟨(i 0).val / 8192, ht⟩ (0 : Fin 2) = (i 0).val / 8192 := e6
    omega
  | ⟨1, _⟩ =>
    show win5_4.index ⟨(i 0).val / 8192, ht⟩ (1 : Fin 2) * 1 ≤ (i 1).val
      ∧ (i 1).val < win5_4.index ⟨(i 0).val / 8192, ht⟩ (1 : Fin 2) * 1 + 1
    omega

/-- THE STAGE'S RESULT: the array the 32 tiles leave is the stage's function of the arrays it found, whatever
    those are, provided the bias row it found is `b` laid out as a row and the output bias it found is `ob`. -/
theorem result (c : Dev nD) (b : FVec Ideal S128 .f32) (ob : FVec Ideal S1 .f32)
    (hb : ∀ k : Fin 128, V c main_v121 (ix2 (0 : Fin 1) k) = b (ix1 k))
    (hob : ∀ q : Fin 1, V c main_v122 (ix2 (0 : Fin 1) q) = ob (ix1 q)) :
    (dat5 V c).arrAt 4 cfg5.N = Cert.Dense.reluLinearTanh (V c main_v120) b (V c main_arg16) ob :=
  (dat5 V c).arrAt_eq_of_cover 4 _ (fun t _ => flushed_eq V c b ob hb hob t) cover

end Cert.KernelIdeal.Stage5

end
-- ==== Proof.BridgeKeep.lean ====
/-
  Which buffers a stretch of host operations leaves alone.

  Each stretch of host operations of the tiled program, and each of the thirteen consecutive pieces of the plain
  program, writes a known list of buffers (every operation writes exactly its result buffer).  A buffer outside
  the list holds after the stretch what it held before.  This is how the edge lists, the edge weights, the
  weights and biases, and the three latent results travel unchanged from where they are made to where they are
  read, in both programs.
-/
import proofs.«168201_j91182155694152_1_alg».proof.Proof.Gen.KernelIdeal.Launch
import proofs.«168201_j91182155694152_1_alg».proof.Proof.RefLine
import Idealize.ShloMosaic.Lib.ValueIdx
import Idealize.ShloMosaic.Lib.Pipeline.Value
import Idealize.ShloMosaic.Lib.StableHlo.Run

set_option maxRecDepth 16384
set_option maxHeartbeats 4000000

noncomputable section

namespace Cert.Bridge

open Idealize.ShloMosaic Idealize.ShloMosaic.TcCoe Idealize.ShloMosaic.ValueIdx Idealize.SL.Sem Idealize.ShloMosaic.StableHlo

theorem writesK0 : (Cert.KernelIdeal.Gen.hostOps0 : List (HloOp Cert.KernelIdeal.τ Cert.KernelIdeal.sig (Elt Ideal))).Forall fun op =>
    op.writes ⊆ (([Cert.KernelIdeal.main_v0, Cert.KernelIdeal.main_v1, Cert.KernelIdeal.main_v2, Cert.KernelIdeal.main_v3, Cert.KernelIdeal.main_v4, Cert.KernelIdeal.main_v5, Cert.KernelIdeal.main_v6, Cert.KernelIdeal.main_cst, Cert.KernelIdeal.main_v7, Cert.KernelIdeal.main_cst_0, Cert.KernelIdeal.main_v8, Cert.KernelIdeal.main_v9, Cert.KernelIdeal.main_v10, Cert.KernelIdeal.main_cst_1, Cert.KernelIdeal.main_v11, Cert.KernelIdeal.main_v12, Cert.KernelIdeal.main_v13, Cert.KernelIdeal.main_cst_2] : List (Ref Cert.KernelIdeal.sig .tc)).map (Proc.devRef (τ := Cert.KernelIdeal.τ) .tc)).toFinset := by
  simp only [Cert.KernelIdeal.Gen.hostOps0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK0 (W : (Valuation Cert.KernelIdeal.τ Cert.KernelIdeal.sig (Elt Ideal))) (b : Ref Cert.KernelIdeal.sig .tc)
    (hb : b ∉ ([Cert.KernelIdeal.main_v0, Cert.KernelIdeal.main_v1, Cert.KernelIdeal.main_v2, Cert.KernelIdeal.main_v3, Cert.KernelIdeal.main_v4, Cert.KernelIdeal.main_v5, Cert.KernelIdeal.main_v6, Cert.KernelIdeal.main_cst, Cert.KernelIdeal.main_v7, Cert.KernelIdeal.main_cst_0, Cert.KernelIdeal.main_v8, Cert.KernelIdeal.main_v9, Cert.KernelIdeal.main_v10, Cert.KernelIdeal.main_cst_1, Cert.KernelIdeal.main_v11, Cert.KernelIdeal.main_v12, Cert.KernelIdeal.main_v13, Cert.KernelIdeal.main_cst_2] : List (Ref Cert.KernelIdeal.sig .tc))) :
    after Cert.KernelIdeal.Gen.hostOps0 W (Proc.devRef (τ := Cert.KernelIdeal.τ) .tc b) = W (Proc.devRef (τ := Cert.KernelIdeal.τ) .tc b) :=
  after_of_writes_sub _ W writesK0 hb

theorem writesK0_1 : (Cert.KernelIdeal.Gen.hostOps0_1 : List (HloOp Cert.KernelIdeal.τ Cert.KernelIdeal.sig (Elt Ideal))).Forall fun op =>
    op.writes ⊆ (([Cert.KernelIdeal.main_call0_v0, Cert.KernelIdeal.main_call0_v1, Cert.KernelIdeal.main_v14] : List (Ref Cert.KernelIdeal.sig .tc)).map (Proc.devRef (τ := Cert.KernelIdeal.τ) .tc)).toFinset := by
  simp only [Cert.KernelIdeal.Gen.hostOps0_1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK0_1 (W : (Valuation Cert.KernelIdeal.τ Cert.KernelIdeal.sig (Elt Ideal))) (b : Ref Cert.KernelIdeal.sig .tc)
    (hb : b ∉ ([Cert.KernelIdeal.main_call0_v0, Cert.KernelIdeal.main_call0_v1, Cert.KernelIdeal.main_v14] : List (Ref Cert.KernelIdeal.sig .tc))) :
    after Cert.KernelIdeal.Gen.hostOps0_1 W (Proc.devRef (τ := Cert.KernelIdeal.τ) .tc b) = W (Proc.devRef (τ := Cert.KernelIdeal.τ) .tc b) :=
  after_of_writes_sub _ W writesK0_1 hb

theorem writesK0_2 : (Cert.KernelIdeal.Gen.hostOps0_2 : List (HloOp Cert.KernelIdeal.τ Cert.KernelIdeal.sig (Elt Ideal))).Forall fun op =>
    op.writes ⊆ (([Cert.KernelIdeal.main_c, Cert.KernelIdeal.main_v15, Cert.KernelIdeal.main_v16, Cert.KernelIdeal.main_c_3, Cert.KernelIdeal.main_v17, Cert.KernelIdeal.main_v18, Cert.KernelIdeal.main_v19, Cert.KernelIdeal.main_v20, Cert.KernelIdeal.main_v21, Cert.KernelIdeal.main_c_4, Cert.KernelIdeal.main_v22, Cert.KernelIdeal.main_v23, Cert.KernelIdeal.main_c_5, Cert.KernelIdeal.main_v24, Cert.KernelIdeal.main_v25, Cert.KernelIdeal.main_v26, Cert.KernelIdeal.main_v27, Cert.KernelIdeal.main_v28, Cert.KernelIdeal.main_v29, Cert.KernelIdeal.main_v30] : List (Ref Cert.KernelIdeal.sig .tc)).map (Proc.devRef (τ := Cert.KernelIdeal.τ) .tc)).toFinset := by
  simp only [Cert.KernelIdeal.Gen.hostOps0_2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK0_2 (W : (Valuation Cert.KernelIdeal.τ Cert.KernelIdeal.sig (Elt Ideal))) (b : Ref Cert.KernelIdeal.sig .tc)
    (hb : b ∉ ([Cert.KernelIdeal.main_c, Cert.KernelIdeal.main_v15, Cert.KernelIdeal.main_v16, Cert.KernelIdeal.main_c_3, Cert.KernelIdeal.main_v17, Cert.KernelIdeal.main_v18, Cert.KernelIdeal.main_v19, Cert.KernelIdeal.main_v20, Cert.KernelIdeal.main_v21, Cert.KernelIdeal.main_c_4, Cert.KernelIdeal.main_v22, Cert.KernelIdeal.main_v23, Cert.KernelIdeal.main_c_5, Cert.KernelIdeal.main_v24, Cert.KernelIdeal.main_v25, Cert.KernelIdeal.main_v26, Cert.KernelIdeal.main_v27, Cert.KernelIdeal.main_v28, Cert.KernelIdeal.main_v29, Cert.KernelIdeal.main_v30] : List (Ref Cert.KernelIdeal.sig .tc))) :
    after Cert.KernelIdeal.Gen.hostOps0_2 W (Proc.devRef (τ := Cert.KernelIdeal.τ) .tc b) = W (Proc.devRef (τ := Cert.KernelIdeal.τ) .tc b) :=
  after_of_writes_sub _ W writesK0_2 hb

theorem writesK1 : (Cert.KernelIdeal.Gen.hostOps1 : List (HloOp Cert.KernelIdeal.τ Cert.KernelIdeal.sig (Elt Ideal))).Forall fun op =>
    op.writes ⊆ (([Cert.KernelIdeal.main_c_6, Cert.KernelIdeal.main_v32, Cert.KernelIdeal.main_v33, Cert.KernelIdeal.main_c_7, Cert.KernelIdeal.main_v34, Cert.KernelIdeal.main_v35, Cert.KernelIdeal.main_v36, Cert.KernelIdeal.main_v37, Cert.KernelIdeal.main_v38, Cert.KernelIdeal.main_v39, Cert.KernelIdeal.main_v40, Cert.KernelIdeal.main_cst_8, Cert.KernelIdeal.main_v41, Cert.KernelIdeal.main_v42, Cert.KernelIdeal.main_v43, Cert.KernelIdeal.main_v44] : List (Ref Cert.KernelIdeal.sig .tc)).map (Proc.devRef (τ := Cert.KernelIdeal.τ) .tc)).toFinset := by
  simp only [Cert.KernelIdeal.Gen.hostOps1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK1 (W : (Valuation Cert.KernelIdeal.τ Cert.KernelIdeal.sig (Elt Ideal))) (b : Ref Cert.KernelIdeal.sig .tc)
    (hb : b ∉ ([Cert.KernelIdeal.main_c_6, Cert.KernelIdeal.main_v32, Cert.KernelIdeal.main_v33, Cert.KernelIdeal.main_c_7, Cert.KernelIdeal.main_v34, Cert.KernelIdeal.main_v35, Cert.KernelIdeal.main_v36, Cert.KernelIdeal.main_v37, Cert.KernelIdeal.main_v38, Cert.KernelIdeal.main_v39, Cert.KernelIdeal.main_v40, Cert.KernelIdeal.main_cst_8, Cert.KernelIdeal.main_v41, Cert.KernelIdeal.main_v42, Cert.KernelIdeal.main_v43, Cert.KernelIdeal.main_v44] : List (Ref Cert.KernelIdeal.sig .tc))) :
    after Cert.KernelIdeal.Gen.hostOps1 W (Proc.devRef (τ := Cert.KernelIdeal.τ) .tc b) = W (Proc.devRef (τ := Cert.KernelIdeal.τ) .tc b) :=
  after_of_writes_sub _ W writesK1 hb

theorem writesK2 : (Cert.KernelIdeal.Gen.hostOps2 : List (HloOp Cert.KernelIdeal.τ Cert.KernelIdeal.sig (Elt Ideal))).Forall fun op =>
    op.writes ⊆ (([Cert.KernelIdeal.main_c_9, Cert.KernelIdeal.main_v46, Cert.KernelIdeal.main_v47, Cert.KernelIdeal.main_c_10, Cert.KernelIdeal.main_v48, Cert.KernelIdeal.main_v49, Cert.KernelIdeal.main_v50, Cert.KernelIdeal.main_v51, Cert.KernelIdeal.main_v52, Cert.KernelIdeal.main_v53, Cert.KernelIdeal.main_v54, Cert.KernelIdeal.main_cst_11, Cert.KernelIdeal.main_v55, Cert.KernelIdeal.main_v56, Cert.KernelIdeal.main_v57, Cert.KernelIdeal.main_v58] : List (Ref Cert.KernelIdeal.sig .tc)).map (Proc.devRef (τ := Cert.KernelIdeal.τ) .tc)).toFinset := by
  simp only [Cert.KernelIdeal.Gen.hostOps2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK2 (W : (Valuation Cert.KernelIdeal.τ Cert.KernelIdeal.sig (Elt Ideal))) (b : Ref Cert.KernelIdeal.sig .tc)
    (hb : b ∉ ([Cert.KernelIdeal.main_c_9, Cert.KernelIdeal.main_v46, Cert.KernelIdeal.main_v47, Cert.KernelIdeal.main_c_10, Cert.KernelIdeal.main_v48, Cert.KernelIdeal.main_v49, Cert.KernelIdeal.main_v50, Cert.KernelIdeal.main_v51, Cert.KernelIdeal.main_v52, Cert.KernelIdeal.main_v53, Cert.KernelIdeal.main_v54, Cert.KernelIdeal.main_cst_11, Cert.KernelIdeal.main_v55, Cert.KernelIdeal.main_v56, Cert.KernelIdeal.main_v57, Cert.KernelIdeal.main_v58] : List (Ref Cert.KernelIdeal.sig .tc))) :
    after Cert.KernelIdeal.Gen.hostOps2 W (Proc.devRef (τ := Cert.KernelIdeal.τ) .tc b) = W (Proc.devRef (τ := Cert.KernelIdeal.τ) .tc b) :=
  after_of_writes_sub _ W writesK2 hb

theorem writesK3 : (Cert.KernelIdeal.Gen.hostOps3 : List (HloOp Cert.KernelIdeal.τ Cert.KernelIdeal.sig (Elt Ideal))).Forall fun op =>
    op.writes ⊆ (([Cert.KernelIdeal.main_cst_12, Cert.KernelIdeal.main_v60, Cert.KernelIdeal.main_cst_13, Cert.KernelIdeal.main_v61, Cert.KernelIdeal.main_v62, Cert.KernelIdeal.main_v63, Cert.KernelIdeal.main_cst_14, Cert.KernelIdeal.main_v64, Cert.KernelIdeal.main_v65, Cert.KernelIdeal.main_v66, Cert.KernelIdeal.main_v67, Cert.KernelIdeal.main_v68, Cert.KernelIdeal.main_v69, Cert.KernelIdeal.main_v70, Cert.KernelIdeal.main_v71, Cert.KernelIdeal.main_v72, Cert.KernelIdeal.main_v73, Cert.KernelIdeal.main_v74, Cert.KernelIdeal.main_v75, Cert.KernelIdeal.main_v76, Cert.KernelIdeal.main_v77, Cert.KernelIdeal.main_cst_15, Cert.KernelIdeal.main_v78, Cert.KernelIdeal.main_v79, Cert.KernelIdeal.main_v80, Cert.KernelIdeal.main_v81, Cert.KernelIdeal.main_v82, Cert.KernelIdeal.main_v83, Cert.KernelIdeal.main_v84, Cert.KernelIdeal.main_v85, Cert.KernelIdeal.main_v86, Cert.KernelIdeal.main_c_16, Cert.KernelIdeal.main_v87, Cert.KernelIdeal.main_v88, Cert.KernelIdeal.main_c_17, Cert.KernelIdeal.main_v89, Cert.KernelIdeal.main_v90, Cert.KernelIdeal.main_v91, Cert.KernelIdeal.main_v92, Cert.KernelIdeal.main_v93] : List (Ref Cert.KernelIdeal.sig .tc)).map (Proc.devRef (τ := Cert.KernelIdeal.τ) .tc)).toFinset := by
  simp only [Cert.KernelIdeal.Gen.hostOps3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK3 (W : (Valuation Cert.KernelIdeal.τ Cert.KernelIdeal.sig (Elt Ideal))) (b : Ref Cert.KernelIdeal.sig .tc)
    (hb : b ∉ ([Cert.KernelIdeal.main_cst_12, Cert.KernelIdeal.main_v60, Cert.KernelIdeal.main_cst_13, Cert.KernelIdeal.main_v61, Cert.KernelIdeal.main_v62, Cert.KernelIdeal.main_v63, Cert.KernelIdeal.main_cst_14, Cert.KernelIdeal.main_v64, Cert.KernelIdeal.main_v65, Cert.KernelIdeal.main_v66, Cert.KernelIdeal.main_v67, Cert.KernelIdeal.main_v68, Cert.KernelIdeal.main_v69, Cert.KernelIdeal.main_v70, Cert.KernelIdeal.main_v71, Cert.KernelIdeal.main_v72, Cert.KernelIdeal.main_v73, Cert.KernelIdeal.main_v74, Cert.KernelIdeal.main_v75, Cert.KernelIdeal.main_v76, Cert.KernelIdeal.main_v77, Cert.KernelIdeal.main_cst_15, Cert.KernelIdeal.main_v78, Cert.KernelIdeal.main_v79, Cert.KernelIdeal.main_v80, Cert.KernelIdeal.main_v81, Cert.KernelIdeal.main_v82, Cert.KernelIdeal.main_v83, Cert.KernelIdeal.main_v84, Cert.KernelIdeal.main_v85, Cert.KernelIdeal.main_v86, Cert.KernelIdeal.main_c_16, Cert.KernelIdeal.main_v87, Cert.KernelIdeal.main_v88, Cert.KernelIdeal.main_c_17, Cert.KernelIdeal.main_v89, Cert.KernelIdeal.main_v90, Cert.KernelIdeal.main_v91, Cert.KernelIdeal.main_v92, Cert.KernelIdeal.main_v93] : List (Ref Cert.KernelIdeal.sig .tc))) :
    after Cert.KernelIdeal.Gen.hostOps3 W (Proc.devRef (τ := Cert.KernelIdeal.τ) .tc b) = W (Proc.devRef (τ := Cert.KernelIdeal.τ) .tc b) :=
  after_of_writes_sub _ W writesK3 hb

theorem writesK4 : (Cert.KernelIdeal.Gen.hostOps4 : List (HloOp Cert.KernelIdeal.τ Cert.KernelIdeal.sig (Elt Ideal))).Forall fun op =>
    op.writes ⊆ (([Cert.KernelIdeal.main_c_18, Cert.KernelIdeal.main_v95, Cert.KernelIdeal.main_v96, Cert.KernelIdeal.main_c_19, Cert.KernelIdeal.main_v97, Cert.KernelIdeal.main_v98, Cert.KernelIdeal.main_v99, Cert.KernelIdeal.main_v100, Cert.KernelIdeal.main_v101, Cert.KernelIdeal.main_v102, Cert.KernelIdeal.main_v103, Cert.KernelIdeal.main_cst_20, Cert.KernelIdeal.main_v104, Cert.KernelIdeal.main_v105, Cert.KernelIdeal.main_v106, Cert.KernelIdeal.main_v107] : List (Ref Cert.KernelIdeal.sig .tc)).map (Proc.devRef (τ := Cert.KernelIdeal.τ) .tc)).toFinset := by
  simp only [Cert.KernelIdeal.Gen.hostOps4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK4 (W : (Valuation Cert.KernelIdeal.τ Cert.KernelIdeal.sig (Elt Ideal))) (b : Ref Cert.KernelIdeal.sig .tc)
    (hb : b ∉ ([Cert.KernelIdeal.main_c_18, Cert.KernelIdeal.main_v95, Cert.KernelIdeal.main_v96, Cert.KernelIdeal.main_c_19, Cert.KernelIdeal.main_v97, Cert.KernelIdeal.main_v98, Cert.KernelIdeal.main_v99, Cert.KernelIdeal.main_v100, Cert.KernelIdeal.main_v101, Cert.KernelIdeal.main_v102, Cert.KernelIdeal.main_v103, Cert.KernelIdeal.main_cst_20, Cert.KernelIdeal.main_v104, Cert.KernelIdeal.main_v105, Cert.KernelIdeal.main_v106, Cert.KernelIdeal.main_v107] : List (Ref Cert.KernelIdeal.sig .tc))) :
    after Cert.KernelIdeal.Gen.hostOps4 W (Proc.devRef (τ := Cert.KernelIdeal.τ) .tc b) = W (Proc.devRef (τ := Cert.KernelIdeal.τ) .tc b) :=
  after_of_writes_sub _ W writesK4 hb

theorem writesK5 : (Cert.KernelIdeal.Gen.hostOps5 : List (HloOp Cert.KernelIdeal.τ Cert.KernelIdeal.sig (Elt Ideal))).Forall fun op =>
    op.writes ⊆ (([Cert.KernelIdeal.main_c_21, Cert.KernelIdeal.main_v109, Cert.KernelIdeal.main_v110, Cert.KernelIdeal.main_c_22, Cert.KernelIdeal.main_v111, Cert.KernelIdeal.main_v112, Cert.KernelIdeal.main_v113, Cert.KernelIdeal.main_v114, Cert.KernelIdeal.main_v115, Cert.KernelIdeal.main_v116, Cert.KernelIdeal.main_v117, Cert.KernelIdeal.main_cst_23, Cert.KernelIdeal.main_v118, Cert.KernelIdeal.main_v119, Cert.KernelIdeal.main_v120, Cert.KernelIdeal.main_v121, Cert.KernelIdeal.main_v122] : List (Ref Cert.KernelIdeal.sig .tc)).map (Proc.devRef (τ := Cert.KernelIdeal.τ) .tc)).toFinset := by
  simp only [Cert.KernelIdeal.Gen.hostOps5, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK5 (W : (Valuation Cert.KernelIdeal.τ Cert.KernelIdeal.sig (Elt Ideal))) (b : Ref Cert.KernelIdeal.sig .tc)
    (hb : b ∉ ([Cert.KernelIdeal.main_c_21, Cert.KernelIdeal.main_v109, Cert.KernelIdeal.main_v110, Cert.KernelIdeal.main_c_22, Cert.KernelIdeal.main_v111, Cert.KernelIdeal.main_v112, Cert.KernelIdeal.main_v113, Cert.KernelIdeal.main_v114, Cert.KernelIdeal.main_v115, Cert.KernelIdeal.main_v116, Cert.KernelIdeal.main_v117, Cert.KernelIdeal.main_cst_23, Cert.KernelIdeal.main_v118, Cert.KernelIdeal.main_v119, Cert.KernelIdeal.main_v120, Cert.KernelIdeal.main_v121, Cert.KernelIdeal.main_v122] : List (Ref Cert.KernelIdeal.sig .tc))) :
    after Cert.KernelIdeal.Gen.hostOps5 W (Proc.devRef (τ := Cert.KernelIdeal.τ) .tc b) = W (Proc.devRef (τ := Cert.KernelIdeal.τ) .tc b) :=
  after_of_writes_sub _ W writesK5 hb

theorem writesK6 : (Cert.KernelIdeal.Gen.hostOps6 : List (HloOp Cert.KernelIdeal.τ Cert.KernelIdeal.sig (Elt Ideal))).Forall fun op =>
    op.writes ⊆ (([Cert.KernelIdeal.main_v124] : List (Ref Cert.KernelIdeal.sig .tc)).map (Proc.devRef (τ := Cert.KernelIdeal.τ) .tc)).toFinset := by
  simp only [Cert.KernelIdeal.Gen.hostOps6, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the stretch does not write keeps its contents. -/
theorem keepK6 (W : (Valuation Cert.KernelIdeal.τ Cert.KernelIdeal.sig (Elt Ideal))) (b : Ref Cert.KernelIdeal.sig .tc)
    (hb : b ∉ ([Cert.KernelIdeal.main_v124] : List (Ref Cert.KernelIdeal.sig .tc))) :
    after Cert.KernelIdeal.Gen.hostOps6 W (Proc.devRef (τ := Cert.KernelIdeal.τ) .tc b) = W (Proc.devRef (τ := Cert.KernelIdeal.τ) .tc b) :=
  after_of_writes_sub _ W writesK6 hb

theorem writesRA : (Cert.ReferenceIdeal.Line.opsA : List (HloOp Cert.ReferenceIdeal.τ Cert.ReferenceIdeal.sig (Elt Ideal))).Forall fun op =>
    op.writes ⊆ (([Cert.ReferenceIdeal.main_v0, Cert.ReferenceIdeal.main_v1, Cert.ReferenceIdeal.main_v2, Cert.ReferenceIdeal.main_v3, Cert.ReferenceIdeal.main_v4, Cert.ReferenceIdeal.main_v5, Cert.ReferenceIdeal.main_v6, Cert.ReferenceIdeal.main_cst, Cert.ReferenceIdeal.main_v7, Cert.ReferenceIdeal.main_cst_0, Cert.ReferenceIdeal.main_v8, Cert.ReferenceIdeal.main_v9, Cert.ReferenceIdeal.main_v10, Cert.ReferenceIdeal.main_cst_1, Cert.ReferenceIdeal.main_v11, Cert.ReferenceIdeal.main_v12, Cert.ReferenceIdeal.main_v13, Cert.ReferenceIdeal.main_cst_2, Cert.ReferenceIdeal.main_call0_v0, Cert.ReferenceIdeal.main_call0_v1, Cert.ReferenceIdeal.main_v14, Cert.ReferenceIdeal.main_c, Cert.ReferenceIdeal.main_v15, Cert.ReferenceIdeal.main_v16, Cert.ReferenceIdeal.main_c_3, Cert.ReferenceIdeal.main_v17, Cert.ReferenceIdeal.main_v18, Cert.ReferenceIdeal.main_v19, Cert.ReferenceIdeal.main_v20, Cert.ReferenceIdeal.main_v21, Cert.ReferenceIdeal.main_c_4, Cert.ReferenceIdeal.main_v22, Cert.ReferenceIdeal.main_v23, Cert.ReferenceIdeal.main_c_5, Cert.ReferenceIdeal.main_v24, Cert.ReferenceIdeal.main_v25, Cert.ReferenceIdeal.main_v26, Cert.ReferenceIdeal.main_v27, Cert.ReferenceIdeal.main_v28, Cert.ReferenceIdeal.main_v29] : List (Ref Cert.ReferenceIdeal.sig .tc)).map (Proc.devRef (τ := Cert.ReferenceIdeal.τ) .tc)).toFinset := by
  simp only [Cert.ReferenceIdeal.Line.opsA, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRA (W : (Valuation Cert.ReferenceIdeal.τ Cert.ReferenceIdeal.sig (Elt Ideal))) (b : Ref Cert.ReferenceIdeal.sig .tc)
    (hb : b ∉ ([Cert.ReferenceIdeal.main_v0, Cert.ReferenceIdeal.main_v1, Cert.ReferenceIdeal.main_v2, Cert.ReferenceIdeal.main_v3, Cert.ReferenceIdeal.main_v4, Cert.ReferenceIdeal.main_v5, Cert.ReferenceIdeal.main_v6, Cert.ReferenceIdeal.main_cst, Cert.ReferenceIdeal.main_v7, Cert.ReferenceIdeal.main_cst_0, Cert.ReferenceIdeal.main_v8, Cert.ReferenceIdeal.main_v9, Cert.ReferenceIdeal.main_v10, Cert.ReferenceIdeal.main_cst_1, Cert.ReferenceIdeal.main_v11, Cert.ReferenceIdeal.main_v12, Cert.ReferenceIdeal.main_v13, Cert.ReferenceIdeal.main_cst_2, Cert.ReferenceIdeal.main_call0_v0, Cert.ReferenceIdeal.main_call0_v1, Cert.ReferenceIdeal.main_v14, Cert.ReferenceIdeal.main_c, Cert.ReferenceIdeal.main_v15, Cert.ReferenceIdeal.main_v16, Cert.ReferenceIdeal.main_c_3, Cert.ReferenceIdeal.main_v17, Cert.ReferenceIdeal.main_v18, Cert.ReferenceIdeal.main_v19, Cert.ReferenceIdeal.main_v20, Cert.ReferenceIdeal.main_v21, Cert.ReferenceIdeal.main_c_4, Cert.ReferenceIdeal.main_v22, Cert.ReferenceIdeal.main_v23, Cert.ReferenceIdeal.main_c_5, Cert.ReferenceIdeal.main_v24, Cert.ReferenceIdeal.main_v25, Cert.ReferenceIdeal.main_v26, Cert.ReferenceIdeal.main_v27, Cert.ReferenceIdeal.main_v28, Cert.ReferenceIdeal.main_v29] : List (Ref Cert.ReferenceIdeal.sig .tc))) :
    after Cert.ReferenceIdeal.Line.opsA W (Proc.devRef (τ := Cert.ReferenceIdeal.τ) .tc b) = W (Proc.devRef (τ := Cert.ReferenceIdeal.τ) .tc b) :=
  after_of_writes_sub _ W writesRA hb

theorem writesRD0 : (Cert.ReferenceIdeal.Line.opsD0 : List (HloOp Cert.ReferenceIdeal.τ Cert.ReferenceIdeal.sig (Elt Ideal))).Forall fun op =>
    op.writes ⊆ (([Cert.ReferenceIdeal.main_v30] : List (Ref Cert.ReferenceIdeal.sig .tc)).map (Proc.devRef (τ := Cert.ReferenceIdeal.τ) .tc)).toFinset := by
  simp only [Cert.ReferenceIdeal.Line.opsD0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRD0 (W : (Valuation Cert.ReferenceIdeal.τ Cert.ReferenceIdeal.sig (Elt Ideal))) (b : Ref Cert.ReferenceIdeal.sig .tc)
    (hb : b ∉ ([Cert.ReferenceIdeal.main_v30] : List (Ref Cert.ReferenceIdeal.sig .tc))) :
    after Cert.ReferenceIdeal.Line.opsD0 W (Proc.devRef (τ := Cert.ReferenceIdeal.τ) .tc b) = W (Proc.devRef (τ := Cert.ReferenceIdeal.τ) .tc b) :=
  after_of_writes_sub _ W writesRD0 hb

theorem writesRB1 : (Cert.ReferenceIdeal.Line.opsB1 : List (HloOp Cert.ReferenceIdeal.τ Cert.ReferenceIdeal.sig (Elt Ideal))).Forall fun op =>
    op.writes ⊆ (([Cert.ReferenceIdeal.main_c_6, Cert.ReferenceIdeal.main_v31, Cert.ReferenceIdeal.main_v32, Cert.ReferenceIdeal.main_c_7, Cert.ReferenceIdeal.main_v33, Cert.ReferenceIdeal.main_v34, Cert.ReferenceIdeal.main_v35, Cert.ReferenceIdeal.main_v36, Cert.ReferenceIdeal.main_v37, Cert.ReferenceIdeal.main_v38, Cert.ReferenceIdeal.main_v39, Cert.ReferenceIdeal.main_v40, Cert.ReferenceIdeal.main_cst_8, Cert.ReferenceIdeal.main_v41, Cert.ReferenceIdeal.main_v42, Cert.ReferenceIdeal.main_v43] : List (Ref Cert.ReferenceIdeal.sig .tc)).map (Proc.devRef (τ := Cert.ReferenceIdeal.τ) .tc)).toFinset := by
  simp only [Cert.ReferenceIdeal.Line.opsB1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRB1 (W : (Valuation Cert.ReferenceIdeal.τ Cert.ReferenceIdeal.sig (Elt Ideal))) (b : Ref Cert.ReferenceIdeal.sig .tc)
    (hb : b ∉ ([Cert.ReferenceIdeal.main_c_6, Cert.ReferenceIdeal.main_v31, Cert.ReferenceIdeal.main_v32, Cert.ReferenceIdeal.main_c_7, Cert.ReferenceIdeal.main_v33, Cert.ReferenceIdeal.main_v34, Cert.ReferenceIdeal.main_v35, Cert.ReferenceIdeal.main_v36, Cert.ReferenceIdeal.main_v37, Cert.ReferenceIdeal.main_v38, Cert.ReferenceIdeal.main_v39, Cert.ReferenceIdeal.main_v40, Cert.ReferenceIdeal.main_cst_8, Cert.ReferenceIdeal.main_v41, Cert.ReferenceIdeal.main_v42, Cert.ReferenceIdeal.main_v43] : List (Ref Cert.ReferenceIdeal.sig .tc))) :
    after Cert.ReferenceIdeal.Line.opsB1 W (Proc.devRef (τ := Cert.ReferenceIdeal.τ) .tc b) = W (Proc.devRef (τ := Cert.ReferenceIdeal.τ) .tc b) :=
  after_of_writes_sub _ W writesRB1 hb

theorem writesRD1 : (Cert.ReferenceIdeal.Line.opsD1 : List (HloOp Cert.ReferenceIdeal.τ Cert.ReferenceIdeal.sig (Elt Ideal))).Forall fun op =>
    op.writes ⊆ (([Cert.ReferenceIdeal.main_v44, Cert.ReferenceIdeal.main_v45, Cert.ReferenceIdeal.main_v46, Cert.ReferenceIdeal.main_call1_cst, Cert.ReferenceIdeal.main_call1_v0, Cert.ReferenceIdeal.main_v47, Cert.ReferenceIdeal.main_v48] : List (Ref Cert.ReferenceIdeal.sig .tc)).map (Proc.devRef (τ := Cert.ReferenceIdeal.τ) .tc)).toFinset := by
  simp only [Cert.ReferenceIdeal.Line.opsD1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRD1 (W : (Valuation Cert.ReferenceIdeal.τ Cert.ReferenceIdeal.sig (Elt Ideal))) (b : Ref Cert.ReferenceIdeal.sig .tc)
    (hb : b ∉ ([Cert.ReferenceIdeal.main_v44, Cert.ReferenceIdeal.main_v45, Cert.ReferenceIdeal.main_v46, Cert.ReferenceIdeal.main_call1_cst, Cert.ReferenceIdeal.main_call1_v0, Cert.ReferenceIdeal.main_v47, Cert.ReferenceIdeal.main_v48] : List (Ref Cert.ReferenceIdeal.sig .tc))) :
    after Cert.ReferenceIdeal.Line.opsD1 W (Proc.devRef (τ := Cert.ReferenceIdeal.τ) .tc b) = W (Proc.devRef (τ := Cert.ReferenceIdeal.τ) .tc b) :=
  after_of_writes_sub _ W writesRD1 hb

theorem writesRB2 : (Cert.ReferenceIdeal.Line.opsB2 : List (HloOp Cert.ReferenceIdeal.τ Cert.ReferenceIdeal.sig (Elt Ideal))).Forall fun op =>
    op.writes ⊆ (([Cert.ReferenceIdeal.main_c_9, Cert.ReferenceIdeal.main_v49, Cert.ReferenceIdeal.main_v50, Cert.ReferenceIdeal.main_c_10, Cert.ReferenceIdeal.main_v51, Cert.ReferenceIdeal.main_v52, Cert.ReferenceIdeal.main_v53, Cert.ReferenceIdeal.main_v54, Cert.ReferenceIdeal.main_v55, Cert.ReferenceIdeal.main_v56, Cert.ReferenceIdeal.main_v57, Cert.ReferenceIdeal.main_v58, Cert.ReferenceIdeal.main_cst_11, Cert.ReferenceIdeal.main_v59, Cert.ReferenceIdeal.main_v60, Cert.ReferenceIdeal.main_v61] : List (Ref Cert.ReferenceIdeal.sig .tc)).map (Proc.devRef (τ := Cert.ReferenceIdeal.τ) .tc)).toFinset := by
  simp only [Cert.ReferenceIdeal.Line.opsB2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRB2 (W : (Valuation Cert.ReferenceIdeal.τ Cert.ReferenceIdeal.sig (Elt Ideal))) (b : Ref Cert.ReferenceIdeal.sig .tc)
    (hb : b ∉ ([Cert.ReferenceIdeal.main_c_9, Cert.ReferenceIdeal.main_v49, Cert.ReferenceIdeal.main_v50, Cert.ReferenceIdeal.main_c_10, Cert.ReferenceIdeal.main_v51, Cert.ReferenceIdeal.main_v52, Cert.ReferenceIdeal.main_v53, Cert.ReferenceIdeal.main_v54, Cert.ReferenceIdeal.main_v55, Cert.ReferenceIdeal.main_v56, Cert.ReferenceIdeal.main_v57, Cert.ReferenceIdeal.main_v58, Cert.ReferenceIdeal.main_cst_11, Cert.ReferenceIdeal.main_v59, Cert.ReferenceIdeal.main_v60, Cert.ReferenceIdeal.main_v61] : List (Ref Cert.ReferenceIdeal.sig .tc))) :
    after Cert.ReferenceIdeal.Line.opsB2 W (Proc.devRef (τ := Cert.ReferenceIdeal.τ) .tc b) = W (Proc.devRef (τ := Cert.ReferenceIdeal.τ) .tc b) :=
  after_of_writes_sub _ W writesRB2 hb

theorem writesRD2 : (Cert.ReferenceIdeal.Line.opsD2 : List (HloOp Cert.ReferenceIdeal.τ Cert.ReferenceIdeal.sig (Elt Ideal))).Forall fun op =>
    op.writes ⊆ (([Cert.ReferenceIdeal.main_v62, Cert.ReferenceIdeal.main_v63, Cert.ReferenceIdeal.main_v64, Cert.ReferenceIdeal.main_call2_cst, Cert.ReferenceIdeal.main_call2_v0, Cert.ReferenceIdeal.main_v65] : List (Ref Cert.ReferenceIdeal.sig .tc)).map (Proc.devRef (τ := Cert.ReferenceIdeal.τ) .tc)).toFinset := by
  simp only [Cert.ReferenceIdeal.Line.opsD2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRD2 (W : (Valuation Cert.ReferenceIdeal.τ Cert.ReferenceIdeal.sig (Elt Ideal))) (b : Ref Cert.ReferenceIdeal.sig .tc)
    (hb : b ∉ ([Cert.ReferenceIdeal.main_v62, Cert.ReferenceIdeal.main_v63, Cert.ReferenceIdeal.main_v64, Cert.ReferenceIdeal.main_call2_cst, Cert.ReferenceIdeal.main_call2_v0, Cert.ReferenceIdeal.main_v65] : List (Ref Cert.ReferenceIdeal.sig .tc))) :
    after Cert.ReferenceIdeal.Line.opsD2 W (Proc.devRef (τ := Cert.ReferenceIdeal.τ) .tc b) = W (Proc.devRef (τ := Cert.ReferenceIdeal.τ) .tc b) :=
  after_of_writes_sub _ W writesRD2 hb

theorem writesRB3 : (Cert.ReferenceIdeal.Line.opsB3 : List (HloOp Cert.ReferenceIdeal.τ Cert.ReferenceIdeal.sig (Elt Ideal))).Forall fun op =>
    op.writes ⊆ (([Cert.ReferenceIdeal.main_cst_12, Cert.ReferenceIdeal.main_v66, Cert.ReferenceIdeal.main_cst_13, Cert.ReferenceIdeal.main_v67, Cert.ReferenceIdeal.main_v68, Cert.ReferenceIdeal.main_v69, Cert.ReferenceIdeal.main_cst_14, Cert.ReferenceIdeal.main_v70, Cert.ReferenceIdeal.main_v71, Cert.ReferenceIdeal.main_v72, Cert.ReferenceIdeal.main_v73, Cert.ReferenceIdeal.main_v74, Cert.ReferenceIdeal.main_v75, Cert.ReferenceIdeal.main_v76, Cert.ReferenceIdeal.main_v77, Cert.ReferenceIdeal.main_v78, Cert.ReferenceIdeal.main_v79, Cert.ReferenceIdeal.main_v80, Cert.ReferenceIdeal.main_v81, Cert.ReferenceIdeal.main_v82, Cert.ReferenceIdeal.main_v83, Cert.ReferenceIdeal.main_cst_15, Cert.ReferenceIdeal.main_v84, Cert.ReferenceIdeal.main_v85, Cert.ReferenceIdeal.main_v86, Cert.ReferenceIdeal.main_v87, Cert.ReferenceIdeal.main_v88, Cert.ReferenceIdeal.main_v89, Cert.ReferenceIdeal.main_v90, Cert.ReferenceIdeal.main_v91, Cert.ReferenceIdeal.main_v92, Cert.ReferenceIdeal.main_c_16, Cert.ReferenceIdeal.main_v93, Cert.ReferenceIdeal.main_v94, Cert.ReferenceIdeal.main_c_17, Cert.ReferenceIdeal.main_v95, Cert.ReferenceIdeal.main_v96, Cert.ReferenceIdeal.main_v97, Cert.ReferenceIdeal.main_v98, Cert.ReferenceIdeal.main_v99] : List (Ref Cert.ReferenceIdeal.sig .tc)).map (Proc.devRef (τ := Cert.ReferenceIdeal.τ) .tc)).toFinset := by
  simp only [Cert.ReferenceIdeal.Line.opsB3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRB3 (W : (Valuation Cert.ReferenceIdeal.τ Cert.ReferenceIdeal.sig (Elt Ideal))) (b : Ref Cert.ReferenceIdeal.sig .tc)
    (hb : b ∉ ([Cert.ReferenceIdeal.main_cst_12, Cert.ReferenceIdeal.main_v66, Cert.ReferenceIdeal.main_cst_13, Cert.ReferenceIdeal.main_v67, Cert.ReferenceIdeal.main_v68, Cert.ReferenceIdeal.main_v69, Cert.ReferenceIdeal.main_cst_14, Cert.ReferenceIdeal.main_v70, Cert.ReferenceIdeal.main_v71, Cert.ReferenceIdeal.main_v72, Cert.ReferenceIdeal.main_v73, Cert.ReferenceIdeal.main_v74, Cert.ReferenceIdeal.main_v75, Cert.ReferenceIdeal.main_v76, Cert.ReferenceIdeal.main_v77, Cert.ReferenceIdeal.main_v78, Cert.ReferenceIdeal.main_v79, Cert.ReferenceIdeal.main_v80, Cert.ReferenceIdeal.main_v81, Cert.ReferenceIdeal.main_v82, Cert.ReferenceIdeal.main_v83, Cert.ReferenceIdeal.main_cst_15, Cert.ReferenceIdeal.main_v84, Cert.ReferenceIdeal.main_v85, Cert.ReferenceIdeal.main_v86, Cert.ReferenceIdeal.main_v87, Cert.ReferenceIdeal.main_v88, Cert.ReferenceIdeal.main_v89, Cert.ReferenceIdeal.main_v90, Cert.ReferenceIdeal.main_v91, Cert.ReferenceIdeal.main_v92, Cert.ReferenceIdeal.main_c_16, Cert.ReferenceIdeal.main_v93, Cert.ReferenceIdeal.main_v94, Cert.ReferenceIdeal.main_c_17, Cert.ReferenceIdeal.main_v95, Cert.ReferenceIdeal.main_v96, Cert.ReferenceIdeal.main_v97, Cert.ReferenceIdeal.main_v98, Cert.ReferenceIdeal.main_v99] : List (Ref Cert.ReferenceIdeal.sig .tc))) :
    after Cert.ReferenceIdeal.Line.opsB3 W (Proc.devRef (τ := Cert.ReferenceIdeal.τ) .tc b) = W (Proc.devRef (τ := Cert.ReferenceIdeal.τ) .tc b) :=
  after_of_writes_sub _ W writesRB3 hb

theorem writesRD3 : (Cert.ReferenceIdeal.Line.opsD3 : List (HloOp Cert.ReferenceIdeal.τ Cert.ReferenceIdeal.sig (Elt Ideal))).Forall fun op =>
    op.writes ⊆ (([Cert.ReferenceIdeal.main_v100] : List (Ref Cert.ReferenceIdeal.sig .tc)).map (Proc.devRef (τ := Cert.ReferenceIdeal.τ) .tc)).toFinset := by
  simp only [Cert.ReferenceIdeal.Line.opsD3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRD3 (W : (Valuation Cert.ReferenceIdeal.τ Cert.ReferenceIdeal.sig (Elt Ideal))) (b : Ref Cert.ReferenceIdeal.sig .tc)
    (hb : b ∉ ([Cert.ReferenceIdeal.main_v100] : List (Ref Cert.ReferenceIdeal.sig .tc))) :
    after Cert.ReferenceIdeal.Line.opsD3 W (Proc.devRef (τ := Cert.ReferenceIdeal.τ) .tc b) = W (Proc.devRef (τ := Cert.ReferenceIdeal.τ) .tc b) :=
  after_of_writes_sub _ W writesRD3 hb

theorem writesRB4 : (Cert.ReferenceIdeal.Line.opsB4 : List (HloOp Cert.ReferenceIdeal.τ Cert.ReferenceIdeal.sig (Elt Ideal))).Forall fun op =>
    op.writes ⊆ (([Cert.ReferenceIdeal.main_c_18, Cert.ReferenceIdeal.main_v101, Cert.ReferenceIdeal.main_v102, Cert.ReferenceIdeal.main_c_19, Cert.ReferenceIdeal.main_v103, Cert.ReferenceIdeal.main_v104, Cert.ReferenceIdeal.main_v105, Cert.ReferenceIdeal.main_v106, Cert.ReferenceIdeal.main_v107, Cert.ReferenceIdeal.main_v108, Cert.ReferenceIdeal.main_v109, Cert.ReferenceIdeal.main_v110, Cert.ReferenceIdeal.main_cst_20, Cert.ReferenceIdeal.main_v111, Cert.ReferenceIdeal.main_v112, Cert.ReferenceIdeal.main_v113] : List (Ref Cert.ReferenceIdeal.sig .tc)).map (Proc.devRef (τ := Cert.ReferenceIdeal.τ) .tc)).toFinset := by
  simp only [Cert.ReferenceIdeal.Line.opsB4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRB4 (W : (Valuation Cert.ReferenceIdeal.τ Cert.ReferenceIdeal.sig (Elt Ideal))) (b : Ref Cert.ReferenceIdeal.sig .tc)
    (hb : b ∉ ([Cert.ReferenceIdeal.main_c_18, Cert.ReferenceIdeal.main_v101, Cert.ReferenceIdeal.main_v102, Cert.ReferenceIdeal.main_c_19, Cert.ReferenceIdeal.main_v103, Cert.ReferenceIdeal.main_v104, Cert.ReferenceIdeal.main_v105, Cert.ReferenceIdeal.main_v106, Cert.ReferenceIdeal.main_v107, Cert.ReferenceIdeal.main_v108, Cert.ReferenceIdeal.main_v109, Cert.ReferenceIdeal.main_v110, Cert.ReferenceIdeal.main_cst_20, Cert.ReferenceIdeal.main_v111, Cert.ReferenceIdeal.main_v112, Cert.ReferenceIdeal.main_v113] : List (Ref Cert.ReferenceIdeal.sig .tc))) :
    after Cert.ReferenceIdeal.Line.opsB4 W (Proc.devRef (τ := Cert.ReferenceIdeal.τ) .tc b) = W (Proc.devRef (τ := Cert.ReferenceIdeal.τ) .tc b) :=
  after_of_writes_sub _ W writesRB4 hb

theorem writesRD4 : (Cert.ReferenceIdeal.Line.opsD4 : List (HloOp Cert.ReferenceIdeal.τ Cert.ReferenceIdeal.sig (Elt Ideal))).Forall fun op =>
    op.writes ⊆ (([Cert.ReferenceIdeal.main_v114, Cert.ReferenceIdeal.main_v115, Cert.ReferenceIdeal.main_v116, Cert.ReferenceIdeal.main_call3_cst, Cert.ReferenceIdeal.main_call3_v0, Cert.ReferenceIdeal.main_v117, Cert.ReferenceIdeal.main_v118] : List (Ref Cert.ReferenceIdeal.sig .tc)).map (Proc.devRef (τ := Cert.ReferenceIdeal.τ) .tc)).toFinset := by
  simp only [Cert.ReferenceIdeal.Line.opsD4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRD4 (W : (Valuation Cert.ReferenceIdeal.τ Cert.ReferenceIdeal.sig (Elt Ideal))) (b : Ref Cert.ReferenceIdeal.sig .tc)
    (hb : b ∉ ([Cert.ReferenceIdeal.main_v114, Cert.ReferenceIdeal.main_v115, Cert.ReferenceIdeal.main_v116, Cert.ReferenceIdeal.main_call3_cst, Cert.ReferenceIdeal.main_call3_v0, Cert.ReferenceIdeal.main_v117, Cert.ReferenceIdeal.main_v118] : List (Ref Cert.ReferenceIdeal.sig .tc))) :
    after Cert.ReferenceIdeal.Line.opsD4 W (Proc.devRef (τ := Cert.ReferenceIdeal.τ) .tc b) = W (Proc.devRef (τ := Cert.ReferenceIdeal.τ) .tc b) :=
  after_of_writes_sub _ W writesRD4 hb

theorem writesRB5 : (Cert.ReferenceIdeal.Line.opsB5 : List (HloOp Cert.ReferenceIdeal.τ Cert.ReferenceIdeal.sig (Elt Ideal))).Forall fun op =>
    op.writes ⊆ (([Cert.ReferenceIdeal.main_c_21, Cert.ReferenceIdeal.main_v119, Cert.ReferenceIdeal.main_v120, Cert.ReferenceIdeal.main_c_22, Cert.ReferenceIdeal.main_v121, Cert.ReferenceIdeal.main_v122, Cert.ReferenceIdeal.main_v123, Cert.ReferenceIdeal.main_v124, Cert.ReferenceIdeal.main_v125, Cert.ReferenceIdeal.main_v126, Cert.ReferenceIdeal.main_v127, Cert.ReferenceIdeal.main_v128, Cert.ReferenceIdeal.main_cst_23, Cert.ReferenceIdeal.main_v129, Cert.ReferenceIdeal.main_v130, Cert.ReferenceIdeal.main_v131] : List (Ref Cert.ReferenceIdeal.sig .tc)).map (Proc.devRef (τ := Cert.ReferenceIdeal.τ) .tc)).toFinset := by
  simp only [Cert.ReferenceIdeal.Line.opsB5, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRB5 (W : (Valuation Cert.ReferenceIdeal.τ Cert.ReferenceIdeal.sig (Elt Ideal))) (b : Ref Cert.ReferenceIdeal.sig .tc)
    (hb : b ∉ ([Cert.ReferenceIdeal.main_c_21, Cert.ReferenceIdeal.main_v119, Cert.ReferenceIdeal.main_v120, Cert.ReferenceIdeal.main_c_22, Cert.ReferenceIdeal.main_v121, Cert.ReferenceIdeal.main_v122, Cert.ReferenceIdeal.main_v123, Cert.ReferenceIdeal.main_v124, Cert.ReferenceIdeal.main_v125, Cert.ReferenceIdeal.main_v126, Cert.ReferenceIdeal.main_v127, Cert.ReferenceIdeal.main_v128, Cert.ReferenceIdeal.main_cst_23, Cert.ReferenceIdeal.main_v129, Cert.ReferenceIdeal.main_v130, Cert.ReferenceIdeal.main_v131] : List (Ref Cert.ReferenceIdeal.sig .tc))) :
    after Cert.ReferenceIdeal.Line.opsB5 W (Proc.devRef (τ := Cert.ReferenceIdeal.τ) .tc b) = W (Proc.devRef (τ := Cert.ReferenceIdeal.τ) .tc b) :=
  after_of_writes_sub _ W writesRB5 hb

theorem writesRD5 : (Cert.ReferenceIdeal.Line.opsD5 : List (HloOp Cert.ReferenceIdeal.τ Cert.ReferenceIdeal.sig (Elt Ideal))).Forall fun op =>
    op.writes ⊆ (([Cert.ReferenceIdeal.main_v132, Cert.ReferenceIdeal.main_v133, Cert.ReferenceIdeal.main_v134, Cert.ReferenceIdeal.main_call4_cst, Cert.ReferenceIdeal.main_call4_v0, Cert.ReferenceIdeal.main_v135, Cert.ReferenceIdeal.main_v136, Cert.ReferenceIdeal.main_v137, Cert.ReferenceIdeal.main_v138, Cert.ReferenceIdeal.main_v139, Cert.ReferenceIdeal.main_v140] : List (Ref Cert.ReferenceIdeal.sig .tc)).map (Proc.devRef (τ := Cert.ReferenceIdeal.τ) .tc)).toFinset := by
  simp only [Cert.ReferenceIdeal.Line.opsD5, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRD5 (W : (Valuation Cert.ReferenceIdeal.τ Cert.ReferenceIdeal.sig (Elt Ideal))) (b : Ref Cert.ReferenceIdeal.sig .tc)
    (hb : b ∉ ([Cert.ReferenceIdeal.main_v132, Cert.ReferenceIdeal.main_v133, Cert.ReferenceIdeal.main_v134, Cert.ReferenceIdeal.main_call4_cst, Cert.ReferenceIdeal.main_call4_v0, Cert.ReferenceIdeal.main_v135, Cert.ReferenceIdeal.main_v136, Cert.ReferenceIdeal.main_v137, Cert.ReferenceIdeal.main_v138, Cert.ReferenceIdeal.main_v139, Cert.ReferenceIdeal.main_v140] : List (Ref Cert.ReferenceIdeal.sig .tc))) :
    after Cert.ReferenceIdeal.Line.opsD5 W (Proc.devRef (τ := Cert.ReferenceIdeal.τ) .tc b) = W (Proc.devRef (τ := Cert.ReferenceIdeal.τ) .tc b) :=
  after_of_writes_sub _ W writesRD5 hb

theorem writesRB6 : (Cert.ReferenceIdeal.Line.opsB6 : List (HloOp Cert.ReferenceIdeal.τ Cert.ReferenceIdeal.sig (Elt Ideal))).Forall fun op =>
    op.writes ⊆ (([Cert.ReferenceIdeal.main_v141] : List (Ref Cert.ReferenceIdeal.sig .tc)).map (Proc.devRef (τ := Cert.ReferenceIdeal.τ) .tc)).toFinset := by
  simp only [Cert.ReferenceIdeal.Line.opsB6, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the piece does not write keeps its contents. -/
theorem keepRB6 (W : (Valuation Cert.ReferenceIdeal.τ Cert.ReferenceIdeal.sig (Elt Ideal))) (b : Ref Cert.ReferenceIdeal.sig .tc)
    (hb : b ∉ ([Cert.ReferenceIdeal.main_v141] : List (Ref Cert.ReferenceIdeal.sig .tc))) :
    after Cert.ReferenceIdeal.Line.opsB6 W (Proc.devRef (τ := Cert.ReferenceIdeal.τ) .tc b) = W (Proc.devRef (τ := Cert.ReferenceIdeal.τ) .tc b) :=
  after_of_writes_sub _ W writesRB6 hb

end Cert.Bridge

end
-- ==== Proof.BridgePrefix.lean ====
/-
  The graph's bookkeeping is the same in both programs.

  Both programs start with the same host operations on the edge list: append a self-loop per node to the source
  and target lists, count each node's incoming edges, take the inverse square root of the counts (zero where a
  count is zero), and weight each edge by the product of its two endpoints' values.  Run from launch contents
  that agree on the edge list, the two programs therefore hold the same source list, the same target list, and
  the same edge weights (the tiled program keeps them as a one-column array, the plain program as a flat list
  that it lays out as a column where it uses it).
-/
import proofs.«168201_j91182155694152_1_alg».proof.Proof.Gen.KernelIdeal.Launch
import proofs.«168201_j91182155694152_1_alg».proof.Proof.RefLine
import Idealize.ShloMosaic.Lib.ValueIdx
import Idealize.ShloMosaic.Lib.Pipeline.Value
import Idealize.ShloMosaic.Lib.StableHlo.Run

set_option maxRecDepth 16384
set_option maxHeartbeats 4000000

noncomputable section

namespace Cert.Bridge

open Idealize.ShloMosaic Idealize.ShloMosaic.TcCoe Idealize.ShloMosaic.ValueIdx Idealize.SL.Sem Idealize.ShloMosaic.StableHlo

/-- Finishes reading a stretch's results where a joined list's two parts hide them from the one-pass reading. -/
macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (WK : (Valuation Cert.KernelIdeal.τ Cert.KernelIdeal.sig (Elt Ideal))) (WR : (Valuation Cert.ReferenceIdeal.τ Cert.ReferenceIdeal.sig (Elt Ideal)))

/-- The source list with self-loops. -/
theorem pre_row (h18 : WK (Proc.devRef (τ := Cert.KernelIdeal.τ) .tc Cert.KernelIdeal.main_arg18) = WR (Proc.devRef (τ := Cert.ReferenceIdeal.τ) .tc Cert.ReferenceIdeal.main_arg18)) :
    after Cert.KernelIdeal.Gen.hostOps0_2 (after Cert.KernelIdeal.Gen.hostOps0_1 (after Cert.KernelIdeal.Gen.hostOps0 WK)) (Proc.devRef (τ := Cert.KernelIdeal.τ) .tc Cert.KernelIdeal.main_v3) = after Cert.ReferenceIdeal.Line.opsA WR (Proc.devRef (τ := Cert.ReferenceIdeal.τ) .tc Cert.ReferenceIdeal.main_v3) := by
  simp only [Cert.KernelIdeal.Gen.hostOps0_2, Cert.KernelIdeal.Gen.hostOps0_1, Cert.KernelIdeal.Gen.hostOps0, Cert.ReferenceIdeal.Line.opsA]
  after_results_simp
  finish_results
  rw [h18]
  rfl

/-- The target list with self-loops. -/
theorem pre_col (h18 : WK (Proc.devRef (τ := Cert.KernelIdeal.τ) .tc Cert.KernelIdeal.main_arg18) = WR (Proc.devRef (τ := Cert.ReferenceIdeal.τ) .tc Cert.ReferenceIdeal.main_arg18)) :
    after Cert.KernelIdeal.Gen.hostOps0_2 (after Cert.KernelIdeal.Gen.hostOps0_1 (after Cert.KernelIdeal.Gen.hostOps0 WK)) (Proc.devRef (τ := Cert.KernelIdeal.τ) .tc Cert.KernelIdeal.main_v6) = after Cert.ReferenceIdeal.Line.opsA WR (Proc.devRef (τ := Cert.ReferenceIdeal.τ) .tc Cert.ReferenceIdeal.main_v6) := by
  simp only [Cert.KernelIdeal.Gen.hostOps0_2, Cert.KernelIdeal.Gen.hostOps0_1, Cert.KernelIdeal.Gen.hostOps0, Cert.ReferenceIdeal.Line.opsA]
  after_results_simp
  finish_results
  rw [h18]
  rfl

/-- The edge weights: a column in the tiled program, the same numbers as a flat list in the plain one. -/
theorem pre_norm (h18 : WK (Proc.devRef (τ := Cert.KernelIdeal.τ) .tc Cert.KernelIdeal.main_arg18) = WR (Proc.devRef (τ := Cert.ReferenceIdeal.τ) .tc Cert.ReferenceIdeal.main_arg18)) :
    after Cert.KernelIdeal.Gen.hostOps0_2 (after Cert.KernelIdeal.Gen.hostOps0_1 (after Cert.KernelIdeal.Gen.hostOps0 WK)) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 (after Cert.ReferenceIdeal.Line.opsA WR (Proc.devRef (τ := Cert.ReferenceIdeal.τ) .tc Cert.ReferenceIdeal.main_v29)) := by
  simp only [Cert.KernelIdeal.Gen.hostOps0_2, Cert.KernelIdeal.Gen.hostOps0_1, Cert.KernelIdeal.Gen.hostOps0, Cert.ReferenceIdeal.Line.opsA]
  after_results_simp
  finish_results
  rw [h18]
  rfl

end Cert.Bridge

end
-- ==== Proof.BridgeAgg.lean ====
/-
  One aggregation along the edges is the same in both programs.

  An aggregation takes node rows, gathers for every edge its source node's row, scales it by the edge's weight,
  and adds it into its target node's row.  Both programs spell it with the same host operations; given the same
  source list, target list, edge weights and node rows, they produce the same aggregated rows.  The tiled
  program also lays the next stage's bias out as a one-row array in the same stretch.
-/
import proofs.«168201_j91182155694152_1_alg».proof.Proof.Gen.KernelIdeal.Launch
import proofs.«168201_j91182155694152_1_alg».proof.Proof.RefLine
import Idealize.ShloMosaic.Lib.ValueIdx
import Idealize.ShloMosaic.Lib.Pipeline.Value
import Idealize.ShloMosaic.Lib.StableHlo.Run

set_option maxRecDepth 16384
set_option maxHeartbeats 4000000

noncomputable section

namespace Cert.Bridge

open Idealize.ShloMosaic Idealize.ShloMosaic.TcCoe Idealize.ShloMosaic.ValueIdx Idealize.SL.Sem Idealize.ShloMosaic.StableHlo

variable (WK : (Valuation Cert.KernelIdeal.τ Cert.KernelIdeal.sig (Elt Ideal))) (WR : (Valuation Cert.ReferenceIdeal.τ Cert.ReferenceIdeal.sig (Elt Ideal)))

/-- Aggregation 1: the same rows in, the same rows out. -/
theorem agg1 (hrow : WK (Proc.devRef (τ := Cert.KernelIdeal.τ) .tc Cert.KernelIdeal.main_v3) = WR (Proc.devRef (τ := Cert.ReferenceIdeal.τ) .tc Cert.ReferenceIdeal.main_v3)) (hcol : WK (Proc.devRef (τ := Cert.KernelIdeal.τ) .tc Cert.KernelIdeal.main_v6) = WR (Proc.devRef (τ := Cert.ReferenceIdeal.τ) .tc Cert.ReferenceIdeal.main_v6))
    (hnorm : WK (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 (WR (Proc.devRef (τ := Cert.ReferenceIdeal.τ) .tc Cert.ReferenceIdeal.main_v29)))
    (hhw : WK (Proc.devRef (τ := Cert.KernelIdeal.τ) .tc Cert.KernelIdeal.main_v31) = WR (Proc.devRef (τ := Cert.ReferenceIdeal.τ) .tc Cert.ReferenceIdeal.main_v30)) :
    after Cert.KernelIdeal.Gen.hostOps1 WK (Proc.devRef (τ := Cert.KernelIdeal.τ) .tc Cert.KernelIdeal.main_v43) = after Cert.ReferenceIdeal.Line.opsB1 WR (Proc.devRef (τ := Cert.ReferenceIdeal.τ) .tc Cert.ReferenceIdeal.main_v43) := by
  simp only [Cert.KernelIdeal.Gen.hostOps1, Cert.ReferenceIdeal.Line.opsB1]
  after_results_simp
  simp only [hrow, hcol, hnorm, hhw]
  rfl

/-- The next stage's bias, laid out as one row. -/
theorem bias1 :
    after Cert.KernelIdeal.Gen.hostOps1 WK (Proc.devRef (τ := Cert.KernelIdeal.τ) .tc Cert.KernelIdeal.main_v44) = shapeCast Cert.KernelIdeal.S1x128 (WK (Proc.devRef (τ := Cert.KernelIdeal.τ) .tc Cert.KernelIdeal.main_arg3)) Cert.KernelIdeal.Gen.shapeCasts_S128_S1x128 := by
  simp only [Cert.KernelIdeal.Gen.hostOps1]
  after_results_simp
  rfl

/-- Aggregation 2: the same rows in, the same rows out. -/
theorem agg2 (hrow : WK (Proc.devRef (τ := Cert.KernelIdeal.τ) .tc Cert.KernelIdeal.main_v3) = WR (Proc.devRef (τ := Cert.ReferenceIdeal.τ) .tc Cert.ReferenceIdeal.main_v3)) (hcol : WK (Proc.devRef (τ := Cert.KernelIdeal.τ) .tc Cert.KernelIdeal.main_v6) = WR (Proc.devRef (τ := Cert.ReferenceIdeal.τ) .tc Cert.ReferenceIdeal.main_v6))
    (hnorm : WK (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 (WR (Proc.devRef (τ := Cert.ReferenceIdeal.τ) .tc Cert.ReferenceIdeal.main_v29)))
    (hhw : WK (Proc.devRef (τ := Cert.KernelIdeal.τ) .tc Cert.KernelIdeal.main_v45) = WR (Proc.devRef (τ := Cert.ReferenceIdeal.τ) .tc Cert.ReferenceIdeal.main_v48)) :
    after Cert.KernelIdeal.Gen.hostOps2 WK (Proc.devRef (τ := Cert.KernelIdeal.τ) .tc Cert.KernelIdeal.main_v57) = after Cert.ReferenceIdeal.Line.opsB2 WR (Proc.devRef (τ := Cert.ReferenceIdeal.τ) .tc Cert.ReferenceIdeal.main_v61) := by
  simp only [Cert.KernelIdeal.Gen.hostOps2, Cert.ReferenceIdeal.Line.opsB2]
  after_results_simp
  simp only [hrow, hcol, hnorm, hhw]
  rfl

/-- The next stage's bias, laid out as one row. -/
theorem bias2 :
    after Cert.KernelIdeal.Gen.hostOps2 WK (Proc.devRef (τ := Cert.KernelIdeal.τ) .tc Cert.KernelIdeal.main_v58) = shapeCast Cert.KernelIdeal.S1x128 (WK (Proc.devRef (τ := Cert.KernelIdeal.τ) .tc Cert.KernelIdeal.main_arg5)) Cert.KernelIdeal.Gen.shapeCasts_S128_S1x128 := by
  simp only [Cert.KernelIdeal.Gen.hostOps2]
  after_results_simp
  rfl

/-- Aggregation 4: the same rows in, the same rows out. -/
theorem agg4 (hrow : WK (Proc.devRef (τ := Cert.KernelIdeal.τ) .tc Cert.KernelIdeal.main_v3) = WR (Proc.devRef (τ := Cert.ReferenceIdeal.τ) .tc Cert.ReferenceIdeal.main_v3)) (hcol : WK (Proc.devRef (τ := Cert.KernelIdeal.τ) .tc Cert.KernelIdeal.main_v6) = WR (Proc.devRef (τ := Cert.ReferenceIdeal.τ) .tc Cert.ReferenceIdeal.main_v6))
    (hnorm : WK (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 (WR (Proc.devRef (τ := Cert.ReferenceIdeal.τ) .tc Cert.ReferenceIdeal.main_v29)))
    (hhw : WK (Proc.devRef (τ := Cert.KernelIdeal.τ) .tc Cert.KernelIdeal.main_v94) = WR (Proc.devRef (τ := Cert.ReferenceIdeal.τ) .tc Cert.ReferenceIdeal.main_v100)) :
    after Cert.KernelIdeal.Gen.hostOps4 WK (Proc.devRef (τ := Cert.KernelIdeal.τ) .tc Cert.KernelIdeal.main_v106) = after Cert.ReferenceIdeal.Line.opsB4 WR (Proc.devRef (τ := Cert.ReferenceIdeal.τ) .tc Cert.ReferenceIdeal.main_v113) := by
  simp only [Cert.KernelIdeal.Gen.hostOps4, Cert.ReferenceIdeal.Line.opsB4]
  after_results_simp
  simp only [hrow, hcol, hnorm, hhw]
  rfl

/-- The next stage's bias, laid out as one row. -/
theorem bias4 :
    after Cert.KernelIdeal.Gen.hostOps4 WK (Proc.devRef (τ := Cert.KernelIdeal.τ) .tc Cert.KernelIdeal.main_v107) = shapeCast Cert.KernelIdeal.S1x128 (WK (Proc.devRef (τ := Cert.KernelIdeal.τ) .tc Cert.KernelIdeal.main_arg13)) Cert.KernelIdeal.Gen.shapeCasts_S128_S1x128 := by
  simp only [Cert.KernelIdeal.Gen.hostOps4]
  after_results_simp
  rfl

/-- Aggregation 5: the same rows in, the same rows out. -/
theorem agg5 (hrow : WK (Proc.devRef (τ := Cert.KernelIdeal.τ) .tc Cert.KernelIdeal.main_v3) = WR (Proc.devRef (τ := Cert.ReferenceIdeal.τ) .tc Cert.ReferenceIdeal.main_v3)) (hcol : WK (Proc.devRef (τ := Cert.KernelIdeal.τ) .tc Cert.KernelIdeal.main_v6) = WR (Proc.devRef (τ := Cert.ReferenceIdeal.τ) .tc Cert.ReferenceIdeal.main_v6))
    (hnorm : WK (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 (WR (Proc.devRef (τ := Cert.ReferenceIdeal.τ) .tc Cert.ReferenceIdeal.main_v29)))
    (hhw : WK (Proc.devRef (τ := Cert.KernelIdeal.τ) .tc Cert.KernelIdeal.main_v108) = WR (Proc.devRef (τ := Cert.ReferenceIdeal.τ) .tc Cert.ReferenceIdeal.main_v118)) :
    after Cert.KernelIdeal.Gen.hostOps5 WK (Proc.devRef (τ := Cert.KernelIdeal.τ) .tc Cert.KernelIdeal.main_v120) = after Cert.ReferenceIdeal.Line.opsB5 WR (Proc.devRef (τ := Cert.ReferenceIdeal.τ) .tc Cert.ReferenceIdeal.main_v131) := by
  simp only [Cert.KernelIdeal.Gen.hostOps5, Cert.ReferenceIdeal.Line.opsB5]
  after_results_simp
  simp only [hrow, hcol, hnorm, hhw]
  rfl

/-- The next stage's bias, laid out as one row. -/
theorem bias5 :
    after Cert.KernelIdeal.Gen.hostOps5 WK (Proc.devRef (τ := Cert.KernelIdeal.τ) .tc Cert.KernelIdeal.main_v121) = shapeCast Cert.KernelIdeal.S1x128 (WK (Proc.devRef (τ := Cert.KernelIdeal.τ) .tc Cert.KernelIdeal.main_arg15)) Cert.KernelIdeal.Gen.shapeCasts_S128_S1x128 := by
  simp only [Cert.KernelIdeal.Gen.hostOps5]
  after_results_simp
  rfl

/-- The output bias, laid out as a one-by-one array. -/
theorem bias5out :
    after Cert.KernelIdeal.Gen.hostOps5 WK (Proc.devRef (τ := Cert.KernelIdeal.τ) .tc Cert.KernelIdeal.main_v122) = shapeCast Cert.KernelIdeal.S1x1 (WK (Proc.devRef (τ := Cert.KernelIdeal.τ) .tc Cert.KernelIdeal.main_arg17)) Cert.KernelIdeal.Gen.shapeCasts_S1_S1x1 := by
  simp only [Cert.KernelIdeal.Gen.hostOps5]
  after_results_simp
  rfl

/-- The per-graph layout of the outputs. -/
theorem recon (hs : WK (Proc.devRef (τ := Cert.KernelIdeal.τ) .tc Cert.KernelIdeal.main_v123) = WR (Proc.devRef (τ := Cert.ReferenceIdeal.τ) .tc Cert.ReferenceIdeal.main_v140)) :
    after Cert.KernelIdeal.Gen.hostOps6 WK (Proc.devRef (τ := Cert.KernelIdeal.τ) .tc Cert.KernelIdeal.main_v124) = after Cert.ReferenceIdeal.Line.opsB6 WR (Proc.devRef (τ := Cert.ReferenceIdeal.τ) .tc Cert.ReferenceIdeal.main_v141) := by
  simp only [Cert.KernelIdeal.Gen.hostOps6, Cert.ReferenceIdeal.Line.opsB6]
  after_results_simp
  simp only [hs]
  rfl

/-- A bias laid out as one row, read back. -/
theorem row_apply (x : FVec Ideal Cert.KernelIdeal.S128 .f32) (k : Fin 128) :
    shapeCast Cert.KernelIdeal.S1x128 x Cert.KernelIdeal.Gen.shapeCasts_S128_S1x128 (ix2 (0 : Fin 1) k) = x (ix1 k) :=
  shapeCast_apply x _ (ix2 (0 : Fin 1) k) (ix1 k) (by
    rw [Shape.rowMajor_val_one, Shape.rowMajor_val_two]
    show k.val = 0 * 128 + k.val
    omega)

/-- The output bias laid out as a one-by-one array, read back. -/
theorem one_apply (x : FVec Ideal Cert.KernelIdeal.S1 .f32) (q : Fin 1) :
    shapeCast Cert.KernelIdeal.S1x1 x Cert.KernelIdeal.Gen.shapeCasts_S1_S1x1 (ix2 (0 : Fin 1) q) = x (ix1 q) :=
  shapeCast_apply x _ (ix2 (0 : Fin 1) q) (ix1 q) (by
    rw [Shape.rowMajor_val_one, Shape.rowMajor_val_two]
    show q.val = 0 * 1 + q.val
    omega)

end Cert.Bridge

end
-- ==== Proof.BridgePool.lean ====
/-
  Pooling and the latent variables are the same in both programs.

  From the encoder's output rows both programs compute, with the same host operations: the per-graph mean of the
  rows (a sum per graph divided by the graph's node count), the latent mean and log-variance (two dense maps of
  the pooled rows), the latent sample  mean + exp (log-variance / 2) · noise, its dense map back to feature
  width, and for every node the row of its graph.  Given the same encoder rows, graph assignment, weights,
  biases and noise, the two programs hold the same mean, log-variance, sample and node rows.
-/
import proofs.«168201_j91182155694152_1_alg».proof.Proof.Gen.KernelIdeal.Launch
import proofs.«168201_j91182155694152_1_alg».proof.Proof.RefLine
import Idealize.ShloMosaic.Lib.ValueIdx
import Idealize.ShloMosaic.Lib.Pipeline.Value
import Idealize.ShloMosaic.Lib.StableHlo.Run

set_option maxRecDepth 16384
set_option maxHeartbeats 4000000

noncomputable section

namespace Cert.Bridge

open Idealize.ShloMosaic Idealize.ShloMosaic.TcCoe Idealize.ShloMosaic.ValueIdx Idealize.SL.Sem Idealize.ShloMosaic.StableHlo

variable (WK : (Valuation Cert.KernelIdeal.τ Cert.KernelIdeal.sig (Elt Ideal))) (WR : (Valuation Cert.ReferenceIdeal.τ Cert.ReferenceIdeal.sig (Elt Ideal)))
  (hh : WK (Proc.devRef (τ := Cert.KernelIdeal.τ) .tc Cert.KernelIdeal.main_v59) = WR (Proc.devRef (τ := Cert.ReferenceIdeal.τ) .tc Cert.ReferenceIdeal.main_v65))
  (h_arg19 : WK (Proc.devRef (τ := Cert.KernelIdeal.τ) .tc Cert.KernelIdeal.main_arg19) = WR (Proc.devRef (τ := Cert.ReferenceIdeal.τ) .tc Cert.ReferenceIdeal.main_arg19))
  (h_arg6 : WK (Proc.devRef (τ := Cert.KernelIdeal.τ) .tc Cert.KernelIdeal.main_arg6) = WR (Proc.devRef (τ := Cert.ReferenceIdeal.τ) .tc Cert.ReferenceIdeal.main_arg6))
  (h_arg7 : WK (Proc.devRef (τ := Cert.KernelIdeal.τ) .tc Cert.KernelIdeal.main_arg7) = WR (Proc.devRef (τ := Cert.ReferenceIdeal.τ) .tc Cert.ReferenceIdeal.main_arg7))
  (h_arg8 : WK (Proc.devRef (τ := Cert.KernelIdeal.τ) .tc Cert.KernelIdeal.main_arg8) = WR (Proc.devRef (τ := Cert.ReferenceIdeal.τ) .tc Cert.ReferenceIdeal.main_arg8))
  (h_arg9 : WK (Proc.devRef (τ := Cert.KernelIdeal.τ) .tc Cert.KernelIdeal.main_arg9) = WR (Proc.devRef (τ := Cert.ReferenceIdeal.τ) .tc Cert.ReferenceIdeal.main_arg9))
  (h_arg1 : WK (Proc.devRef (τ := Cert.KernelIdeal.τ) .tc Cert.KernelIdeal.main_arg1) = WR (Proc.devRef (τ := Cert.ReferenceIdeal.τ) .tc Cert.ReferenceIdeal.main_arg1))
  (h_arg10 : WK (Proc.devRef (τ := Cert.KernelIdeal.τ) .tc Cert.KernelIdeal.main_arg10) = WR (Proc.devRef (τ := Cert.ReferenceIdeal.τ) .tc Cert.ReferenceIdeal.main_arg10))
  (h_arg11 : WK (Proc.devRef (τ := Cert.KernelIdeal.τ) .tc Cert.KernelIdeal.main_arg11) = WR (Proc.devRef (τ := Cert.ReferenceIdeal.τ) .tc Cert.ReferenceIdeal.main_arg11))
include hh h_arg19 h_arg6 h_arg7 h_arg8 h_arg9 h_arg1 h_arg10 h_arg11

/-- The latent mean. -/
theorem pool_mu : after Cert.KernelIdeal.Gen.hostOps3 WK (Proc.devRef (τ := Cert.KernelIdeal.τ) .tc Cert.KernelIdeal.main_v73) = after Cert.ReferenceIdeal.Line.opsB3 WR (Proc.devRef (τ := Cert.ReferenceIdeal.τ) .tc Cert.ReferenceIdeal.main_v79) := by
  simp only [Cert.KernelIdeal.Gen.hostOps3, Cert.ReferenceIdeal.Line.opsB3]
  after_results_simp
  simp only [hh, h_arg19, h_arg6, h_arg7, h_arg8, h_arg9, h_arg1, h_arg10, h_arg11]
  rfl

/-- The latent log-variance. -/
theorem pool_logvar : after Cert.KernelIdeal.Gen.hostOps3 WK (Proc.devRef (τ := Cert.KernelIdeal.τ) .tc Cert.KernelIdeal.main_v77) = after Cert.ReferenceIdeal.Line.opsB3 WR (Proc.devRef (τ := Cert.ReferenceIdeal.τ) .tc Cert.ReferenceIdeal.main_v83) := by
  simp only [Cert.KernelIdeal.Gen.hostOps3, Cert.ReferenceIdeal.Line.opsB3]
  after_results_simp
  simp only [hh, h_arg19, h_arg6, h_arg7, h_arg8, h_arg9, h_arg1, h_arg10, h_arg11]
  rfl

/-- The latent sample. -/
theorem pool_z : after Cert.KernelIdeal.Gen.hostOps3 WK (Proc.devRef (τ := Cert.KernelIdeal.τ) .tc Cert.KernelIdeal.main_v82) = after Cert.ReferenceIdeal.Line.opsB3 WR (Proc.devRef (τ := Cert.ReferenceIdeal.τ) .tc Cert.ReferenceIdeal.main_v88) := by
  simp only [Cert.KernelIdeal.Gen.hostOps3, Cert.ReferenceIdeal.Line.opsB3]
  after_results_simp
  simp only [hh, h_arg19, h_arg6, h_arg7, h_arg8, h_arg9, h_arg1, h_arg10, h_arg11]
  rfl

/-- Every node's latent row. -/
theorem pool_hd0 : after Cert.KernelIdeal.Gen.hostOps3 WK (Proc.devRef (τ := Cert.KernelIdeal.τ) .tc Cert.KernelIdeal.main_v93) = after Cert.ReferenceIdeal.Line.opsB3 WR (Proc.devRef (τ := Cert.ReferenceIdeal.τ) .tc Cert.ReferenceIdeal.main_v99) := by
  simp only [Cert.KernelIdeal.Gen.hostOps3, Cert.ReferenceIdeal.Line.opsB3]
  after_results_simp
  simp only [hh, h_arg19, h_arg6, h_arg7, h_arg8, h_arg9, h_arg1, h_arg10, h_arg11]
  rfl

end Cert.Bridge

end
-- ==== Proof.BridgeDenseR.lean ====
/-
  The plain program's dense stages are the stage functions.

  Each dense stage of the plain program — a product with a weight matrix, possibly after adding a bias and
  clamping at zero, possibly followed by an output bias and tanh — is, operation for operation, one of the stage
  functions applied to the buffers it reads.
-/
import proofs.«168201_j91182155694152_1_alg».proof.Proof.RefLine
import proofs.«168201_j91182155694152_1_alg».proof.Proof.DenseStages
import Idealize.ShloMosaic.Lib.ValueIdx
import Idealize.ShloMosaic.Lib.Pipeline.Value
import Idealize.ShloMosaic.Lib.StableHlo.Run

set_option maxRecDepth 16384
set_option maxHeartbeats 4000000

noncomputable section

namespace Cert.Bridge

open Idealize.ShloMosaic Idealize.ShloMosaic.TcCoe Idealize.ShloMosaic.ValueIdx Idealize.SL.Sem Idealize.ShloMosaic.StableHlo

variable (WR : (Valuation Cert.ReferenceIdeal.τ Cert.ReferenceIdeal.sig (Elt Ideal)))

theorem dR0 : after Cert.ReferenceIdeal.Line.opsD0 WR (Proc.devRef (τ := Cert.ReferenceIdeal.τ) .tc Cert.ReferenceIdeal.main_v30) = Cert.Dense.linear1 (WR (Proc.devRef (τ := Cert.ReferenceIdeal.τ) .tc Cert.ReferenceIdeal.main_arg0)) (WR (Proc.devRef (τ := Cert.ReferenceIdeal.τ) .tc Cert.ReferenceIdeal.main_arg2)) := by
  simp only [Cert.ReferenceIdeal.Line.opsD0]
  after_results_simp
  rfl

theorem dR1 : after Cert.ReferenceIdeal.Line.opsD1 WR (Proc.devRef (τ := Cert.ReferenceIdeal.τ) .tc Cert.ReferenceIdeal.main_v48)
    = Cert.Dense.reluLinear (WR (Proc.devRef (τ := Cert.ReferenceIdeal.τ) .tc Cert.ReferenceIdeal.main_v43)) (WR (Proc.devRef (τ := Cert.ReferenceIdeal.τ) .tc Cert.ReferenceIdeal.main_arg3)) (WR (Proc.devRef (τ := Cert.ReferenceIdeal.τ) .tc Cert.ReferenceIdeal.main_arg4)) := by
  simp only [Cert.ReferenceIdeal.Line.opsD1]
  after_results_simp
  rfl

theorem dR2 : after Cert.ReferenceIdeal.Line.opsD2 WR (Proc.devRef (τ := Cert.ReferenceIdeal.τ) .tc Cert.ReferenceIdeal.main_v65) = Cert.Dense.biasRelu (WR (Proc.devRef (τ := Cert.ReferenceIdeal.τ) .tc Cert.ReferenceIdeal.main_v61)) (WR (Proc.devRef (τ := Cert.ReferenceIdeal.τ) .tc Cert.ReferenceIdeal.main_arg5)) := by
  simp only [Cert.ReferenceIdeal.Line.opsD2]
  after_results_simp
  rfl

theorem dR3 : after Cert.ReferenceIdeal.Line.opsD3 WR (Proc.devRef (τ := Cert.ReferenceIdeal.τ) .tc Cert.ReferenceIdeal.main_v100) = Cert.Dense.linear (WR (Proc.devRef (τ := Cert.ReferenceIdeal.τ) .tc Cert.ReferenceIdeal.main_v99)) (WR (Proc.devRef (τ := Cert.ReferenceIdeal.τ) .tc Cert.ReferenceIdeal.main_arg12)) := by
  simp only [Cert.ReferenceIdeal.Line.opsD3]
  after_results_simp
  rfl

theorem dR4 : after Cert.ReferenceIdeal.Line.opsD4 WR (Proc.devRef (τ := Cert.ReferenceIdeal.τ) .tc Cert.ReferenceIdeal.main_v118)
    = Cert.Dense.reluLinear (WR (Proc.devRef (τ := Cert.ReferenceIdeal.τ) .tc Cert.ReferenceIdeal.main_v113)) (WR (Proc.devRef (τ := Cert.ReferenceIdeal.τ) .tc Cert.ReferenceIdeal.main_arg13)) (WR (Proc.devRef (τ := Cert.ReferenceIdeal.τ) .tc Cert.ReferenceIdeal.main_arg14)) := by
  simp only [Cert.ReferenceIdeal.Line.opsD4]
  after_results_simp
  rfl

theorem dR5 : after Cert.ReferenceIdeal.Line.opsD5 WR (Proc.devRef (τ := Cert.ReferenceIdeal.τ) .tc Cert.ReferenceIdeal.main_v140)
    = Cert.Dense.reluLinearTanh (WR (Proc.devRef (τ := Cert.ReferenceIdeal.τ) .tc Cert.ReferenceIdeal.main_v131)) (WR (Proc.devRef (τ := Cert.ReferenceIdeal.τ) .tc Cert.ReferenceIdeal.main_arg15)) (WR (Proc.devRef (τ := Cert.ReferenceIdeal.τ) .tc Cert.ReferenceIdeal.main_arg16)) (WR (Proc.devRef (τ := Cert.ReferenceIdeal.τ) .tc Cert.ReferenceIdeal.main_arg17)) := by
  simp only [Cert.ReferenceIdeal.Line.opsD5]
  after_results_simp
  rfl

end Cert.Bridge

end
-- ==== Proof.Bridge.lean ====
/-
  The two programs compute the same four results.

  The tiled program alternates stretches of host operations with six row-tiled dense stages; the plain program is
  one line of host operations, cut here into thirteen pieces that match the tiled program's segments one for
  one.  Walking both from launch memories that agree on the twenty arguments, the buffers that matter hold the
  same arrays at every matching boundary:
    * the arguments, the edge lists and the edge weights are never rewritten, so they are carried along;
    * a stretch of host operations is the same operations on both sides, so equal inputs give equal outputs;
    * a dense stage of the tiled program leaves the stage's function of the arrays it found (the tile-by-tile
      modules), and the plain program's matching piece is that function on the nose;
    * the latent mean, log-variance and sample are made midway and carried to the end.
  At the last boundary the per-graph outputs and the three latent results coincide.
-/
import proofs.«168201_j91182155694152_1_alg».proof.Proof.KernelRun
import proofs.«168201_j91182155694152_1_alg».proof.Proof.RefLine
import proofs.«168201_j91182155694152_1_alg».proof.Proof.Stage0
import proofs.«168201_j91182155694152_1_alg».proof.Proof.Stage1
import proofs.«168201_j91182155694152_1_alg».proof.Proof.Stage2
import proofs.«168201_j91182155694152_1_alg».proof.Proof.Stage3
import proofs.«168201_j91182155694152_1_alg».proof.Proof.Stage4
import proofs.«168201_j91182155694152_1_alg».proof.Proof.Stage5
import proofs.«168201_j91182155694152_1_alg».proof.Proof.BridgeKeep
import proofs.«168201_j91182155694152_1_alg».proof.Proof.BridgePrefix
import proofs.«168201_j91182155694152_1_alg».proof.Proof.BridgeAgg
import proofs.«168201_j91182155694152_1_alg».proof.Proof.BridgePool
import proofs.«168201_j91182155694152_1_alg».proof.Proof.BridgeDenseR
import Idealize.ShloMosaic.Lib.ValueIdx
import Idealize.ShloMosaic.Lib.Pipeline.Value
import Idealize.ShloMosaic.Lib.StableHlo.Run

set_option maxRecDepth 16384
set_option maxHeartbeats 4000000

noncomputable section

namespace Cert.Bridge

open Idealize.ShloMosaic Idealize.ShloMosaic.TcCoe Idealize.ShloMosaic.ValueIdx Idealize.SL.Sem Idealize.ShloMosaic.StableHlo

theorem congr2 {α β γ : Sort _} (f : α → β → γ) {a a' : α} {b b' : β} (h1 : a = a') (h2 : b = b') : f a b = f a' b' := by
  subst h1 h2; rfl
theorem congr3 {α β γ δ : Sort _} (f : α → β → γ → δ) {a a' : α} {b b' : β} {c c' : γ} (h1 : a = a') (h2 : b = b') (h3 : c = c') :
    f a b c = f a' b' c' := by
  subst h1 h2 h3; rfl
theorem congr4 {α β γ δ ε : Sort _} (f : α → β → γ → δ → ε) {a a' : α} {b b' : β} {c c' : γ} {d d' : δ}
    (h1 : a = a') (h2 : b = b') (h3 : c = c') (h4 : d = d') : f a b c d = f a' b' c' d' := by
  subst h1 h2 h3 h4; rfl

/-- The fold over a list cut in two is the fold over the second part from the fold over the first. -/
theorem after_append {τ : Topo} {sig : RefSig} {Val : EltTy → Type} (l1 l2 : List (HloOp τ sig Val)) (V : Valuation τ sig Val) :
    after (l1 ++ l2) V = after l2 (after l1 V) := by
  induction l1 generalizing V with
  | nil => rfl
  | cons op l ih => exact ih _

section Chain

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

/-- The two launch memories agree on the twenty arguments. -/
structure Agree : Prop where
  a0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
  a1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
  a2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
  a3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
  a4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
  a5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
  a6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
  a7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
  a8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
  a9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
  a10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
  a11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
  a12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
  a13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
  a14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
  a15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
  a16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
  a17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
  a18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
  a19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))

/-- The plain program's buffer contents after each of its thirteen pieces. -/
abbrev RA : (Valuation Cert.ReferenceIdeal.τ Cert.ReferenceIdeal.sig (Elt Ideal)) := after Cert.ReferenceIdeal.Line.opsA (launchContents m' c)
abbrev RD0 : (Valuation Cert.ReferenceIdeal.τ Cert.ReferenceIdeal.sig (Elt Ideal)) := after Cert.ReferenceIdeal.Line.opsD0 (RA c m')
abbrev RB1 : (Valuation Cert.ReferenceIdeal.τ Cert.ReferenceIdeal.sig (Elt Ideal)) := after Cert.ReferenceIdeal.Line.opsB1 (RD0 c m')
abbrev RD1 : (Valuation Cert.ReferenceIdeal.τ Cert.ReferenceIdeal.sig (Elt Ideal)) := after Cert.ReferenceIdeal.Line.opsD1 (RB1 c m')
abbrev RB2 : (Valuation Cert.ReferenceIdeal.τ Cert.ReferenceIdeal.sig (Elt Ideal)) := after Cert.ReferenceIdeal.Line.opsB2 (RD1 c m')
abbrev RD2 : (Valuation Cert.ReferenceIdeal.τ Cert.ReferenceIdeal.sig (Elt Ideal)) := after Cert.ReferenceIdeal.Line.opsD2 (RB2 c m')
abbrev RB3 : (Valuation Cert.ReferenceIdeal.τ Cert.ReferenceIdeal.sig (Elt Ideal)) := after Cert.ReferenceIdeal.Line.opsB3 (RD2 c m')
abbrev RD3 : (Valuation Cert.ReferenceIdeal.τ Cert.ReferenceIdeal.sig (Elt Ideal)) := after Cert.ReferenceIdeal.Line.opsD3 (RB3 c m')
abbrev RB4 : (Valuation Cert.ReferenceIdeal.τ Cert.ReferenceIdeal.sig (Elt Ideal)) := after Cert.ReferenceIdeal.Line.opsB4 (RD3 c m')
abbrev RD4 : (Valuation Cert.ReferenceIdeal.τ Cert.ReferenceIdeal.sig (Elt Ideal)) := after Cert.ReferenceIdeal.Line.opsD4 (RB4 c m')
abbrev RB5 : (Valuation Cert.ReferenceIdeal.τ Cert.ReferenceIdeal.sig (Elt Ideal)) := after Cert.ReferenceIdeal.Line.opsB5 (RD4 c m')
abbrev RD5 : (Valuation Cert.ReferenceIdeal.τ Cert.ReferenceIdeal.sig (Elt Ideal)) := after Cert.ReferenceIdeal.Line.opsD5 (RB5 c m')
abbrev RB6 : (Valuation Cert.ReferenceIdeal.τ Cert.ReferenceIdeal.sig (Elt Ideal)) := after Cert.ReferenceIdeal.Line.opsB6 (RD5 c m')

/-- The whole line's fold is the thirteenth. -/
theorem fold : after Cert.ReferenceIdeal.Line.ops (launchContents m' c) = RB6 c m' := by
  rw [Cert.ReferenceIdeal.Line.ops_split]
  simp only [after_append]

variable (hA : Agree m c m')
include ρ hA

/-! ## The arguments, carried along -/
theorem K3a0 : (Cert.KernelIdeal.Gen.W3 (F := Ideal) m ρ c) (Proc.devRef (τ := Cert.KernelIdeal.τ) .tc Cert.KernelIdeal.main_arg0) = (m ((c.tc : Thread Cert.KernelIdeal.nD Cert.KernelIdeal.τ).loc Cert.KernelIdeal.main_arg0)) :=
  (keepK0_2 (Cert.KernelIdeal.Gen.W2 (F := Ideal) m ρ c) Cert.KernelIdeal.main_arg0 (by decide)).trans ((keepK0_1 (Cert.KernelIdeal.Gen.W1 (F := Ideal) m ρ c) Cert.KernelIdeal.main_arg0 (by decide)).trans
    ((keepK0 (Cert.KernelIdeal.Gen.W0 (F := Ideal) m ρ c) Cert.KernelIdeal.main_arg0 (by decide)).trans rfl))
theorem R3a0 : (RA c m') (Proc.devRef (τ := Cert.ReferenceIdeal.τ) .tc Cert.ReferenceIdeal.main_arg0) = (m' ((c.tc : Thread Cert.ReferenceIdeal.nD Cert.ReferenceIdeal.τ).loc Cert.ReferenceIdeal.main_arg0)) := (keepRA (launchContents m' c) Cert.ReferenceIdeal.main_arg0 (by decide)).trans rfl
theorem K3a1 : (Cert.KernelIdeal.Gen.W3 (F := Ideal) m ρ c) (Proc.devRef (τ := Cert.KernelIdeal.τ) .tc Cert.KernelIdeal.main_arg1) = (m ((c.tc : Thread Cert.KernelIdeal.nD Cert.KernelIdeal.τ).loc Cert.KernelIdeal.main_arg1)) :=
  (keepK0_2 (Cert.KernelIdeal.Gen.W2 (F := Ideal) m ρ c) Cert.KernelIdeal.main_arg1 (by decide)).trans ((keepK0_1 (Cert.KernelIdeal.Gen.W1 (F := Ideal) m ρ c) Cert.KernelIdeal.main_arg1 (by decide)).trans
    ((keepK0 (Cert.KernelIdeal.Gen.W0 (F := Ideal) m ρ c) Cert.KernelIdeal.main_arg1 (by decide)).trans rfl))
theorem K4a1 : (Cert.KernelIdeal.Gen.W4 (F := Ideal) m ρ c) (Proc.devRef (τ := Cert.KernelIdeal.τ) .tc Cert.KernelIdeal.main_arg1) = (m ((c.tc : Thread Cert.KernelIdeal.nD Cert.KernelIdeal.τ).loc Cert.KernelIdeal.main_arg1)) := (Cert.KernelIdeal.Gen.W4_of_ne (F := Ideal) m ρ c Cert.KernelIdeal.main_arg1 (by decide)).trans (K3a1 m ρ c m' hA)
theorem K5a1 : (Cert.KernelIdeal.Gen.W5 (F := Ideal) m ρ c) (Proc.devRef (τ := Cert.KernelIdeal.τ) .tc Cert.KernelIdeal.main_arg1) = (m ((c.tc : Thread Cert.KernelIdeal.nD Cert.KernelIdeal.τ).loc Cert.KernelIdeal.main_arg1)) := (keepK1 (Cert.KernelIdeal.Gen.W4 (F := Ideal) m ρ c) Cert.KernelIdeal.main_arg1 (by decide)).trans (K4a1 m ρ c m' hA)
theorem K6a1 : (Cert.KernelIdeal.Gen.W6 (F := Ideal) m ρ c) (Proc.devRef (τ := Cert.KernelIdeal.τ) .tc Cert.KernelIdeal.main_arg1) = (m ((c.tc : Thread Cert.KernelIdeal.nD Cert.KernelIdeal.τ).loc Cert.KernelIdeal.main_arg1)) := (Cert.KernelIdeal.Gen.W6_of_ne (F := Ideal) m ρ c Cert.KernelIdeal.main_arg1 (by decide)).trans (K5a1 m ρ c m' hA)
theorem K7a1 : (Cert.KernelIdeal.Gen.W7 (F := Ideal) m ρ c) (Proc.devRef (τ := Cert.KernelIdeal.τ) .tc Cert.KernelIdeal.main_arg1) = (m ((c.tc : Thread Cert.KernelIdeal.nD Cert.KernelIdeal.τ).loc Cert.KernelIdeal.main_arg1)) := (keepK2 (Cert.KernelIdeal.Gen.W6 (F := Ideal) m ρ c) Cert.KernelIdeal.main_arg1 (by decide)).trans (K6a1 m ρ c m' hA)
theorem K8a1 : (Cert.KernelIdeal.Gen.W8 (F := Ideal) m ρ c) (Proc.devRef (τ := Cert.KernelIdeal.τ) .tc Cert.KernelIdeal.main_arg1) = (m ((c.tc : Thread Cert.KernelIdeal.nD Cert.KernelIdeal.τ).loc Cert.KernelIdeal.main_arg1)) := (Cert.KernelIdeal.Gen.W8_of_ne (F := Ideal) m ρ c Cert.KernelIdeal.main_arg1 (by decide)).trans (K7a1 m ρ c m' hA)
theorem R3a1 : (RA c m') (Proc.devRef (τ := Cert.ReferenceIdeal.τ) .tc Cert.ReferenceIdeal.main_arg1) = (m' ((c.tc : Thread Cert.ReferenceIdeal.nD Cert.ReferenceIdeal.τ).loc Cert.ReferenceIdeal.main_arg1)) := (keepRA (launchContents m' c) Cert.ReferenceIdeal.main_arg1 (by decide)).trans rfl
theorem R4a1 : (RD0 c m') (Proc.devRef (τ := Cert.ReferenceIdeal.τ) .tc Cert.ReferenceIdeal.main_arg1) = (m' ((c.tc : Thread Cert.ReferenceIdeal.nD Cert.ReferenceIdeal.τ).loc Cert.ReferenceIdeal.main_arg1)) := (keepRD0 (RA c m') Cert.ReferenceIdeal.main_arg1 (by decide)).trans (R3a1 m ρ c m' hA)
theorem R5a1 : (RB1 c m') (Proc.devRef (τ := Cert.ReferenceIdeal.τ) .tc Cert.ReferenceIdeal.main_arg1) = (m' ((c.tc : Thread Cert.ReferenceIdeal.nD Cert.ReferenceIdeal.τ).loc Cert.ReferenceIdeal.main_arg1)) := (keepRB1 (RD0 c m') Cert.ReferenceIdeal.main_arg1 (by decide)).trans (R4a1 m ρ c m' hA)
theorem R6a1 : (RD1 c m') (Proc.devRef (τ := Cert.ReferenceIdeal.τ) .tc Cert.ReferenceIdeal.main_arg1) = (m' ((c.tc : Thread Cert.ReferenceIdeal.nD Cert.ReferenceIdeal.τ).loc Cert.ReferenceIdeal.main_arg1)) := (keepRD1 (RB1 c m') Cert.ReferenceIdeal.main_arg1 (by decide)).trans (R5a1 m ρ c m' hA)
theorem R7a1 : (RB2 c m') (Proc.devRef (τ := Cert.ReferenceIdeal.τ) .tc Cert.ReferenceIdeal.main_arg1) = (m' ((c.tc : Thread Cert.ReferenceIdeal.nD Cert.ReferenceIdeal.τ).loc Cert.ReferenceIdeal.main_arg1)) := (keepRB2 (RD1 c m') Cert.ReferenceIdeal.main_arg1 (by decide)).trans (R6a1 m ρ c m' hA)
theorem R8a1 : (RD2 c m') (Proc.devRef (τ := Cert.ReferenceIdeal.τ) .tc Cert.ReferenceIdeal.main_arg1) = (m' ((c.tc : Thread Cert.ReferenceIdeal.nD Cert.ReferenceIdeal.τ).loc Cert.ReferenceIdeal.main_arg1)) := (keepRD2 (RB2 c m') Cert.ReferenceIdeal.main_arg1 (by decide)).trans (R7a1 m ρ c m' hA)
theorem K3a2 : (Cert.KernelIdeal.Gen.W3 (F := Ideal) m ρ c) (Proc.devRef (τ := Cert.KernelIdeal.τ) .tc Cert.KernelIdeal.main_arg2) = (m ((c.tc : Thread Cert.KernelIdeal.nD Cert.KernelIdeal.τ).loc Cert.KernelIdeal.main_arg2)) :=
  (keepK0_2 (Cert.KernelIdeal.Gen.W2 (F := Ideal) m ρ c) Cert.KernelIdeal.main_arg2 (by decide)).trans ((keepK0_1 (Cert.KernelIdeal.Gen.W1 (F := Ideal) m ρ c) Cert.KernelIdeal.main_arg2 (by decide)).trans
    ((keepK0 (Cert.KernelIdeal.Gen.W0 (F := Ideal) m ρ c) Cert.KernelIdeal.main_arg2 (by decide)).trans rfl))
theorem R3a2 : (RA c m') (Proc.devRef (τ := Cert.ReferenceIdeal.τ) .tc Cert.ReferenceIdeal.main_arg2) = (m' ((c.tc : Thread Cert.ReferenceIdeal.nD Cert.ReferenceIdeal.τ).loc Cert.ReferenceIdeal.main_arg2)) := (keepRA (launchContents m' c) Cert.ReferenceIdeal.main_arg2 (by decide)).trans rfl
theorem K3a3 : (Cert.KernelIdeal.Gen.W3 (F := Ideal) m ρ c) (Proc.devRef (τ := Cert.KernelIdeal.τ) .tc Cert.KernelIdeal.main_arg3) = (m ((c.tc : Thread Cert.KernelIdeal.nD Cert.KernelIdeal.τ).loc Cert.KernelIdeal.main_arg3)) :=
  (keepK0_2 (Cert.KernelIdeal.Gen.W2 (F := Ideal) m ρ c) Cert.KernelIdeal.main_arg3 (by decide)).trans ((keepK0_1 (Cert.KernelIdeal.Gen.W1 (F := Ideal) m ρ c) Cert.KernelIdeal.main_arg3 (by decide)).trans
    ((keepK0 (Cert.KernelIdeal.Gen.W0 (F := Ideal) m ρ c) Cert.KernelIdeal.main_arg3 (by decide)).trans rfl))
theorem K4a3 : (Cert.KernelIdeal.Gen.W4 (F := Ideal) m ρ c) (Proc.devRef (τ := Cert.KernelIdeal.τ) .tc Cert.KernelIdeal.main_arg3) = (m ((c.tc : Thread Cert.KernelIdeal.nD Cert.KernelIdeal.τ).loc Cert.KernelIdeal.main_arg3)) := (Cert.KernelIdeal.Gen.W4_of_ne (F := Ideal) m ρ c Cert.KernelIdeal.main_arg3 (by decide)).trans (K3a3 m ρ c m' hA)
theorem R3a3 : (RA c m') (Proc.devRef (τ := Cert.ReferenceIdeal.τ) .tc Cert.ReferenceIdeal.main_arg3) = (m' ((c.tc : Thread Cert.ReferenceIdeal.nD Cert.ReferenceIdeal.τ).loc Cert.ReferenceIdeal.main_arg3)) := (keepRA (launchContents m' c) Cert.ReferenceIdeal.main_arg3 (by decide)).trans rfl
theorem R4a3 : (RD0 c m') (Proc.devRef (τ := Cert.ReferenceIdeal.τ) .tc Cert.ReferenceIdeal.main_arg3) = (m' ((c.tc : Thread Cert.ReferenceIdeal.nD Cert.ReferenceIdeal.τ).loc Cert.ReferenceIdeal.main_arg3)) := (keepRD0 (RA c m') Cert.ReferenceIdeal.main_arg3 (by decide)).trans (R3a3 m ρ c m' hA)
theorem R5a3 : (RB1 c m') (Proc.devRef (τ := Cert.ReferenceIdeal.τ) .tc Cert.ReferenceIdeal.main_arg3) = (m' ((c.tc : Thread Cert.ReferenceIdeal.nD Cert.ReferenceIdeal.τ).loc Cert.ReferenceIdeal.main_arg3)) := (keepRB1 (RD0 c m') Cert.ReferenceIdeal.main_arg3 (by decide)).trans (R4a3 m ρ c m' hA)
theorem K3a4 : (Cert.KernelIdeal.Gen.W3 (F := Ideal) m ρ c) (Proc.devRef (τ := Cert.KernelIdeal.τ) .tc Cert.KernelIdeal.main_arg4) = (m ((c.tc : Thread Cert.KernelIdeal.nD Cert.KernelIdeal.τ).loc Cert.KernelIdeal.main_arg4)) :=
  (keepK0_2 (Cert.KernelIdeal.Gen.W2 (F := Ideal) m ρ c) Cert.KernelIdeal.main_arg4 (by decide)).trans ((keepK0_1 (Cert.KernelIdeal.Gen.W1 (F := Ideal) m ρ c) Cert.KernelIdeal.main_arg4 (by decide)).trans
    ((keepK0 (Cert.KernelIdeal.Gen.W0 (F := Ideal) m ρ c) Cert.KernelIdeal.main_arg4 (by decide)).trans rfl))
theorem K4a4 : (Cert.KernelIdeal.Gen.W4 (F := Ideal) m ρ c) (Proc.devRef (τ := Cert.KernelIdeal.τ) .tc Cert.KernelIdeal.main_arg4) = (m ((c.tc : Thread Cert.KernelIdeal.nD Cert.KernelIdeal.τ).loc Cert.KernelIdeal.main_arg4)) := (Cert.KernelIdeal.Gen.W4_of_ne (F := Ideal) m ρ c Cert.KernelIdeal.main_arg4 (by decide)).trans (K3a4 m ρ c m' hA)
theorem K5a4 : (Cert.KernelIdeal.Gen.W5 (F := Ideal) m ρ c) (Proc.devRef (τ := Cert.KernelIdeal.τ) .tc Cert.KernelIdeal.main_arg4) = (m ((c.tc : Thread Cert.KernelIdeal.nD Cert.KernelIdeal.τ).loc Cert.KernelIdeal.main_arg4)) := (keepK1 (Cert.KernelIdeal.Gen.W4 (F := Ideal) m ρ c) Cert.KernelIdeal.main_arg4 (by decide)).trans (K4a4 m ρ c m' hA)
theorem R3a4 : (RA c m') (Proc.devRef (τ := Cert.ReferenceIdeal.τ) .tc Cert.ReferenceIdeal.main_arg4) = (m' ((c.tc : Thread Cert.ReferenceIdeal.nD Cert.ReferenceIdeal.τ).loc Cert.ReferenceIdeal.main_arg4)) := (keepRA (launchContents m' c) Cert.ReferenceIdeal.main_arg4 (by decide)).trans rfl
theorem R4a4 : (RD0 c m') (Proc.devRef (τ := Cert.ReferenceIdeal.τ) .tc Cert.ReferenceIdeal.main_arg4) = (m' ((c.tc : Thread Cert.ReferenceIdeal.nD Cert.ReferenceIdeal.τ).loc Cert.ReferenceIdeal.main_arg4)) := (keepRD0 (RA c m') Cert.ReferenceIdeal.main_arg4 (by decide)).trans (R3a4 m ρ c m' hA)
theorem R5a4 : (RB1 c m') (Proc.devRef (τ := Cert.ReferenceIdeal.τ) .tc Cert.ReferenceIdeal.main_arg4) = (m' ((c.tc : Thread Cert.ReferenceIdeal.nD Cert.ReferenceIdeal.τ).loc Cert.ReferenceIdeal.main_arg4)) := (keepRB1 (RD0 c m') Cert.ReferenceIdeal.main_arg4 (by decide)).trans (R4a4 m ρ c m' hA)
theorem K3a5 : (Cert.KernelIdeal.Gen.W3 (F := Ideal) m ρ c) (Proc.devRef (τ := Cert.KernelIdeal.τ) .tc Cert.KernelIdeal.main_arg5) = (m ((c.tc : Thread Cert.KernelIdeal.nD Cert.KernelIdeal.τ).loc Cert.KernelIdeal.main_arg5)) :=
  (keepK0_2 (Cert.KernelIdeal.Gen.W2 (F := Ideal) m ρ c) Cert.KernelIdeal.main_arg5 (by decide)).trans ((keepK0_1 (Cert.KernelIdeal.Gen.W1 (F := Ideal) m ρ c) Cert.KernelIdeal.main_arg5 (by decide)).trans
    ((keepK0 (Cert.KernelIdeal.Gen.W0 (F := Ideal) m ρ c) Cert.KernelIdeal.main_arg5 (by decide)).trans rfl))
theorem K4a5 : (Cert.KernelIdeal.Gen.W4 (F := Ideal) m ρ c) (Proc.devRef (τ := Cert.KernelIdeal.τ) .tc Cert.KernelIdeal.main_arg5) = (m ((c.tc : Thread Cert.KernelIdeal.nD Cert.KernelIdeal.τ).loc Cert.KernelIdeal.main_arg5)) := (Cert.KernelIdeal.Gen.W4_of_ne (F := Ideal) m ρ c Cert.KernelIdeal.main_arg5 (by decide)).trans (K3a5 m ρ c m' hA)
theorem K5a5 : (Cert.KernelIdeal.Gen.W5 (F := Ideal) m ρ c) (Proc.devRef (τ := Cert.KernelIdeal.τ) .tc Cert.KernelIdeal.main_arg5) = (m ((c.tc : Thread Cert.KernelIdeal.nD Cert.KernelIdeal.τ).loc Cert.KernelIdeal.main_arg5)) := (keepK1 (Cert.KernelIdeal.Gen.W4 (F := Ideal) m ρ c) Cert.KernelIdeal.main_arg5 (by decide)).trans (K4a5 m ρ c m' hA)
theorem K6a5 : (Cert.KernelIdeal.Gen.W6 (F := Ideal) m ρ c) (Proc.devRef (τ := Cert.KernelIdeal.τ) .tc Cert.KernelIdeal.main_arg5) = (m ((c.tc : Thread Cert.KernelIdeal.nD Cert.KernelIdeal.τ).loc Cert.KernelIdeal.main_arg5)) := (Cert.KernelIdeal.Gen.W6_of_ne (F := Ideal) m ρ c Cert.KernelIdeal.main_arg5 (by decide)).trans (K5a5 m ρ c m' hA)
theorem R3a5 : (RA c m') (Proc.devRef (τ := Cert.ReferenceIdeal.τ) .tc Cert.ReferenceIdeal.main_arg5) = (m' ((c.tc : Thread Cert.ReferenceIdeal.nD Cert.ReferenceIdeal.τ).loc Cert.ReferenceIdeal.main_arg5)) := (keepRA (launchContents m' c) Cert.ReferenceIdeal.main_arg5 (by decide)).trans rfl
theorem R4a5 : (RD0 c m') (Proc.devRef (τ := Cert.ReferenceIdeal.τ) .tc Cert.ReferenceIdeal.main_arg5) = (m' ((c.tc : Thread Cert.ReferenceIdeal.nD Cert.ReferenceIdeal.τ).loc Cert.ReferenceIdeal.main_arg5)) := (keepRD0 (RA c m') Cert.ReferenceIdeal.main_arg5 (by decide)).trans (R3a5 m ρ c m' hA)
theorem R5a5 : (RB1 c m') (Proc.devRef (τ := Cert.ReferenceIdeal.τ) .tc Cert.ReferenceIdeal.main_arg5) = (m' ((c.tc : Thread Cert.ReferenceIdeal.nD Cert.ReferenceIdeal.τ).loc Cert.ReferenceIdeal.main_arg5)) := (keepRB1 (RD0 c m') Cert.ReferenceIdeal.main_arg5 (by decide)).trans (R4a5 m ρ c m' hA)
theorem R6a5 : (RD1 c m') (Proc.devRef (τ := Cert.ReferenceIdeal.τ) .tc Cert.ReferenceIdeal.main_arg5) = (m' ((c.tc : Thread Cert.ReferenceIdeal.nD Cert.ReferenceIdeal.τ).loc Cert.ReferenceIdeal.main_arg5)) := (keepRD1 (RB1 c m') Cert.ReferenceIdeal.main_arg5 (by decide)).trans (R5a5 m ρ c m' hA)
theorem R7a5 : (RB2 c m') (Proc.devRef (τ := Cert.ReferenceIdeal.τ) .tc Cert.ReferenceIdeal.main_arg5) = (m' ((c.tc : Thread Cert.ReferenceIdeal.nD Cert.ReferenceIdeal.τ).loc Cert.ReferenceIdeal.main_arg5)) := (keepRB2 (RD1 c m') Cert.ReferenceIdeal.main_arg5 (by decide)).trans (R6a5 m ρ c m' hA)
theorem K3a6 : (Cert.KernelIdeal.Gen.W3 (F := Ideal) m ρ c) (Proc.devRef (τ := Cert.KernelIdeal.τ) .tc Cert.KernelIdeal.main_arg6) = (m ((c.tc : Thread Cert.KernelIdeal.nD Cert.KernelIdeal.τ).loc Cert.KernelIdeal.main_arg6)) :=
  (keepK0_2 (Cert.KernelIdeal.Gen.W2 (F := Ideal) m ρ c) Cert.KernelIdeal.main_arg6 (by decide)).trans ((keepK0_1 (Cert.KernelIdeal.Gen.W1 (F := Ideal) m ρ c) Cert.KernelIdeal.main_arg6 (by decide)).trans
    ((keepK0 (Cert.KernelIdeal.Gen.W0 (F := Ideal) m ρ c) Cert.KernelIdeal.main_arg6 (by decide)).trans rfl))
theorem K4a6 : (Cert.KernelIdeal.Gen.W4 (F := Ideal) m ρ c) (Proc.devRef (τ := Cert.KernelIdeal.τ) .tc Cert.KernelIdeal.main_arg6) = (m ((c.tc : Thread Cert.KernelIdeal.nD Cert.KernelIdeal.τ).loc Cert.KernelIdeal.main_arg6)) := (Cert.KernelIdeal.Gen.W4_of_ne (F := Ideal) m ρ c Cert.KernelIdeal.main_arg6 (by decide)).trans (K3a6 m ρ c m' hA)
theorem K5a6 : (Cert.KernelIdeal.Gen.W5 (F := Ideal) m ρ c) (Proc.devRef (τ := Cert.KernelIdeal.τ) .tc Cert.KernelIdeal.main_arg6) = (m ((c.tc : Thread Cert.KernelIdeal.nD Cert.KernelIdeal.τ).loc Cert.KernelIdeal.main_arg6)) := (keepK1 (Cert.KernelIdeal.Gen.W4 (F := Ideal) m ρ c) Cert.KernelIdeal.main_arg6 (by decide)).trans (K4a6 m ρ c m' hA)
theorem K6a6 : (Cert.KernelIdeal.Gen.W6 (F := Ideal) m ρ c) (Proc.devRef (τ := Cert.KernelIdeal.τ) .tc Cert.KernelIdeal.main_arg6) = (m ((c.tc : Thread Cert.KernelIdeal.nD Cert.KernelIdeal.τ).loc Cert.KernelIdeal.main_arg6)) := (Cert.KernelIdeal.Gen.W6_of_ne (F := Ideal) m ρ c Cert.KernelIdeal.main_arg6 (by decide)).trans (K5a6 m ρ c m' hA)
theorem K7a6 : (Cert.KernelIdeal.Gen.W7 (F := Ideal) m ρ c) (Proc.devRef (τ := Cert.KernelIdeal.τ) .tc Cert.KernelIdeal.main_arg6) = (m ((c.tc : Thread Cert.KernelIdeal.nD Cert.KernelIdeal.τ).loc Cert.KernelIdeal.main_arg6)) := (keepK2 (Cert.KernelIdeal.Gen.W6 (F := Ideal) m ρ c) Cert.KernelIdeal.main_arg6 (by decide)).trans (K6a6 m ρ c m' hA)
theorem K8a6 : (Cert.KernelIdeal.Gen.W8 (F := Ideal) m ρ c) (Proc.devRef (τ := Cert.KernelIdeal.τ) .tc Cert.KernelIdeal.main_arg6) = (m ((c.tc : Thread Cert.KernelIdeal.nD Cert.KernelIdeal.τ).loc Cert.KernelIdeal.main_arg6)) := (Cert.KernelIdeal.Gen.W8_of_ne (F := Ideal) m ρ c Cert.KernelIdeal.main_arg6 (by decide)).trans (K7a6 m ρ c m' hA)
theorem R3a6 : (RA c m') (Proc.devRef (τ := Cert.ReferenceIdeal.τ) .tc Cert.ReferenceIdeal.main_arg6) = (m' ((c.tc : Thread Cert.ReferenceIdeal.nD Cert.ReferenceIdeal.τ).loc Cert.ReferenceIdeal.main_arg6)) := (keepRA (launchContents m' c) Cert.ReferenceIdeal.main_arg6 (by decide)).trans rfl
theorem R4a6 : (RD0 c m') (Proc.devRef (τ := Cert.ReferenceIdeal.τ) .tc Cert.ReferenceIdeal.main_arg6) = (m' ((c.tc : Thread Cert.ReferenceIdeal.nD Cert.ReferenceIdeal.τ).loc Cert.ReferenceIdeal.main_arg6)) := (keepRD0 (RA c m') Cert.ReferenceIdeal.main_arg6 (by decide)).trans (R3a6 m ρ c m' hA)
theorem R5a6 : (RB1 c m') (Proc.devRef (τ := Cert.ReferenceIdeal.τ) .tc Cert.ReferenceIdeal.main_arg6) = (m' ((c.tc : Thread Cert.ReferenceIdeal.nD Cert.ReferenceIdeal.τ).loc Cert.ReferenceIdeal.main_arg6)) := (keepRB1 (RD0 c m') Cert.ReferenceIdeal.main_arg6 (by decide)).trans (R4a6 m ρ c m' hA)
theorem R6a6 : (RD1 c m') (Proc.devRef (τ := Cert.ReferenceIdeal.τ) .tc Cert.ReferenceIdeal.main_arg6) = (m' ((c.tc : Thread Cert.ReferenceIdeal.nD Cert.ReferenceIdeal.τ).loc Cert.ReferenceIdeal.main_arg6)) := (keepRD1 (RB1 c m') Cert.ReferenceIdeal.main_arg6 (by decide)).trans (R5a6 m ρ c m' hA)
theorem R7a6 : (RB2 c m') (Proc.devRef (τ := Cert.ReferenceIdeal.τ) .tc Cert.ReferenceIdeal.main_arg6) = (m' ((c.tc : Thread Cert.ReferenceIdeal.nD Cert.ReferenceIdeal.τ).loc Cert.ReferenceIdeal.main_arg6)) := (keepRB2 (RD1 c m') Cert.ReferenceIdeal.main_arg6 (by decide)).trans (R6a6 m ρ c m' hA)
theorem R8a6 : (RD2 c m') (Proc.devRef (τ := Cert.ReferenceIdeal.τ) .tc Cert.ReferenceIdeal.main_arg6) = (m' ((c.tc : Thread Cert.ReferenceIdeal.nD Cert.ReferenceIdeal.τ).loc Cert.ReferenceIdeal.main_arg6)) := (keepRD2 (RB2 c m') Cert.ReferenceIdeal.main_arg6 (by decide)).trans (R7a6 m ρ c m' hA)
theorem K3a7 : (Cert.KernelIdeal.Gen.W3 (F := Ideal) m ρ c) (Proc.devRef (τ := Cert.KernelIdeal.τ) .tc Cert.KernelIdeal.main_arg7) = (m ((c.tc : Thread Cert.KernelIdeal.nD Cert.KernelIdeal.τ).loc Cert.KernelIdeal.main_arg7)) :=
  (keepK0_2 (Cert.KernelIdeal.Gen.W2 (F := Ideal) m ρ c) Cert.KernelIdeal.main_arg7 (by decide)).trans ((keepK0_1 (Cert.KernelIdeal.Gen.W1 (F := Ideal) m ρ c) Cert.KernelIdeal.main_arg7 (by decide)).trans
    ((keepK0 (Cert.KernelIdeal.Gen.W0 (F := Ideal) m ρ c) Cert.KernelIdeal.main_arg7 (by decide)).trans rfl))
theorem K4a7 : (Cert.KernelIdeal.Gen.W4 (F := Ideal) m ρ c) (Proc.devRef (τ := Cert.KernelIdeal.τ) .tc Cert.KernelIdeal.main_arg7) = (m ((c.tc : Thread Cert.KernelIdeal.nD Cert.KernelIdeal.τ).loc Cert.KernelIdeal.main_arg7)) := (Cert.KernelIdeal.Gen.W4_of_ne (F := Ideal) m ρ c Cert.KernelIdeal.main_arg7 (by decide)).trans (K3a7 m ρ c m' hA)
theorem K5a7 : (Cert.KernelIdeal.Gen.W5 (F := Ideal) m ρ c) (Proc.devRef (τ := Cert.KernelIdeal.τ) .tc Cert.KernelIdeal.main_arg7) = (m ((c.tc : Thread Cert.KernelIdeal.nD Cert.KernelIdeal.τ).loc Cert.KernelIdeal.main_arg7)) := (keepK1 (Cert.KernelIdeal.Gen.W4 (F := Ideal) m ρ c) Cert.KernelIdeal.main_arg7 (by decide)).trans (K4a7 m ρ c m' hA)
theorem K6a7 : (Cert.KernelIdeal.Gen.W6 (F := Ideal) m ρ c) (Proc.devRef (τ := Cert.KernelIdeal.τ) .tc Cert.KernelIdeal.main_arg7) = (m ((c.tc : Thread Cert.KernelIdeal.nD Cert.KernelIdeal.τ).loc Cert.KernelIdeal.main_arg7)) := (Cert.KernelIdeal.Gen.W6_of_ne (F := Ideal) m ρ c Cert.KernelIdeal.main_arg7 (by decide)).trans (K5a7 m ρ c m' hA)
theorem K7a7 : (Cert.KernelIdeal.Gen.W7 (F := Ideal) m ρ c) (Proc.devRef (τ := Cert.KernelIdeal.τ) .tc Cert.KernelIdeal.main_arg7) = (m ((c.tc : Thread Cert.KernelIdeal.nD Cert.KernelIdeal.τ).loc Cert.KernelIdeal.main_arg7)) := (keepK2 (Cert.KernelIdeal.Gen.W6 (F := Ideal) m ρ c) Cert.KernelIdeal.main_arg7 (by decide)).trans (K6a7 m ρ c m' hA)
theorem K8a7 : (Cert.KernelIdeal.Gen.W8 (F := Ideal) m ρ c) (Proc.devRef (τ := Cert.KernelIdeal.τ) .tc Cert.KernelIdeal.main_arg7) = (m ((c.tc : Thread Cert.KernelIdeal.nD Cert.KernelIdeal.τ).loc Cert.KernelIdeal.main_arg7)) := (Cert.KernelIdeal.Gen.W8_of_ne (F := Ideal) m ρ c Cert.KernelIdeal.main_arg7 (by decide)).trans (K7a7 m ρ c m' hA)
theorem R3a7 : (RA c m') (Proc.devRef (τ := Cert.ReferenceIdeal.τ) .tc Cert.ReferenceIdeal.main_arg7) = (m' ((c.tc : Thread Cert.ReferenceIdeal.nD Cert.ReferenceIdeal.τ).loc Cert.ReferenceIdeal.main_arg7)) := (keepRA (launchContents m' c) Cert.ReferenceIdeal.main_arg7 (by decide)).trans rfl
theorem R4a7 : (RD0 c m') (Proc.devRef (τ := Cert.ReferenceIdeal.τ) .tc Cert.ReferenceIdeal.main_arg7) = (m' ((c.tc : Thread Cert.ReferenceIdeal.nD Cert.ReferenceIdeal.τ).loc Cert.ReferenceIdeal.main_arg7)) := (keepRD0 (RA c m') Cert.ReferenceIdeal.main_arg7 (by decide)).trans (R3a7 m ρ c m' hA)
theorem R5a7 : (RB1 c m') (Proc.devRef (τ := Cert.ReferenceIdeal.τ) .tc Cert.ReferenceIdeal.main_arg7) = (m' ((c.tc : Thread Cert.ReferenceIdeal.nD Cert.ReferenceIdeal.τ).loc Cert.ReferenceIdeal.main_arg7)) := (keepRB1 (RD0 c m') Cert.ReferenceIdeal.main_arg7 (by decide)).trans (R4a7 m ρ c m' hA)
theorem R6a7 : (RD1 c m') (Proc.devRef (τ := Cert.ReferenceIdeal.τ) .tc Cert.ReferenceIdeal.main_arg7) = (m' ((c.tc : Thread Cert.ReferenceIdeal.nD Cert.ReferenceIdeal.τ).loc Cert.ReferenceIdeal.main_arg7)) := (keepRD1 (RB1 c m') Cert.ReferenceIdeal.main_arg7 (by decide)).trans (R5a7 m ρ c m' hA)
theorem R7a7 : (RB2 c m') (Proc.devRef (τ := Cert.ReferenceIdeal.τ) .tc Cert.ReferenceIdeal.main_arg7) = (m' ((c.tc : Thread Cert.ReferenceIdeal.nD Cert.ReferenceIdeal.τ).loc Cert.ReferenceIdeal.main_arg7)) := (keepRB2 (RD1 c m') Cert.ReferenceIdeal.main_arg7 (by decide)).trans (R6a7 m ρ c m' hA)
theorem R8a7 : (RD2 c m') (Proc.devRef (τ := Cert.ReferenceIdeal.τ) .tc Cert.ReferenceIdeal.main_arg7) = (m' ((c.tc : Thread Cert.ReferenceIdeal.nD Cert.ReferenceIdeal.τ).loc Cert.ReferenceIdeal.main_arg7)) := (keepRD2 (RB2 c m') Cert.ReferenceIdeal.main_arg7 (by decide)).trans (R7a7 m ρ c m' hA)
theorem K3a8 : (Cert.KernelIdeal.Gen.W3 (F := Ideal) m ρ c) (Proc.devRef (τ := Cert.KernelIdeal.τ) .tc Cert.KernelIdeal.main_arg8) = (m ((c.tc : Thread Cert.KernelIdeal.nD Cert.KernelIdeal.τ).loc Cert.KernelIdeal.main_arg8)) :=
  (keepK0_2 (Cert.KernelIdeal.Gen.W2 (F := Ideal) m ρ c) Cert.KernelIdeal.main_arg8 (by decide)).trans ((keepK0_1 (Cert.KernelIdeal.Gen.W1 (F := Ideal) m ρ c) Cert.KernelIdeal.main_arg8 (by decide)).trans
    ((keepK0 (Cert.KernelIdeal.Gen.W0 (F := Ideal) m ρ c) Cert.KernelIdeal.main_arg8 (by decide)).trans rfl))
theorem K4a8 : (Cert.KernelIdeal.Gen.W4 (F := Ideal) m ρ c) (Proc.devRef (τ := Cert.KernelIdeal.τ) .tc Cert.KernelIdeal.main_arg8) = (m ((c.tc : Thread Cert.KernelIdeal.nD Cert.KernelIdeal.τ).loc Cert.KernelIdeal.main_arg8)) := (Cert.KernelIdeal.Gen.W4_of_ne (F := Ideal) m ρ c Cert.KernelIdeal.main_arg8 (by decide)).trans (K3a8 m ρ c m' hA)
theorem K5a8 : (Cert.KernelIdeal.Gen.W5 (F := Ideal) m ρ c) (Proc.devRef (τ := Cert.KernelIdeal.τ) .tc Cert.KernelIdeal.main_arg8) = (m ((c.tc : Thread Cert.KernelIdeal.nD Cert.KernelIdeal.τ).loc Cert.KernelIdeal.main_arg8)) := (keepK1 (Cert.KernelIdeal.Gen.W4 (F := Ideal) m ρ c) Cert.KernelIdeal.main_arg8 (by decide)).trans (K4a8 m ρ c m' hA)
theorem K6a8 : (Cert.KernelIdeal.Gen.W6 (F := Ideal) m ρ c) (Proc.devRef (τ := Cert.KernelIdeal.τ) .tc Cert.KernelIdeal.main_arg8) = (m ((c.tc : Thread Cert.KernelIdeal.nD Cert.KernelIdeal.τ).loc Cert.KernelIdeal.main_arg8)) := (Cert.KernelIdeal.Gen.W6_of_ne (F := Ideal) m ρ c Cert.KernelIdeal.main_arg8 (by decide)).trans (K5a8 m ρ c m' hA)
theorem K7a8 : (Cert.KernelIdeal.Gen.W7 (F := Ideal) m ρ c) (Proc.devRef (τ := Cert.KernelIdeal.τ) .tc Cert.KernelIdeal.main_arg8) = (m ((c.tc : Thread Cert.KernelIdeal.nD Cert.KernelIdeal.τ).loc Cert.KernelIdeal.main_arg8)) := (keepK2 (Cert.KernelIdeal.Gen.W6 (F := Ideal) m ρ c) Cert.KernelIdeal.main_arg8 (by decide)).trans (K6a8 m ρ c m' hA)
theorem K8a8 : (Cert.KernelIdeal.Gen.W8 (F := Ideal) m ρ c) (Proc.devRef (τ := Cert.KernelIdeal.τ) .tc Cert.KernelIdeal.main_arg8) = (m ((c.tc : Thread Cert.KernelIdeal.nD Cert.KernelIdeal.τ).loc Cert.KernelIdeal.main_arg8)) := (Cert.KernelIdeal.Gen.W8_of_ne (F := Ideal) m ρ c Cert.KernelIdeal.main_arg8 (by decide)).trans (K7a8 m ρ c m' hA)
theorem R3a8 : (RA c m') (Proc.devRef (τ := Cert.ReferenceIdeal.τ) .tc Cert.ReferenceIdeal.main_arg8) = (m' ((c.tc : Thread Cert.ReferenceIdeal.nD Cert.ReferenceIdeal.τ).loc Cert.ReferenceIdeal.main_arg8)) := (keepRA (launchContents m' c) Cert.ReferenceIdeal.main_arg8 (by decide)).trans rfl
theorem R4a8 : (RD0 c m') (Proc.devRef (τ := Cert.ReferenceIdeal.τ) .tc Cert.ReferenceIdeal.main_arg8) = (m' ((c.tc : Thread Cert.ReferenceIdeal.nD Cert.ReferenceIdeal.τ).loc Cert.ReferenceIdeal.main_arg8)) := (keepRD0 (RA c m') Cert.ReferenceIdeal.main_arg8 (by decide)).trans (R3a8 m ρ c m' hA)
theorem R5a8 : (RB1 c m') (Proc.devRef (τ := Cert.ReferenceIdeal.τ) .tc Cert.ReferenceIdeal.main_arg8) = (m' ((c.tc : Thread Cert.ReferenceIdeal.nD Cert.ReferenceIdeal.τ).loc Cert.ReferenceIdeal.main_arg8)) := (keepRB1 (RD0 c m') Cert.ReferenceIdeal.main_arg8 (by decide)).trans (R4a8 m ρ c m' hA)
theorem R6a8 : (RD1 c m') (Proc.devRef (τ := Cert.ReferenceIdeal.τ) .tc Cert.ReferenceIdeal.main_arg8) = (m' ((c.tc : Thread Cert.ReferenceIdeal.nD Cert.ReferenceIdeal.τ).loc Cert.ReferenceIdeal.main_arg8)) := (keepRD1 (RB1 c m') Cert.ReferenceIdeal.main_arg8 (by decide)).trans (R5a8 m ρ c m' hA)
theorem R7a8 : (RB2 c m') (Proc.devRef (τ := Cert.ReferenceIdeal.τ) .tc Cert.ReferenceIdeal.main_arg8) = (m' ((c.tc : Thread Cert.ReferenceIdeal.nD Cert.ReferenceIdeal.τ).loc Cert.ReferenceIdeal.main_arg8)) := (keepRB2 (RD1 c m') Cert.ReferenceIdeal.main_arg8 (by decide)).trans (R6a8 m ρ c m' hA)
theorem R8a8 : (RD2 c m') (Proc.devRef (τ := Cert.ReferenceIdeal.τ) .tc Cert.ReferenceIdeal.main_arg8) = (m' ((c.tc : Thread Cert.ReferenceIdeal.nD Cert.ReferenceIdeal.τ).loc Cert.ReferenceIdeal.main_arg8)) := (keepRD2 (RB2 c m') Cert.ReferenceIdeal.main_arg8 (by decide)).trans (R7a8 m ρ c m' hA)
theorem K3a9 : (Cert.KernelIdeal.Gen.W3 (F := Ideal) m ρ c) (Proc.devRef (τ := Cert.KernelIdeal.τ) .tc Cert.KernelIdeal.main_arg9) = (m ((c.tc : Thread Cert.KernelIdeal.nD Cert.KernelIdeal.τ).loc Cert.KernelIdeal.main_arg9)) :=
  (keepK0_2 (Cert.KernelIdeal.Gen.W2 (F := Ideal) m ρ c) Cert.KernelIdeal.main_arg9 (by decide)).trans ((keepK0_1 (Cert.KernelIdeal.Gen.W1 (F := Ideal) m ρ c) Cert.KernelIdeal.main_arg9 (by decide)).trans
    ((keepK0 (Cert.KernelIdeal.Gen.W0 (F := Ideal) m ρ c) Cert.KernelIdeal.main_arg9 (by decide)).trans rfl))
theorem K4a9 : (Cert.KernelIdeal.Gen.W4 (F := Ideal) m ρ c) (Proc.devRef (τ := Cert.KernelIdeal.τ) .tc Cert.KernelIdeal.main_arg9) = (m ((c.tc : Thread Cert.KernelIdeal.nD Cert.KernelIdeal.τ).loc Cert.KernelIdeal.main_arg9)) := (Cert.KernelIdeal.Gen.W4_of_ne (F := Ideal) m ρ c Cert.KernelIdeal.main_arg9 (by decide)).trans (K3a9 m ρ c m' hA)
theorem K5a9 : (Cert.KernelIdeal.Gen.W5 (F := Ideal) m ρ c) (Proc.devRef (τ := Cert.KernelIdeal.τ) .tc Cert.KernelIdeal.main_arg9) = (m ((c.tc : Thread Cert.KernelIdeal.nD Cert.KernelIdeal.τ).loc Cert.KernelIdeal.main_arg9)) := (keepK1 (Cert.KernelIdeal.Gen.W4 (F := Ideal) m ρ c) Cert.KernelIdeal.main_arg9 (by decide)).trans (K4a9 m ρ c m' hA)
theorem K6a9 : (Cert.KernelIdeal.Gen.W6 (F := Ideal) m ρ c) (Proc.devRef (τ := Cert.KernelIdeal.τ) .tc Cert.KernelIdeal.main_arg9) = (m ((c.tc : Thread Cert.KernelIdeal.nD Cert.KernelIdeal.τ).loc Cert.KernelIdeal.main_arg9)) := (Cert.KernelIdeal.Gen.W6_of_ne (F := Ideal) m ρ c Cert.KernelIdeal.main_arg9 (by decide)).trans (K5a9 m ρ c m' hA)
theorem K7a9 : (Cert.KernelIdeal.Gen.W7 (F := Ideal) m ρ c) (Proc.devRef (τ := Cert.KernelIdeal.τ) .tc Cert.KernelIdeal.main_arg9) = (m ((c.tc : Thread Cert.KernelIdeal.nD Cert.KernelIdeal.τ).loc Cert.KernelIdeal.main_arg9)) := (keepK2 (Cert.KernelIdeal.Gen.W6 (F := Ideal) m ρ c) Cert.KernelIdeal.main_arg9 (by decide)).trans (K6a9 m ρ c m' hA)
theorem K8a9 : (Cert.KernelIdeal.Gen.W8 (F := Ideal) m ρ c) (Proc.devRef (τ := Cert.KernelIdeal.τ) .tc Cert.KernelIdeal.main_arg9) = (m ((c.tc : Thread Cert.KernelIdeal.nD Cert.KernelIdeal.τ).loc Cert.KernelIdeal.main_arg9)) := (Cert.KernelIdeal.Gen.W8_of_ne (F := Ideal) m ρ c Cert.KernelIdeal.main_arg9 (by decide)).trans (K7a9 m ρ c m' hA)
theorem R3a9 : (RA c m') (Proc.devRef (τ := Cert.ReferenceIdeal.τ) .tc Cert.ReferenceIdeal.main_arg9) = (m' ((c.tc : Thread Cert.ReferenceIdeal.nD Cert.ReferenceIdeal.τ).loc Cert.ReferenceIdeal.main_arg9)) := (keepRA (launchContents m' c) Cert.ReferenceIdeal.main_arg9 (by decide)).trans rfl
theorem R4a9 : (RD0 c m') (Proc.devRef (τ := Cert.ReferenceIdeal.τ) .tc Cert.ReferenceIdeal.main_arg9) = (m' ((c.tc : Thread Cert.ReferenceIdeal.nD Cert.ReferenceIdeal.τ).loc Cert.ReferenceIdeal.main_arg9)) := (keepRD0 (RA c m') Cert.ReferenceIdeal.main_arg9 (by decide)).trans (R3a9 m ρ c m' hA)
theorem R5a9 : (RB1 c m') (Proc.devRef (τ := Cert.ReferenceIdeal.τ) .tc Cert.ReferenceIdeal.main_arg9) = (m' ((c.tc : Thread Cert.ReferenceIdeal.nD Cert.ReferenceIdeal.τ).loc Cert.ReferenceIdeal.main_arg9)) := (keepRB1 (RD0 c m') Cert.ReferenceIdeal.main_arg9 (by decide)).trans (R4a9 m ρ c m' hA)
theorem R6a9 : (RD1 c m') (Proc.devRef (τ := Cert.ReferenceIdeal.τ) .tc Cert.ReferenceIdeal.main_arg9) = (m' ((c.tc : Thread Cert.ReferenceIdeal.nD Cert.ReferenceIdeal.τ).loc Cert.ReferenceIdeal.main_arg9)) := (keepRD1 (RB1 c m') Cert.ReferenceIdeal.main_arg9 (by decide)).trans (R5a9 m ρ c m' hA)
theorem R7a9 : (RB2 c m') (Proc.devRef (τ := Cert.ReferenceIdeal.τ) .tc Cert.ReferenceIdeal.main_arg9) = (m' ((c.tc : Thread Cert.ReferenceIdeal.nD Cert.ReferenceIdeal.τ).loc Cert.ReferenceIdeal.main_arg9)) := (keepRB2 (RD1 c m') Cert.ReferenceIdeal.main_arg9 (by decide)).trans (R6a9 m ρ c m' hA)
theorem R8a9 : (RD2 c m') (Proc.devRef (τ := Cert.ReferenceIdeal.τ) .tc Cert.ReferenceIdeal.main_arg9) = (m' ((c.tc : Thread Cert.ReferenceIdeal.nD Cert.ReferenceIdeal.τ).loc Cert.ReferenceIdeal.main_arg9)) := (keepRD2 (RB2 c m') Cert.ReferenceIdeal.main_arg9 (by decide)).trans (R7a9 m ρ c m' hA)
theorem K3a10 : (Cert.KernelIdeal.Gen.W3 (F := Ideal) m ρ c) (Proc.devRef (τ := Cert.KernelIdeal.τ) .tc Cert.KernelIdeal.main_arg10) = (m ((c.tc : Thread Cert.KernelIdeal.nD Cert.KernelIdeal.τ).loc Cert.KernelIdeal.main_arg10)) :=
  (keepK0_2 (Cert.KernelIdeal.Gen.W2 (F := Ideal) m ρ c) Cert.KernelIdeal.main_arg10 (by decide)).trans ((keepK0_1 (Cert.KernelIdeal.Gen.W1 (F := Ideal) m ρ c) Cert.KernelIdeal.main_arg10 (by decide)).trans
    ((keepK0 (Cert.KernelIdeal.Gen.W0 (F := Ideal) m ρ c) Cert.KernelIdeal.main_arg10 (by decide)).trans rfl))
theorem K4a10 : (Cert.KernelIdeal.Gen.W4 (F := Ideal) m ρ c) (Proc.devRef (τ := Cert.KernelIdeal.τ) .tc Cert.KernelIdeal.main_arg10) = (m ((c.tc : Thread Cert.KernelIdeal.nD Cert.KernelIdeal.τ).loc Cert.KernelIdeal.main_arg10)) := (Cert.KernelIdeal.Gen.W4_of_ne (F := Ideal) m ρ c Cert.KernelIdeal.main_arg10 (by decide)).trans (K3a10 m ρ c m' hA)
theorem K5a10 : (Cert.KernelIdeal.Gen.W5 (F := Ideal) m ρ c) (Proc.devRef (τ := Cert.KernelIdeal.τ) .tc Cert.KernelIdeal.main_arg10) = (m ((c.tc : Thread Cert.KernelIdeal.nD Cert.KernelIdeal.τ).loc Cert.KernelIdeal.main_arg10)) := (keepK1 (Cert.KernelIdeal.Gen.W4 (F := Ideal) m ρ c) Cert.KernelIdeal.main_arg10 (by decide)).trans (K4a10 m ρ c m' hA)
theorem K6a10 : (Cert.KernelIdeal.Gen.W6 (F := Ideal) m ρ c) (Proc.devRef (τ := Cert.KernelIdeal.τ) .tc Cert.KernelIdeal.main_arg10) = (m ((c.tc : Thread Cert.KernelIdeal.nD Cert.KernelIdeal.τ).loc Cert.KernelIdeal.main_arg10)) := (Cert.KernelIdeal.Gen.W6_of_ne (F := Ideal) m ρ c Cert.KernelIdeal.main_arg10 (by decide)).trans (K5a10 m ρ c m' hA)
theorem K7a10 : (Cert.KernelIdeal.Gen.W7 (F := Ideal) m ρ c) (Proc.devRef (τ := Cert.KernelIdeal.τ) .tc Cert.KernelIdeal.main_arg10) = (m ((c.tc : Thread Cert.KernelIdeal.nD Cert.KernelIdeal.τ).loc Cert.KernelIdeal.main_arg10)) := (keepK2 (Cert.KernelIdeal.Gen.W6 (F := Ideal) m ρ c) Cert.KernelIdeal.main_arg10 (by decide)).trans (K6a10 m ρ c m' hA)
theorem K8a10 : (Cert.KernelIdeal.Gen.W8 (F := Ideal) m ρ c) (Proc.devRef (τ := Cert.KernelIdeal.τ) .tc Cert.KernelIdeal.main_arg10) = (m ((c.tc : Thread Cert.KernelIdeal.nD Cert.KernelIdeal.τ).loc Cert.KernelIdeal.main_arg10)) := (Cert.KernelIdeal.Gen.W8_of_ne (F := Ideal) m ρ c Cert.KernelIdeal.main_arg10 (by decide)).trans (K7a10 m ρ c m' hA)
theorem R3a10 : (RA c m') (Proc.devRef (τ := Cert.ReferenceIdeal.τ) .tc Cert.ReferenceIdeal.main_arg10) = (m' ((c.tc : Thread Cert.ReferenceIdeal.nD Cert.ReferenceIdeal.τ).loc Cert.ReferenceIdeal.main_arg10)) := (keepRA (launchContents m' c) Cert.ReferenceIdeal.main_arg10 (by decide)).trans rfl
theorem R4a10 : (RD0 c m') (Proc.devRef (τ := Cert.ReferenceIdeal.τ) .tc Cert.ReferenceIdeal.main_arg10) = (m' ((c.tc : Thread Cert.ReferenceIdeal.nD Cert.ReferenceIdeal.τ).loc Cert.ReferenceIdeal.main_arg10)) := (keepRD0 (RA c m') Cert.ReferenceIdeal.main_arg10 (by decide)).trans (R3a10 m ρ c m' hA)
theorem R5a10 : (RB1 c m') (Proc.devRef (τ := Cert.ReferenceIdeal.τ) .tc Cert.ReferenceIdeal.main_arg10) = (m' ((c.tc : Thread Cert.ReferenceIdeal.nD Cert.ReferenceIdeal.τ).loc Cert.ReferenceIdeal.main_arg10)) := (keepRB1 (RD0 c m') Cert.ReferenceIdeal.main_arg10 (by decide)).trans (R4a10 m ρ c m' hA)
theorem R6a10 : (RD1 c m') (Proc.devRef (τ := Cert.ReferenceIdeal.τ) .tc Cert.ReferenceIdeal.main_arg10) = (m' ((c.tc : Thread Cert.ReferenceIdeal.nD Cert.ReferenceIdeal.τ).loc Cert.ReferenceIdeal.main_arg10)) := (keepRD1 (RB1 c m') Cert.ReferenceIdeal.main_arg10 (by decide)).trans (R5a10 m ρ c m' hA)
theorem R7a10 : (RB2 c m') (Proc.devRef (τ := Cert.ReferenceIdeal.τ) .tc Cert.ReferenceIdeal.main_arg10) = (m' ((c.tc : Thread Cert.ReferenceIdeal.nD Cert.ReferenceIdeal.τ).loc Cert.ReferenceIdeal.main_arg10)) := (keepRB2 (RD1 c m') Cert.ReferenceIdeal.main_arg10 (by decide)).trans (R6a10 m ρ c m' hA)
theorem R8a10 : (RD2 c m') (Proc.devRef (τ := Cert.ReferenceIdeal.τ) .tc Cert.ReferenceIdeal.main_arg10) = (m' ((c.tc : Thread Cert.ReferenceIdeal.nD Cert.ReferenceIdeal.τ).loc Cert.ReferenceIdeal.main_arg10)) := (keepRD2 (RB2 c m') Cert.ReferenceIdeal.main_arg10 (by decide)).trans (R7a10 m ρ c m' hA)
theorem K3a11 : (Cert.KernelIdeal.Gen.W3 (F := Ideal) m ρ c) (Proc.devRef (τ := Cert.KernelIdeal.τ) .tc Cert.KernelIdeal.main_arg11) = (m ((c.tc : Thread Cert.KernelIdeal.nD Cert.KernelIdeal.τ).loc Cert.KernelIdeal.main_arg11)) :=
  (keepK0_2 (Cert.KernelIdeal.Gen.W2 (F := Ideal) m ρ c) Cert.KernelIdeal.main_arg11 (by decide)).trans ((keepK0_1 (Cert.KernelIdeal.Gen.W1 (F := Ideal) m ρ c) Cert.KernelIdeal.main_arg11 (by decide)).trans
    ((keepK0 (Cert.KernelIdeal.Gen.W0 (F := Ideal) m ρ c) Cert.KernelIdeal.main_arg11 (by decide)).trans rfl))
theorem K4a11 : (Cert.KernelIdeal.Gen.W4 (F := Ideal) m ρ c) (Proc.devRef (τ := Cert.KernelIdeal.τ) .tc Cert.KernelIdeal.main_arg11) = (m ((c.tc : Thread Cert.KernelIdeal.nD Cert.KernelIdeal.τ).loc Cert.KernelIdeal.main_arg11)) := (Cert.KernelIdeal.Gen.W4_of_ne (F := Ideal) m ρ c Cert.KernelIdeal.main_arg11 (by decide)).trans (K3a11 m ρ c m' hA)
theorem K5a11 : (Cert.KernelIdeal.Gen.W5 (F := Ideal) m ρ c) (Proc.devRef (τ := Cert.KernelIdeal.τ) .tc Cert.KernelIdeal.main_arg11) = (m ((c.tc : Thread Cert.KernelIdeal.nD Cert.KernelIdeal.τ).loc Cert.KernelIdeal.main_arg11)) := (keepK1 (Cert.KernelIdeal.Gen.W4 (F := Ideal) m ρ c) Cert.KernelIdeal.main_arg11 (by decide)).trans (K4a11 m ρ c m' hA)
theorem K6a11 : (Cert.KernelIdeal.Gen.W6 (F := Ideal) m ρ c) (Proc.devRef (τ := Cert.KernelIdeal.τ) .tc Cert.KernelIdeal.main_arg11) = (m ((c.tc : Thread Cert.KernelIdeal.nD Cert.KernelIdeal.τ).loc Cert.KernelIdeal.main_arg11)) := (Cert.KernelIdeal.Gen.W6_of_ne (F := Ideal) m ρ c Cert.KernelIdeal.main_arg11 (by decide)).trans (K5a11 m ρ c m' hA)
theorem K7a11 : (Cert.KernelIdeal.Gen.W7 (F := Ideal) m ρ c) (Proc.devRef (τ := Cert.KernelIdeal.τ) .tc Cert.KernelIdeal.main_arg11) = (m ((c.tc : Thread Cert.KernelIdeal.nD Cert.KernelIdeal.τ).loc Cert.KernelIdeal.main_arg11)) := (keepK2 (Cert.KernelIdeal.Gen.W6 (F := Ideal) m ρ c) Cert.KernelIdeal.main_arg11 (by decide)).trans (K6a11 m ρ c m' hA)
theorem K8a11 : (Cert.KernelIdeal.Gen.W8 (F := Ideal) m ρ c) (Proc.devRef (τ := Cert.KernelIdeal.τ) .tc Cert.KernelIdeal.main_arg11) = (m ((c.tc : Thread Cert.KernelIdeal.nD Cert.KernelIdeal.τ).loc Cert.KernelIdeal.main_arg11)) := (Cert.KernelIdeal.Gen.W8_of_ne (F := Ideal) m ρ c Cert.KernelIdeal.main_arg11 (by decide)).trans (K7a11 m ρ c m' hA)
theorem R3a11 : (RA c m') (Proc.devRef (τ := Cert.ReferenceIdeal.τ) .tc Cert.ReferenceIdeal.main_arg11) = (m' ((c.tc : Thread Cert.ReferenceIdeal.nD Cert.ReferenceIdeal.τ).loc Cert.ReferenceIdeal.main_arg11)) := (keepRA (launchContents m' c) Cert.ReferenceIdeal.main_arg11 (by decide)).trans rfl
theorem R4a11 : (RD0 c m') (Proc.devRef (τ := Cert.ReferenceIdeal.τ) .tc Cert.ReferenceIdeal.main_arg11) = (m' ((c.tc : Thread Cert.ReferenceIdeal.nD Cert.ReferenceIdeal.τ).loc Cert.ReferenceIdeal.main_arg11)) := (keepRD0 (RA c m') Cert.ReferenceIdeal.main_arg11 (by decide)).trans (R3a11 m ρ c m' hA)
theorem R5a11 : (RB1 c m') (Proc.devRef (τ := Cert.ReferenceIdeal.τ) .tc Cert.ReferenceIdeal.main_arg11) = (m' ((c.tc : Thread Cert.ReferenceIdeal.nD Cert.ReferenceIdeal.τ).loc Cert.ReferenceIdeal.main_arg11)) := (keepRB1 (RD0 c m') Cert.ReferenceIdeal.main_arg11 (by decide)).trans (R4a11 m ρ c m' hA)
theorem R6a11 : (RD1 c m') (Proc.devRef (τ := Cert.ReferenceIdeal.τ) .tc Cert.ReferenceIdeal.main_arg11) = (m' ((c.tc : Thread Cert.ReferenceIdeal.nD Cert.ReferenceIdeal.τ).loc Cert.ReferenceIdeal.main_arg11)) := (keepRD1 (RB1 c m') Cert.ReferenceIdeal.main_arg11 (by decide)).trans (R5a11 m ρ c m' hA)
theorem R7a11 : (RB2 c m') (Proc.devRef (τ := Cert.ReferenceIdeal.τ) .tc Cert.ReferenceIdeal.main_arg11) = (m' ((c.tc : Thread Cert.ReferenceIdeal.nD Cert.ReferenceIdeal.τ).loc Cert.ReferenceIdeal.main_arg11)) := (keepRB2 (RD1 c m') Cert.ReferenceIdeal.main_arg11 (by decide)).trans (R6a11 m ρ c m' hA)
theorem R8a11 : (RD2 c m') (Proc.devRef (τ := Cert.ReferenceIdeal.τ) .tc Cert.ReferenceIdeal.main_arg11) = (m' ((c.tc : Thread Cert.ReferenceIdeal.nD Cert.ReferenceIdeal.τ).loc Cert.ReferenceIdeal.main_arg11)) := (keepRD2 (RB2 c m') Cert.ReferenceIdeal.main_arg11 (by decide)).trans (R7a11 m ρ c m' hA)
theorem K3a12 : (Cert.KernelIdeal.Gen.W3 (F := Ideal) m ρ c) (Proc.devRef (τ := Cert.KernelIdeal.τ) .tc Cert.KernelIdeal.main_arg12) = (m ((c.tc : Thread Cert.KernelIdeal.nD Cert.KernelIdeal.τ).loc Cert.KernelIdeal.main_arg12)) :=
  (keepK0_2 (Cert.KernelIdeal.Gen.W2 (F := Ideal) m ρ c) Cert.KernelIdeal.main_arg12 (by decide)).trans ((keepK0_1 (Cert.KernelIdeal.Gen.W1 (F := Ideal) m ρ c) Cert.KernelIdeal.main_arg12 (by decide)).trans
    ((keepK0 (Cert.KernelIdeal.Gen.W0 (F := Ideal) m ρ c) Cert.KernelIdeal.main_arg12 (by decide)).trans rfl))
theorem K4a12 : (Cert.KernelIdeal.Gen.W4 (F := Ideal) m ρ c) (Proc.devRef (τ := Cert.KernelIdeal.τ) .tc Cert.KernelIdeal.main_arg12) = (m ((c.tc : Thread Cert.KernelIdeal.nD Cert.KernelIdeal.τ).loc Cert.KernelIdeal.main_arg12)) := (Cert.KernelIdeal.Gen.W4_of_ne (F := Ideal) m ρ c Cert.KernelIdeal.main_arg12 (by decide)).trans (K3a12 m ρ c m' hA)
theorem K5a12 : (Cert.KernelIdeal.Gen.W5 (F := Ideal) m ρ c) (Proc.devRef (τ := Cert.KernelIdeal.τ) .tc Cert.KernelIdeal.main_arg12) = (m ((c.tc : Thread Cert.KernelIdeal.nD Cert.KernelIdeal.τ).loc Cert.KernelIdeal.main_arg12)) := (keepK1 (Cert.KernelIdeal.Gen.W4 (F := Ideal) m ρ c) Cert.KernelIdeal.main_arg12 (by decide)).trans (K4a12 m ρ c m' hA)
theorem K6a12 : (Cert.KernelIdeal.Gen.W6 (F := Ideal) m ρ c) (Proc.devRef (τ := Cert.KernelIdeal.τ) .tc Cert.KernelIdeal.main_arg12) = (m ((c.tc : Thread Cert.KernelIdeal.nD Cert.KernelIdeal.τ).loc Cert.KernelIdeal.main_arg12)) := (Cert.KernelIdeal.Gen.W6_of_ne (F := Ideal) m ρ c Cert.KernelIdeal.main_arg12 (by decide)).trans (K5a12 m ρ c m' hA)
theorem K7a12 : (Cert.KernelIdeal.Gen.W7 (F := Ideal) m ρ c) (Proc.devRef (τ := Cert.KernelIdeal.τ) .tc Cert.KernelIdeal.main_arg12) = (m ((c.tc : Thread Cert.KernelIdeal.nD Cert.KernelIdeal.τ).loc Cert.KernelIdeal.main_arg12)) := (keepK2 (Cert.KernelIdeal.Gen.W6 (F := Ideal) m ρ c) Cert.KernelIdeal.main_arg12 (by decide)).trans (K6a12 m ρ c m' hA)
theorem K8a12 : (Cert.KernelIdeal.Gen.W8 (F := Ideal) m ρ c) (Proc.devRef (τ := Cert.KernelIdeal.τ) .tc Cert.KernelIdeal.main_arg12) = (m ((c.tc : Thread Cert.KernelIdeal.nD Cert.KernelIdeal.τ).loc Cert.KernelIdeal.main_arg12)) := (Cert.KernelIdeal.Gen.W8_of_ne (F := Ideal) m ρ c Cert.KernelIdeal.main_arg12 (by decide)).trans (K7a12 m ρ c m' hA)
theorem K9a12 : (Cert.KernelIdeal.Gen.W9 (F := Ideal) m ρ c) (Proc.devRef (τ := Cert.KernelIdeal.τ) .tc Cert.KernelIdeal.main_arg12) = (m ((c.tc : Thread Cert.KernelIdeal.nD Cert.KernelIdeal.τ).loc Cert.KernelIdeal.main_arg12)) := (keepK3 (Cert.KernelIdeal.Gen.W8 (F := Ideal) m ρ c) Cert.KernelIdeal.main_arg12 (by decide)).trans (K8a12 m ρ c m' hA)
theorem R3a12 : (RA c m') (Proc.devRef (τ := Cert.ReferenceIdeal.τ) .tc Cert.ReferenceIdeal.main_arg12) = (m' ((c.tc : Thread Cert.ReferenceIdeal.nD Cert.ReferenceIdeal.τ).loc Cert.ReferenceIdeal.main_arg12)) := (keepRA (launchContents m' c) Cert.ReferenceIdeal.main_arg12 (by decide)).trans rfl
theorem R4a12 : (RD0 c m') (Proc.devRef (τ := Cert.ReferenceIdeal.τ) .tc Cert.ReferenceIdeal.main_arg12) = (m' ((c.tc : Thread Cert.ReferenceIdeal.nD Cert.ReferenceIdeal.τ).loc Cert.ReferenceIdeal.main_arg12)) := (keepRD0 (RA c m') Cert.ReferenceIdeal.main_arg12 (by decide)).trans (R3a12 m ρ c m' hA)
theorem R5a12 : (RB1 c m') (Proc.devRef (τ := Cert.ReferenceIdeal.τ) .tc Cert.ReferenceIdeal.main_arg12) = (m' ((c.tc : Thread Cert.ReferenceIdeal.nD Cert.ReferenceIdeal.τ).loc Cert.ReferenceIdeal.main_arg12)) := (keepRB1 (RD0 c m') Cert.ReferenceIdeal.main_arg12 (by decide)).trans (R4a12 m ρ c m' hA)
theorem R6a12 : (RD1 c m') (Proc.devRef (τ := Cert.ReferenceIdeal.τ) .tc Cert.ReferenceIdeal.main_arg12) = (m' ((c.tc : Thread Cert.ReferenceIdeal.nD Cert.ReferenceIdeal.τ).loc Cert.ReferenceIdeal.main_arg12)) := (keepRD1 (RB1 c m') Cert.ReferenceIdeal.main_arg12 (by decide)).trans (R5a12 m ρ c m' hA)
theorem R7a12 : (RB2 c m') (Proc.devRef (τ := Cert.ReferenceIdeal.τ) .tc Cert.ReferenceIdeal.main_arg12) = (m' ((c.tc : Thread Cert.ReferenceIdeal.nD Cert.ReferenceIdeal.τ).loc Cert.ReferenceIdeal.main_arg12)) := (keepRB2 (RD1 c m') Cert.ReferenceIdeal.main_arg12 (by decide)).trans (R6a12 m ρ c m' hA)
theorem R8a12 : (RD2 c m') (Proc.devRef (τ := Cert.ReferenceIdeal.τ) .tc Cert.ReferenceIdeal.main_arg12) = (m' ((c.tc : Thread Cert.ReferenceIdeal.nD Cert.ReferenceIdeal.τ).loc Cert.ReferenceIdeal.main_arg12)) := (keepRD2 (RB2 c m') Cert.ReferenceIdeal.main_arg12 (by decide)).trans (R7a12 m ρ c m' hA)
theorem R9a12 : (RB3 c m') (Proc.devRef (τ := Cert.ReferenceIdeal.τ) .tc Cert.ReferenceIdeal.main_arg12) = (m' ((c.tc : Thread Cert.ReferenceIdeal.nD Cert.ReferenceIdeal.τ).loc Cert.ReferenceIdeal.main_arg12)) := (keepRB3 (RD2 c m') Cert.ReferenceIdeal.main_arg12 (by decide)).trans (R8a12 m ρ c m' hA)
theorem K3a13 : (Cert.KernelIdeal.Gen.W3 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) :=
  (keepK0_2 (Cert.KernelIdeal.Gen.W2 (F := Ideal) m ρ c) Cert.KernelIdeal.main_arg13 (by decide)).trans ((keepK0_1 (Cert.KernelIdeal.Gen.W1 (F := Ideal) m ρ c) Cert.KernelIdeal.main_arg13 (by decide)).trans
    ((keepK0 (Cert.KernelIdeal.Gen.W0 (F := Ideal) m ρ c) Cert.KernelIdeal.main_arg13 (by decide)).trans rfl))
theorem K4a13 : (Cert.KernelIdeal.Gen.W4 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) := (Cert.KernelIdeal.Gen.W4_of_ne (F := Ideal) m ρ c Cert.KernelIdeal.main_arg13 (by decide)).trans (K3a13 m ρ c m' hA)
theorem K5a13 : (Cert.KernelIdeal.Gen.W5 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) := (keepK1 (Cert.KernelIdeal.Gen.W4 (F := Ideal) m ρ c) Cert.KernelIdeal.main_arg13 (by decide)).trans (K4a13 m ρ c m' hA)
theorem K6a13 : (Cert.KernelIdeal.Gen.W6 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) := (Cert.KernelIdeal.Gen.W6_of_ne (F := Ideal) m ρ c Cert.KernelIdeal.main_arg13 (by decide)).trans (K5a13 m ρ c m' hA)
theorem K7a13 : (Cert.KernelIdeal.Gen.W7 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) := (keepK2 (Cert.KernelIdeal.Gen.W6 (F := Ideal) m ρ c) Cert.KernelIdeal.main_arg13 (by decide)).trans (K6a13 m ρ c m' hA)
theorem K8a13 : (Cert.KernelIdeal.Gen.W8 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) := (Cert.KernelIdeal.Gen.W8_of_ne (F := Ideal) m ρ c Cert.KernelIdeal.main_arg13 (by decide)).trans (K7a13 m ρ c m' hA)
theorem K9a13 : (Cert.KernelIdeal.Gen.W9 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) := (keepK3 (Cert.KernelIdeal.Gen.W8 (F := Ideal) m ρ c) Cert.KernelIdeal.main_arg13 (by decide)).trans (K8a13 m ρ c m' hA)
theorem K10a13 : (Cert.KernelIdeal.Gen.W10 (F := Ideal) m ρ c) (Proc.devRef (τ := Cert.KernelIdeal.τ) .tc Cert.KernelIdeal.main_arg13) = (m ((c.tc : Thread Cert.KernelIdeal.nD Cert.KernelIdeal.τ).loc Cert.KernelIdeal.main_arg13)) := (Cert.KernelIdeal.Gen.W10_of_ne (F := Ideal) m ρ c Cert.KernelIdeal.main_arg13 (by decide)).trans (K9a13 m ρ c m' hA)
theorem R3a13 : (RA c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRA (launchContents m' c) Cert.ReferenceIdeal.main_arg13 (by decide)).trans rfl
theorem R4a13 : (RD0 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRD0 (RA c m') Cert.ReferenceIdeal.main_arg13 (by decide)).trans (R3a13 m ρ c m' hA)
theorem R5a13 : (RB1 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRB1 (RD0 c m') Cert.ReferenceIdeal.main_arg13 (by decide)).trans (R4a13 m ρ c m' hA)
theorem R6a13 : (RD1 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRD1 (RB1 c m') Cert.ReferenceIdeal.main_arg13 (by decide)).trans (R5a13 m ρ c m' hA)
theorem R7a13 : (RB2 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRB2 (RD1 c m') Cert.ReferenceIdeal.main_arg13 (by decide)).trans (R6a13 m ρ c m' hA)
theorem R8a13 : (RD2 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRD2 (RB2 c m') Cert.ReferenceIdeal.main_arg13 (by decide)).trans (R7a13 m ρ c m' hA)
theorem R9a13 : (RB3 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRB3 (RD2 c m') Cert.ReferenceIdeal.main_arg13 (by decide)).trans (R8a13 m ρ c m' hA)
theorem R10a13 : (RD3 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRD3 (RB3 c m') Cert.ReferenceIdeal.main_arg13 (by decide)).trans (R9a13 m ρ c m' hA)
theorem R11a13 : (RB4 c m') (Proc.devRef (τ := Cert.ReferenceIdeal.τ) .tc Cert.ReferenceIdeal.main_arg13) = (m' ((c.tc : Thread Cert.ReferenceIdeal.nD Cert.ReferenceIdeal.τ).loc Cert.ReferenceIdeal.main_arg13)) := (keepRB4 (RD3 c m') Cert.ReferenceIdeal.main_arg13 (by decide)).trans (R10a13 m ρ c m' hA)
theorem K3a14 : (Cert.KernelIdeal.Gen.W3 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) :=
  (keepK0_2 (Cert.KernelIdeal.Gen.W2 (F := Ideal) m ρ c) Cert.KernelIdeal.main_arg14 (by decide)).trans ((keepK0_1 (Cert.KernelIdeal.Gen.W1 (F := Ideal) m ρ c) Cert.KernelIdeal.main_arg14 (by decide)).trans
    ((keepK0 (Cert.KernelIdeal.Gen.W0 (F := Ideal) m ρ c) Cert.KernelIdeal.main_arg14 (by decide)).trans rfl))
theorem K4a14 : (Cert.KernelIdeal.Gen.W4 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (Cert.KernelIdeal.Gen.W4_of_ne (F := Ideal) m ρ c Cert.KernelIdeal.main_arg14 (by decide)).trans (K3a14 m ρ c m' hA)
theorem K5a14 : (Cert.KernelIdeal.Gen.W5 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (keepK1 (Cert.KernelIdeal.Gen.W4 (F := Ideal) m ρ c) Cert.KernelIdeal.main_arg14 (by decide)).trans (K4a14 m ρ c m' hA)
theorem K6a14 : (Cert.KernelIdeal.Gen.W6 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (Cert.KernelIdeal.Gen.W6_of_ne (F := Ideal) m ρ c Cert.KernelIdeal.main_arg14 (by decide)).trans (K5a14 m ρ c m' hA)
theorem K7a14 : (Cert.KernelIdeal.Gen.W7 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (keepK2 (Cert.KernelIdeal.Gen.W6 (F := Ideal) m ρ c) Cert.KernelIdeal.main_arg14 (by decide)).trans (K6a14 m ρ c m' hA)
theorem K8a14 : (Cert.KernelIdeal.Gen.W8 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (Cert.KernelIdeal.Gen.W8_of_ne (F := Ideal) m ρ c Cert.KernelIdeal.main_arg14 (by decide)).trans (K7a14 m ρ c m' hA)
theorem K9a14 : (Cert.KernelIdeal.Gen.W9 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (keepK3 (Cert.KernelIdeal.Gen.W8 (F := Ideal) m ρ c) Cert.KernelIdeal.main_arg14 (by decide)).trans (K8a14 m ρ c m' hA)
theorem K10a14 : (Cert.KernelIdeal.Gen.W10 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (Cert.KernelIdeal.Gen.W10_of_ne (F := Ideal) m ρ c Cert.KernelIdeal.main_arg14 (by decide)).trans (K9a14 m ρ c m' hA)
theorem K11a14 : (Cert.KernelIdeal.Gen.W11 (F := Ideal) m ρ c) (Proc.devRef (τ := Cert.KernelIdeal.τ) .tc Cert.KernelIdeal.main_arg14) = (m ((c.tc : Thread Cert.KernelIdeal.nD Cert.KernelIdeal.τ).loc Cert.KernelIdeal.main_arg14)) := (keepK4 (Cert.KernelIdeal.Gen.W10 (F := Ideal) m ρ c) Cert.KernelIdeal.main_arg14 (by decide)).trans (K10a14 m ρ c m' hA)
theorem R3a14 : (RA c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRA (launchContents m' c) Cert.ReferenceIdeal.main_arg14 (by decide)).trans rfl
theorem R4a14 : (RD0 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRD0 (RA c m') Cert.ReferenceIdeal.main_arg14 (by decide)).trans (R3a14 m ρ c m' hA)
theorem R5a14 : (RB1 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRB1 (RD0 c m') Cert.ReferenceIdeal.main_arg14 (by decide)).trans (R4a14 m ρ c m' hA)
theorem R6a14 : (RD1 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRD1 (RB1 c m') Cert.ReferenceIdeal.main_arg14 (by decide)).trans (R5a14 m ρ c m' hA)
theorem R7a14 : (RB2 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRB2 (RD1 c m') Cert.ReferenceIdeal.main_arg14 (by decide)).trans (R6a14 m ρ c m' hA)
theorem R8a14 : (RD2 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRD2 (RB2 c m') Cert.ReferenceIdeal.main_arg14 (by decide)).trans (R7a14 m ρ c m' hA)
theorem R9a14 : (RB3 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRB3 (RD2 c m') Cert.ReferenceIdeal.main_arg14 (by decide)).trans (R8a14 m ρ c m' hA)
theorem R10a14 : (RD3 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRD3 (RB3 c m') Cert.ReferenceIdeal.main_arg14 (by decide)).trans (R9a14 m ρ c m' hA)
theorem R11a14 : (RB4 c m') (Proc.devRef (τ := Cert.ReferenceIdeal.τ) .tc Cert.ReferenceIdeal.main_arg14) = (m' ((c.tc : Thread Cert.ReferenceIdeal.nD Cert.ReferenceIdeal.τ).loc Cert.ReferenceIdeal.main_arg14)) := (keepRB4 (RD3 c m') Cert.ReferenceIdeal.main_arg14 (by decide)).trans (R10a14 m ρ c m' hA)
theorem K3a15 : (Cert.KernelIdeal.Gen.W3 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) :=
  (keepK0_2 (Cert.KernelIdeal.Gen.W2 (F := Ideal) m ρ c) Cert.KernelIdeal.main_arg15 (by decide)).trans ((keepK0_1 (Cert.KernelIdeal.Gen.W1 (F := Ideal) m ρ c) Cert.KernelIdeal.main_arg15 (by decide)).trans
    ((keepK0 (Cert.KernelIdeal.Gen.W0 (F := Ideal) m ρ c) Cert.KernelIdeal.main_arg15 (by decide)).trans rfl))
theorem K4a15 : (Cert.KernelIdeal.Gen.W4 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (Cert.KernelIdeal.Gen.W4_of_ne (F := Ideal) m ρ c Cert.KernelIdeal.main_arg15 (by decide)).trans (K3a15 m ρ c m' hA)
theorem K5a15 : (Cert.KernelIdeal.Gen.W5 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (keepK1 (Cert.KernelIdeal.Gen.W4 (F := Ideal) m ρ c) Cert.KernelIdeal.main_arg15 (by decide)).trans (K4a15 m ρ c m' hA)
theorem K6a15 : (Cert.KernelIdeal.Gen.W6 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (Cert.KernelIdeal.Gen.W6_of_ne (F := Ideal) m ρ c Cert.KernelIdeal.main_arg15 (by decide)).trans (K5a15 m ρ c m' hA)
theorem K7a15 : (Cert.KernelIdeal.Gen.W7 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (keepK2 (Cert.KernelIdeal.Gen.W6 (F := Ideal) m ρ c) Cert.KernelIdeal.main_arg15 (by decide)).trans (K6a15 m ρ c m' hA)
theorem K8a15 : (Cert.KernelIdeal.Gen.W8 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (Cert.KernelIdeal.Gen.W8_of_ne (F := Ideal) m ρ c Cert.KernelIdeal.main_arg15 (by decide)).trans (K7a15 m ρ c m' hA)
theorem K9a15 : (Cert.KernelIdeal.Gen.W9 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (keepK3 (Cert.KernelIdeal.Gen.W8 (F := Ideal) m ρ c) Cert.KernelIdeal.main_arg15 (by decide)).trans (K8a15 m ρ c m' hA)
theorem K10a15 : (Cert.KernelIdeal.Gen.W10 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (Cert.KernelIdeal.Gen.W10_of_ne (F := Ideal) m ρ c Cert.KernelIdeal.main_arg15 (by decide)).trans (K9a15 m ρ c m' hA)
theorem K11a15 : (Cert.KernelIdeal.Gen.W11 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (keepK4 (Cert.KernelIdeal.Gen.W10 (F := Ideal) m ρ c) Cert.KernelIdeal.main_arg15 (by decide)).trans (K10a15 m ρ c m' hA)
theorem K12a15 : (Cert.KernelIdeal.Gen.W12 (F := Ideal) m ρ c) (Proc.devRef (τ := Cert.KernelIdeal.τ) .tc Cert.KernelIdeal.main_arg15) = (m ((c.tc : Thread Cert.KernelIdeal.nD Cert.KernelIdeal.τ).loc Cert.KernelIdeal.main_arg15)) := (Cert.KernelIdeal.Gen.W12_of_ne (F := Ideal) m ρ c Cert.KernelIdeal.main_arg15 (by decide)).trans (K11a15 m ρ c m' hA)
theorem R3a15 : (RA c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRA (launchContents m' c) Cert.ReferenceIdeal.main_arg15 (by decide)).trans rfl
theorem R4a15 : (RD0 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRD0 (RA c m') Cert.ReferenceIdeal.main_arg15 (by decide)).trans (R3a15 m ρ c m' hA)
theorem R5a15 : (RB1 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRB1 (RD0 c m') Cert.ReferenceIdeal.main_arg15 (by decide)).trans (R4a15 m ρ c m' hA)
theorem R6a15 : (RD1 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRD1 (RB1 c m') Cert.ReferenceIdeal.main_arg15 (by decide)).trans (R5a15 m ρ c m' hA)
theorem R7a15 : (RB2 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRB2 (RD1 c m') Cert.ReferenceIdeal.main_arg15 (by decide)).trans (R6a15 m ρ c m' hA)
theorem R8a15 : (RD2 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRD2 (RB2 c m') Cert.ReferenceIdeal.main_arg15 (by decide)).trans (R7a15 m ρ c m' hA)
theorem R9a15 : (RB3 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRB3 (RD2 c m') Cert.ReferenceIdeal.main_arg15 (by decide)).trans (R8a15 m ρ c m' hA)
theorem R10a15 : (RD3 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRD3 (RB3 c m') Cert.ReferenceIdeal.main_arg15 (by decide)).trans (R9a15 m ρ c m' hA)
theorem R11a15 : (RB4 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRB4 (RD3 c m') Cert.ReferenceIdeal.main_arg15 (by decide)).trans (R10a15 m ρ c m' hA)
theorem R12a15 : (RD4 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRD4 (RB4 c m') Cert.ReferenceIdeal.main_arg15 (by decide)).trans (R11a15 m ρ c m' hA)
theorem R13a15 : (RB5 c m') (Proc.devRef (τ := Cert.ReferenceIdeal.τ) .tc Cert.ReferenceIdeal.main_arg15) = (m' ((c.tc : Thread Cert.ReferenceIdeal.nD Cert.ReferenceIdeal.τ).loc Cert.ReferenceIdeal.main_arg15)) := (keepRB5 (RD4 c m') Cert.ReferenceIdeal.main_arg15 (by decide)).trans (R12a15 m ρ c m' hA)
theorem K3a16 : (Cert.KernelIdeal.Gen.W3 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) :=
  (keepK0_2 (Cert.KernelIdeal.Gen.W2 (F := Ideal) m ρ c) Cert.KernelIdeal.main_arg16 (by decide)).trans ((keepK0_1 (Cert.KernelIdeal.Gen.W1 (F := Ideal) m ρ c) Cert.KernelIdeal.main_arg16 (by decide)).trans
    ((keepK0 (Cert.KernelIdeal.Gen.W0 (F := Ideal) m ρ c) Cert.KernelIdeal.main_arg16 (by decide)).trans rfl))
theorem K4a16 : (Cert.KernelIdeal.Gen.W4 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (Cert.KernelIdeal.Gen.W4_of_ne (F := Ideal) m ρ c Cert.KernelIdeal.main_arg16 (by decide)).trans (K3a16 m ρ c m' hA)
theorem K5a16 : (Cert.KernelIdeal.Gen.W5 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (keepK1 (Cert.KernelIdeal.Gen.W4 (F := Ideal) m ρ c) Cert.KernelIdeal.main_arg16 (by decide)).trans (K4a16 m ρ c m' hA)
theorem K6a16 : (Cert.KernelIdeal.Gen.W6 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (Cert.KernelIdeal.Gen.W6_of_ne (F := Ideal) m ρ c Cert.KernelIdeal.main_arg16 (by decide)).trans (K5a16 m ρ c m' hA)
theorem K7a16 : (Cert.KernelIdeal.Gen.W7 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (keepK2 (Cert.KernelIdeal.Gen.W6 (F := Ideal) m ρ c) Cert.KernelIdeal.main_arg16 (by decide)).trans (K6a16 m ρ c m' hA)
theorem K8a16 : (Cert.KernelIdeal.Gen.W8 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (Cert.KernelIdeal.Gen.W8_of_ne (F := Ideal) m ρ c Cert.KernelIdeal.main_arg16 (by decide)).trans (K7a16 m ρ c m' hA)
theorem K9a16 : (Cert.KernelIdeal.Gen.W9 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (keepK3 (Cert.KernelIdeal.Gen.W8 (F := Ideal) m ρ c) Cert.KernelIdeal.main_arg16 (by decide)).trans (K8a16 m ρ c m' hA)
theorem K10a16 : (Cert.KernelIdeal.Gen.W10 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (Cert.KernelIdeal.Gen.W10_of_ne (F := Ideal) m ρ c Cert.KernelIdeal.main_arg16 (by decide)).trans (K9a16 m ρ c m' hA)
theorem K11a16 : (Cert.KernelIdeal.Gen.W11 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (keepK4 (Cert.KernelIdeal.Gen.W10 (F := Ideal) m ρ c) Cert.KernelIdeal.main_arg16 (by decide)).trans (K10a16 m ρ c m' hA)
theorem K12a16 : (Cert.KernelIdeal.Gen.W12 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (Cert.KernelIdeal.Gen.W12_of_ne (F := Ideal) m ρ c Cert.KernelIdeal.main_arg16 (by decide)).trans (K11a16 m ρ c m' hA)
theorem K13a16 : (Cert.KernelIdeal.Gen.W13 (F := Ideal) m ρ c) (Proc.devRef (τ := Cert.KernelIdeal.τ) .tc Cert.KernelIdeal.main_arg16) = (m ((c.tc : Thread Cert.KernelIdeal.nD Cert.KernelIdeal.τ).loc Cert.KernelIdeal.main_arg16)) := (keepK5 (Cert.KernelIdeal.Gen.W12 (F := Ideal) m ρ c) Cert.KernelIdeal.main_arg16 (by decide)).trans (K12a16 m ρ c m' hA)
theorem R3a16 : (RA c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRA (launchContents m' c) Cert.ReferenceIdeal.main_arg16 (by decide)).trans rfl
theorem R4a16 : (RD0 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRD0 (RA c m') Cert.ReferenceIdeal.main_arg16 (by decide)).trans (R3a16 m ρ c m' hA)
theorem R5a16 : (RB1 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRB1 (RD0 c m') Cert.ReferenceIdeal.main_arg16 (by decide)).trans (R4a16 m ρ c m' hA)
theorem R6a16 : (RD1 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRD1 (RB1 c m') Cert.ReferenceIdeal.main_arg16 (by decide)).trans (R5a16 m ρ c m' hA)
theorem R7a16 : (RB2 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRB2 (RD1 c m') Cert.ReferenceIdeal.main_arg16 (by decide)).trans (R6a16 m ρ c m' hA)
theorem R8a16 : (RD2 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRD2 (RB2 c m') Cert.ReferenceIdeal.main_arg16 (by decide)).trans (R7a16 m ρ c m' hA)
theorem R9a16 : (RB3 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRB3 (RD2 c m') Cert.ReferenceIdeal.main_arg16 (by decide)).trans (R8a16 m ρ c m' hA)
theorem R10a16 : (RD3 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRD3 (RB3 c m') Cert.ReferenceIdeal.main_arg16 (by decide)).trans (R9a16 m ρ c m' hA)
theorem R11a16 : (RB4 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRB4 (RD3 c m') Cert.ReferenceIdeal.main_arg16 (by decide)).trans (R10a16 m ρ c m' hA)
theorem R12a16 : (RD4 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRD4 (RB4 c m') Cert.ReferenceIdeal.main_arg16 (by decide)).trans (R11a16 m ρ c m' hA)
theorem R13a16 : (RB5 c m') (Proc.devRef (τ := Cert.ReferenceIdeal.τ) .tc Cert.ReferenceIdeal.main_arg16) = (m' ((c.tc : Thread Cert.ReferenceIdeal.nD Cert.ReferenceIdeal.τ).loc Cert.ReferenceIdeal.main_arg16)) := (keepRB5 (RD4 c m') Cert.ReferenceIdeal.main_arg16 (by decide)).trans (R12a16 m ρ c m' hA)
theorem K3a17 : (Cert.KernelIdeal.Gen.W3 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) :=
  (keepK0_2 (Cert.KernelIdeal.Gen.W2 (F := Ideal) m ρ c) Cert.KernelIdeal.main_arg17 (by decide)).trans ((keepK0_1 (Cert.KernelIdeal.Gen.W1 (F := Ideal) m ρ c) Cert.KernelIdeal.main_arg17 (by decide)).trans
    ((keepK0 (Cert.KernelIdeal.Gen.W0 (F := Ideal) m ρ c) Cert.KernelIdeal.main_arg17 (by decide)).trans rfl))
theorem K4a17 : (Cert.KernelIdeal.Gen.W4 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (Cert.KernelIdeal.Gen.W4_of_ne (F := Ideal) m ρ c Cert.KernelIdeal.main_arg17 (by decide)).trans (K3a17 m ρ c m' hA)
theorem K5a17 : (Cert.KernelIdeal.Gen.W5 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (keepK1 (Cert.KernelIdeal.Gen.W4 (F := Ideal) m ρ c) Cert.KernelIdeal.main_arg17 (by decide)).trans (K4a17 m ρ c m' hA)
theorem K6a17 : (Cert.KernelIdeal.Gen.W6 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (Cert.KernelIdeal.Gen.W6_of_ne (F := Ideal) m ρ c Cert.KernelIdeal.main_arg17 (by decide)).trans (K5a17 m ρ c m' hA)
theorem K7a17 : (Cert.KernelIdeal.Gen.W7 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (keepK2 (Cert.KernelIdeal.Gen.W6 (F := Ideal) m ρ c) Cert.KernelIdeal.main_arg17 (by decide)).trans (K6a17 m ρ c m' hA)
theorem K8a17 : (Cert.KernelIdeal.Gen.W8 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (Cert.KernelIdeal.Gen.W8_of_ne (F := Ideal) m ρ c Cert.KernelIdeal.main_arg17 (by decide)).trans (K7a17 m ρ c m' hA)
theorem K9a17 : (Cert.KernelIdeal.Gen.W9 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (keepK3 (Cert.KernelIdeal.Gen.W8 (F := Ideal) m ρ c) Cert.KernelIdeal.main_arg17 (by decide)).trans (K8a17 m ρ c m' hA)
theorem K10a17 : (Cert.KernelIdeal.Gen.W10 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (Cert.KernelIdeal.Gen.W10_of_ne (F := Ideal) m ρ c Cert.KernelIdeal.main_arg17 (by decide)).trans (K9a17 m ρ c m' hA)
theorem K11a17 : (Cert.KernelIdeal.Gen.W11 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (keepK4 (Cert.KernelIdeal.Gen.W10 (F := Ideal) m ρ c) Cert.KernelIdeal.main_arg17 (by decide)).trans (K10a17 m ρ c m' hA)
theorem K12a17 : (Cert.KernelIdeal.Gen.W12 (F := Ideal) m ρ c) (Proc.devRef (τ := Cert.KernelIdeal.τ) .tc Cert.KernelIdeal.main_arg17) = (m ((c.tc : Thread Cert.KernelIdeal.nD Cert.KernelIdeal.τ).loc Cert.KernelIdeal.main_arg17)) := (Cert.KernelIdeal.Gen.W12_of_ne (F := Ideal) m ρ c Cert.KernelIdeal.main_arg17 (by decide)).trans (K11a17 m ρ c m' hA)
theorem R3a17 : (RA c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRA (launchContents m' c) Cert.ReferenceIdeal.main_arg17 (by decide)).trans rfl
theorem R4a17 : (RD0 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRD0 (RA c m') Cert.ReferenceIdeal.main_arg17 (by decide)).trans (R3a17 m ρ c m' hA)
theorem R5a17 : (RB1 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRB1 (RD0 c m') Cert.ReferenceIdeal.main_arg17 (by decide)).trans (R4a17 m ρ c m' hA)
theorem R6a17 : (RD1 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRD1 (RB1 c m') Cert.ReferenceIdeal.main_arg17 (by decide)).trans (R5a17 m ρ c m' hA)
theorem R7a17 : (RB2 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRB2 (RD1 c m') Cert.ReferenceIdeal.main_arg17 (by decide)).trans (R6a17 m ρ c m' hA)
theorem R8a17 : (RD2 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRD2 (RB2 c m') Cert.ReferenceIdeal.main_arg17 (by decide)).trans (R7a17 m ρ c m' hA)
theorem R9a17 : (RB3 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRB3 (RD2 c m') Cert.ReferenceIdeal.main_arg17 (by decide)).trans (R8a17 m ρ c m' hA)
theorem R10a17 : (RD3 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRD3 (RB3 c m') Cert.ReferenceIdeal.main_arg17 (by decide)).trans (R9a17 m ρ c m' hA)
theorem R11a17 : (RB4 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRB4 (RD3 c m') Cert.ReferenceIdeal.main_arg17 (by decide)).trans (R10a17 m ρ c m' hA)
theorem R12a17 : (RD4 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRD4 (RB4 c m') Cert.ReferenceIdeal.main_arg17 (by decide)).trans (R11a17 m ρ c m' hA)
theorem R13a17 : (RB5 c m') (Proc.devRef (τ := Cert.ReferenceIdeal.τ) .tc Cert.ReferenceIdeal.main_arg17) = (m' ((c.tc : Thread Cert.ReferenceIdeal.nD Cert.ReferenceIdeal.τ).loc Cert.ReferenceIdeal.main_arg17)) := (keepRB5 (RD4 c m') Cert.ReferenceIdeal.main_arg17 (by decide)).trans (R12a17 m ρ c m' hA)
theorem K3a19 : (Cert.KernelIdeal.Gen.W3 (F := Ideal) m ρ c) (Proc.devRef (τ := Cert.KernelIdeal.τ) .tc Cert.KernelIdeal.main_arg19) = (m ((c.tc : Thread Cert.KernelIdeal.nD Cert.KernelIdeal.τ).loc Cert.KernelIdeal.main_arg19)) :=
  (keepK0_2 (Cert.KernelIdeal.Gen.W2 (F := Ideal) m ρ c) Cert.KernelIdeal.main_arg19 (by decide)).trans ((keepK0_1 (Cert.KernelIdeal.Gen.W1 (F := Ideal) m ρ c) Cert.KernelIdeal.main_arg19 (by decide)).trans
    ((keepK0 (Cert.KernelIdeal.Gen.W0 (F := Ideal) m ρ c) Cert.KernelIdeal.main_arg19 (by decide)).trans rfl))
theorem K4a19 : (Cert.KernelIdeal.Gen.W4 (F := Ideal) m ρ c) (Proc.devRef (τ := Cert.KernelIdeal.τ) .tc Cert.KernelIdeal.main_arg19) = (m ((c.tc : Thread Cert.KernelIdeal.nD Cert.KernelIdeal.τ).loc Cert.KernelIdeal.main_arg19)) := (Cert.KernelIdeal.Gen.W4_of_ne (F := Ideal) m ρ c Cert.KernelIdeal.main_arg19 (by decide)).trans (K3a19 m ρ c m' hA)
theorem K5a19 : (Cert.KernelIdeal.Gen.W5 (F := Ideal) m ρ c) (Proc.devRef (τ := Cert.KernelIdeal.τ) .tc Cert.KernelIdeal.main_arg19) = (m ((c.tc : Thread Cert.KernelIdeal.nD Cert.KernelIdeal.τ).loc Cert.KernelIdeal.main_arg19)) := (keepK1 (Cert.KernelIdeal.Gen.W4 (F := Ideal) m ρ c) Cert.KernelIdeal.main_arg19 (by decide)).trans (K4a19 m ρ c m' hA)
theorem K6a19 : (Cert.KernelIdeal.Gen.W6 (F := Ideal) m ρ c) (Proc.devRef (τ := Cert.KernelIdeal.τ) .tc Cert.KernelIdeal.main_arg19) = (m ((c.tc : Thread Cert.KernelIdeal.nD Cert.KernelIdeal.τ).loc Cert.KernelIdeal.main_arg19)) := (Cert.KernelIdeal.Gen.W6_of_ne (F := Ideal) m ρ c Cert.KernelIdeal.main_arg19 (by decide)).trans (K5a19 m ρ c m' hA)
theorem K7a19 : (Cert.KernelIdeal.Gen.W7 (F := Ideal) m ρ c) (Proc.devRef (τ := Cert.KernelIdeal.τ) .tc Cert.KernelIdeal.main_arg19) = (m ((c.tc : Thread Cert.KernelIdeal.nD Cert.KernelIdeal.τ).loc Cert.KernelIdeal.main_arg19)) := (keepK2 (Cert.KernelIdeal.Gen.W6 (F := Ideal) m ρ c) Cert.KernelIdeal.main_arg19 (by decide)).trans (K6a19 m ρ c m' hA)
theorem K8a19 : (Cert.KernelIdeal.Gen.W8 (F := Ideal) m ρ c) (Proc.devRef (τ := Cert.KernelIdeal.τ) .tc Cert.KernelIdeal.main_arg19) = (m ((c.tc : Thread Cert.KernelIdeal.nD Cert.KernelIdeal.τ).loc Cert.KernelIdeal.main_arg19)) := (Cert.KernelIdeal.Gen.W8_of_ne (F := Ideal) m ρ c Cert.KernelIdeal.main_arg19 (by decide)).trans (K7a19 m ρ c m' hA)
theorem R3a19 : (RA c m') (Proc.devRef (τ := Cert.ReferenceIdeal.τ) .tc Cert.ReferenceIdeal.main_arg19) = (m' ((c.tc : Thread Cert.ReferenceIdeal.nD Cert.ReferenceIdeal.τ).loc Cert.ReferenceIdeal.main_arg19)) := (keepRA (launchContents m' c) Cert.ReferenceIdeal.main_arg19 (by decide)).trans rfl
theorem R4a19 : (RD0 c m') (Proc.devRef (τ := Cert.ReferenceIdeal.τ) .tc Cert.ReferenceIdeal.main_arg19) = (m' ((c.tc : Thread Cert.ReferenceIdeal.nD Cert.ReferenceIdeal.τ).loc Cert.ReferenceIdeal.main_arg19)) := (keepRD0 (RA c m') Cert.ReferenceIdeal.main_arg19 (by decide)).trans (R3a19 m ρ c m' hA)
theorem R5a19 : (RB1 c m') (Proc.devRef (τ := Cert.ReferenceIdeal.τ) .tc Cert.ReferenceIdeal.main_arg19) = (m' ((c.tc : Thread Cert.ReferenceIdeal.nD Cert.ReferenceIdeal.τ).loc Cert.ReferenceIdeal.main_arg19)) := (keepRB1 (RD0 c m') Cert.ReferenceIdeal.main_arg19 (by decide)).trans (R4a19 m ρ c m' hA)
theorem R6a19 : (RD1 c m') (Proc.devRef (τ := Cert.ReferenceIdeal.τ) .tc Cert.ReferenceIdeal.main_arg19) = (m' ((c.tc : Thread Cert.ReferenceIdeal.nD Cert.ReferenceIdeal.τ).loc Cert.ReferenceIdeal.main_arg19)) := (keepRD1 (RB1 c m') Cert.ReferenceIdeal.main_arg19 (by decide)).trans (R5a19 m ρ c m' hA)
theorem R7a19 : (RB2 c m') (Proc.devRef (τ := Cert.ReferenceIdeal.τ) .tc Cert.ReferenceIdeal.main_arg19) = (m' ((c.tc : Thread Cert.ReferenceIdeal.nD Cert.ReferenceIdeal.τ).loc Cert.ReferenceIdeal.main_arg19)) := (keepRB2 (RD1 c m') Cert.ReferenceIdeal.main_arg19 (by decide)).trans (R6a19 m ρ c m' hA)
theorem R8a19 : (RD2 c m') (Proc.devRef (τ := Cert.ReferenceIdeal.τ) .tc Cert.ReferenceIdeal.main_arg19) = (m' ((c.tc : Thread Cert.ReferenceIdeal.nD Cert.ReferenceIdeal.τ).loc Cert.ReferenceIdeal.main_arg19)) := (keepRD2 (RB2 c m') Cert.ReferenceIdeal.main_arg19 (by decide)).trans (R7a19 m ρ c m' hA)

/-! ## The edge lists and the edge weights, carried along -/
theorem I3row : (Cert.KernelIdeal.Gen.W3 (F := Ideal) m ρ c) (Proc.devRef (τ := Cert.KernelIdeal.τ) .tc Cert.KernelIdeal.main_v3) = (RA c m') (Proc.devRef (τ := Cert.ReferenceIdeal.τ) .tc Cert.ReferenceIdeal.main_v3) := pre_row (Cert.KernelIdeal.Gen.W0 (F := Ideal) m ρ c) (launchContents m' c) hA.a18.symm
theorem I3col : (Cert.KernelIdeal.Gen.W3 (F := Ideal) m ρ c) (Proc.devRef (τ := Cert.KernelIdeal.τ) .tc Cert.KernelIdeal.main_v6) = (RA c m') (Proc.devRef (τ := Cert.ReferenceIdeal.τ) .tc Cert.ReferenceIdeal.main_v6) := pre_col (Cert.KernelIdeal.Gen.W0 (F := Ideal) m ρ c) (launchContents m' c) hA.a18.symm
theorem I3norm : (Cert.KernelIdeal.Gen.W3 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RA c m') (Proc.devRef (τ := Cert.ReferenceIdeal.τ) .tc Cert.ReferenceIdeal.main_v29)) := pre_norm (Cert.KernelIdeal.Gen.W0 (F := Ideal) m ρ c) (launchContents m' c) hA.a18.symm
theorem I4row : (Cert.KernelIdeal.Gen.W4 (F := Ideal) m ρ c) (Proc.devRef (τ := Cert.KernelIdeal.τ) .tc Cert.KernelIdeal.main_v3) = (RD0 c m') (Proc.devRef (τ := Cert.ReferenceIdeal.τ) .tc Cert.ReferenceIdeal.main_v3) := (Cert.KernelIdeal.Gen.W4_of_ne (F := Ideal) m ρ c Cert.KernelIdeal.main_v3 (by decide)).trans ((I3row m ρ c m' hA).trans (keepRD0 (RA c m') Cert.ReferenceIdeal.main_v3 (by decide)).symm)
theorem I4col : (Cert.KernelIdeal.Gen.W4 (F := Ideal) m ρ c) (Proc.devRef (τ := Cert.KernelIdeal.τ) .tc Cert.KernelIdeal.main_v6) = (RD0 c m') (Proc.devRef (τ := Cert.ReferenceIdeal.τ) .tc Cert.ReferenceIdeal.main_v6) := (Cert.KernelIdeal.Gen.W4_of_ne (F := Ideal) m ρ c Cert.KernelIdeal.main_v6 (by decide)).trans ((I3col m ρ c m' hA).trans (keepRD0 (RA c m') Cert.ReferenceIdeal.main_v6 (by decide)).symm)
theorem I4norm : (Cert.KernelIdeal.Gen.W4 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RD0 c m') (Proc.devRef (τ := Cert.ReferenceIdeal.τ) .tc Cert.ReferenceIdeal.main_v29)) :=
  (Cert.KernelIdeal.Gen.W4_of_ne (F := Ideal) m ρ c Cert.KernelIdeal.main_v30 (by decide)).trans ((I3norm m ρ c m' hA).trans (congrArg (fun x => broadcastInDim (s := Cert.ReferenceIdeal.S1310720) Cert.ReferenceIdeal.S1310720x1 ![0] Cert.ReferenceIdeal.Gen.bcast_S1310720_S1310720x1_0 (x)) (keepRD0 (RA c m') Cert.ReferenceIdeal.main_v29 (by decide)).symm))
theorem I5row : (Cert.KernelIdeal.Gen.W5 (F := Ideal) m ρ c) (Proc.devRef (τ := Cert.KernelIdeal.τ) .tc Cert.KernelIdeal.main_v3) = (RB1 c m') (Proc.devRef (τ := Cert.ReferenceIdeal.τ) .tc Cert.ReferenceIdeal.main_v3) := (keepK1 (Cert.KernelIdeal.Gen.W4 (F := Ideal) m ρ c) Cert.KernelIdeal.main_v3 (by decide)).trans ((I4row m ρ c m' hA).trans (keepRB1 (RD0 c m') Cert.ReferenceIdeal.main_v3 (by decide)).symm)
theorem I5col : (Cert.KernelIdeal.Gen.W5 (F := Ideal) m ρ c) (Proc.devRef (τ := Cert.KernelIdeal.τ) .tc Cert.KernelIdeal.main_v6) = (RB1 c m') (Proc.devRef (τ := Cert.ReferenceIdeal.τ) .tc Cert.ReferenceIdeal.main_v6) := (keepK1 (Cert.KernelIdeal.Gen.W4 (F := Ideal) m ρ c) Cert.KernelIdeal.main_v6 (by decide)).trans ((I4col m ρ c m' hA).trans (keepRB1 (RD0 c m') Cert.ReferenceIdeal.main_v6 (by decide)).symm)
theorem I5norm : (Cert.KernelIdeal.Gen.W5 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RB1 c m') (Proc.devRef (τ := Cert.ReferenceIdeal.τ) .tc Cert.ReferenceIdeal.main_v29)) :=
  (keepK1 (Cert.KernelIdeal.Gen.W4 (F := Ideal) m ρ c) Cert.KernelIdeal.main_v30 (by decide)).trans ((I4norm m ρ c m' hA).trans (congrArg (fun x => broadcastInDim (s := Cert.ReferenceIdeal.S1310720) Cert.ReferenceIdeal.S1310720x1 ![0] Cert.ReferenceIdeal.Gen.bcast_S1310720_S1310720x1_0 (x)) (keepRB1 (RD0 c m') Cert.ReferenceIdeal.main_v29 (by decide)).symm))
theorem I6row : (Cert.KernelIdeal.Gen.W6 (F := Ideal) m ρ c) (Proc.devRef (τ := Cert.KernelIdeal.τ) .tc Cert.KernelIdeal.main_v3) = (RD1 c m') (Proc.devRef (τ := Cert.ReferenceIdeal.τ) .tc Cert.ReferenceIdeal.main_v3) := (Cert.KernelIdeal.Gen.W6_of_ne (F := Ideal) m ρ c Cert.KernelIdeal.main_v3 (by decide)).trans ((I5row m ρ c m' hA).trans (keepRD1 (RB1 c m') Cert.ReferenceIdeal.main_v3 (by decide)).symm)
theorem I6col : (Cert.KernelIdeal.Gen.W6 (F := Ideal) m ρ c) (Proc.devRef (τ := Cert.KernelIdeal.τ) .tc Cert.KernelIdeal.main_v6) = (RD1 c m') (Proc.devRef (τ := Cert.ReferenceIdeal.τ) .tc Cert.ReferenceIdeal.main_v6) := (Cert.KernelIdeal.Gen.W6_of_ne (F := Ideal) m ρ c Cert.KernelIdeal.main_v6 (by decide)).trans ((I5col m ρ c m' hA).trans (keepRD1 (RB1 c m') Cert.ReferenceIdeal.main_v6 (by decide)).symm)
theorem I6norm : (Cert.KernelIdeal.Gen.W6 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RD1 c m') (Proc.devRef (τ := Cert.ReferenceIdeal.τ) .tc Cert.ReferenceIdeal.main_v29)) :=
  (Cert.KernelIdeal.Gen.W6_of_ne (F := Ideal) m ρ c Cert.KernelIdeal.main_v30 (by decide)).trans ((I5norm m ρ c m' hA).trans (congrArg (fun x => broadcastInDim (s := Cert.ReferenceIdeal.S1310720) Cert.ReferenceIdeal.S1310720x1 ![0] Cert.ReferenceIdeal.Gen.bcast_S1310720_S1310720x1_0 (x)) (keepRD1 (RB1 c m') Cert.ReferenceIdeal.main_v29 (by decide)).symm))
theorem I7row : (Cert.KernelIdeal.Gen.W7 (F := Ideal) m ρ c) (Proc.devRef (τ := Cert.KernelIdeal.τ) .tc Cert.KernelIdeal.main_v3) = (RB2 c m') (Proc.devRef (τ := Cert.ReferenceIdeal.τ) .tc Cert.ReferenceIdeal.main_v3) := (keepK2 (Cert.KernelIdeal.Gen.W6 (F := Ideal) m ρ c) Cert.KernelIdeal.main_v3 (by decide)).trans ((I6row m ρ c m' hA).trans (keepRB2 (RD1 c m') Cert.ReferenceIdeal.main_v3 (by decide)).symm)
theorem I7col : (Cert.KernelIdeal.Gen.W7 (F := Ideal) m ρ c) (Proc.devRef (τ := Cert.KernelIdeal.τ) .tc Cert.KernelIdeal.main_v6) = (RB2 c m') (Proc.devRef (τ := Cert.ReferenceIdeal.τ) .tc Cert.ReferenceIdeal.main_v6) := (keepK2 (Cert.KernelIdeal.Gen.W6 (F := Ideal) m ρ c) Cert.KernelIdeal.main_v6 (by decide)).trans ((I6col m ρ c m' hA).trans (keepRB2 (RD1 c m') Cert.ReferenceIdeal.main_v6 (by decide)).symm)
theorem I7norm : (Cert.KernelIdeal.Gen.W7 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RB2 c m') (Proc.devRef (τ := Cert.ReferenceIdeal.τ) .tc Cert.ReferenceIdeal.main_v29)) :=
  (keepK2 (Cert.KernelIdeal.Gen.W6 (F := Ideal) m ρ c) Cert.KernelIdeal.main_v30 (by decide)).trans ((I6norm m ρ c m' hA).trans (congrArg (fun x => broadcastInDim (s := Cert.ReferenceIdeal.S1310720) Cert.ReferenceIdeal.S1310720x1 ![0] Cert.ReferenceIdeal.Gen.bcast_S1310720_S1310720x1_0 (x)) (keepRB2 (RD1 c m') Cert.ReferenceIdeal.main_v29 (by decide)).symm))
theorem I8row : (Cert.KernelIdeal.Gen.W8 (F := Ideal) m ρ c) (Proc.devRef (τ := Cert.KernelIdeal.τ) .tc Cert.KernelIdeal.main_v3) = (RD2 c m') (Proc.devRef (τ := Cert.ReferenceIdeal.τ) .tc Cert.ReferenceIdeal.main_v3) := (Cert.KernelIdeal.Gen.W8_of_ne (F := Ideal) m ρ c Cert.KernelIdeal.main_v3 (by decide)).trans ((I7row m ρ c m' hA).trans (keepRD2 (RB2 c m') Cert.ReferenceIdeal.main_v3 (by decide)).symm)
theorem I8col : (Cert.KernelIdeal.Gen.W8 (F := Ideal) m ρ c) (Proc.devRef (τ := Cert.KernelIdeal.τ) .tc Cert.KernelIdeal.main_v6) = (RD2 c m') (Proc.devRef (τ := Cert.ReferenceIdeal.τ) .tc Cert.ReferenceIdeal.main_v6) := (Cert.KernelIdeal.Gen.W8_of_ne (F := Ideal) m ρ c Cert.KernelIdeal.main_v6 (by decide)).trans ((I7col m ρ c m' hA).trans (keepRD2 (RB2 c m') Cert.ReferenceIdeal.main_v6 (by decide)).symm)
theorem I8norm : (Cert.KernelIdeal.Gen.W8 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RD2 c m') (Proc.devRef (τ := Cert.ReferenceIdeal.τ) .tc Cert.ReferenceIdeal.main_v29)) :=
  (Cert.KernelIdeal.Gen.W8_of_ne (F := Ideal) m ρ c Cert.KernelIdeal.main_v30 (by decide)).trans ((I7norm m ρ c m' hA).trans (congrArg (fun x => broadcastInDim (s := Cert.ReferenceIdeal.S1310720) Cert.ReferenceIdeal.S1310720x1 ![0] Cert.ReferenceIdeal.Gen.bcast_S1310720_S1310720x1_0 (x)) (keepRD2 (RB2 c m') Cert.ReferenceIdeal.main_v29 (by decide)).symm))
theorem I9row : (Cert.KernelIdeal.Gen.W9 (F := Ideal) m ρ c) (Proc.devRef (τ := Cert.KernelIdeal.τ) .tc Cert.KernelIdeal.main_v3) = (RB3 c m') (Proc.devRef (τ := Cert.ReferenceIdeal.τ) .tc Cert.ReferenceIdeal.main_v3) := (keepK3 (Cert.KernelIdeal.Gen.W8 (F := Ideal) m ρ c) Cert.KernelIdeal.main_v3 (by decide)).trans ((I8row m ρ c m' hA).trans (keepRB3 (RD2 c m') Cert.ReferenceIdeal.main_v3 (by decide)).symm)
theorem I9col : (Cert.KernelIdeal.Gen.W9 (F := Ideal) m ρ c) (Proc.devRef (τ := Cert.KernelIdeal.τ) .tc Cert.KernelIdeal.main_v6) = (RB3 c m') (Proc.devRef (τ := Cert.ReferenceIdeal.τ) .tc Cert.ReferenceIdeal.main_v6) := (keepK3 (Cert.KernelIdeal.Gen.W8 (F := Ideal) m ρ c) Cert.KernelIdeal.main_v6 (by decide)).trans ((I8col m ρ c m' hA).trans (keepRB3 (RD2 c m') Cert.ReferenceIdeal.main_v6 (by decide)).symm)
theorem I9norm : (Cert.KernelIdeal.Gen.W9 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RB3 c m') (Proc.devRef (τ := Cert.ReferenceIdeal.τ) .tc Cert.ReferenceIdeal.main_v29)) :=
  (keepK3 (Cert.KernelIdeal.Gen.W8 (F := Ideal) m ρ c) Cert.KernelIdeal.main_v30 (by decide)).trans ((I8norm m ρ c m' hA).trans (congrArg (fun x => broadcastInDim (s := Cert.ReferenceIdeal.S1310720) Cert.ReferenceIdeal.S1310720x1 ![0] Cert.ReferenceIdeal.Gen.bcast_S1310720_S1310720x1_0 (x)) (keepRB3 (RD2 c m') Cert.ReferenceIdeal.main_v29 (by decide)).symm))
theorem I10row : (Cert.KernelIdeal.Gen.W10 (F := Ideal) m ρ c) (Proc.devRef (τ := Cert.KernelIdeal.τ) .tc Cert.KernelIdeal.main_v3) = (RD3 c m') (Proc.devRef (τ := Cert.ReferenceIdeal.τ) .tc Cert.ReferenceIdeal.main_v3) := (Cert.KernelIdeal.Gen.W10_of_ne (F := Ideal) m ρ c Cert.KernelIdeal.main_v3 (by decide)).trans ((I9row m ρ c m' hA).trans (keepRD3 (RB3 c m') Cert.ReferenceIdeal.main_v3 (by decide)).symm)
theorem I10col : (Cert.KernelIdeal.Gen.W10 (F := Ideal) m ρ c) (Proc.devRef (τ := Cert.KernelIdeal.τ) .tc Cert.KernelIdeal.main_v6) = (RD3 c m') (Proc.devRef (τ := Cert.ReferenceIdeal.τ) .tc Cert.ReferenceIdeal.main_v6) := (Cert.KernelIdeal.Gen.W10_of_ne (F := Ideal) m ρ c Cert.KernelIdeal.main_v6 (by decide)).trans ((I9col m ρ c m' hA).trans (keepRD3 (RB3 c m') Cert.ReferenceIdeal.main_v6 (by decide)).symm)
theorem I10norm : (Cert.KernelIdeal.Gen.W10 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RD3 c m') (Proc.devRef (τ := Cert.ReferenceIdeal.τ) .tc Cert.ReferenceIdeal.main_v29)) :=
  (Cert.KernelIdeal.Gen.W10_of_ne (F := Ideal) m ρ c Cert.KernelIdeal.main_v30 (by decide)).trans ((I9norm m ρ c m' hA).trans (congrArg (fun x => broadcastInDim (s := Cert.ReferenceIdeal.S1310720) Cert.ReferenceIdeal.S1310720x1 ![0] Cert.ReferenceIdeal.Gen.bcast_S1310720_S1310720x1_0 (x)) (keepRD3 (RB3 c m') Cert.ReferenceIdeal.main_v29 (by decide)).symm))
theorem I11row : (Cert.KernelIdeal.Gen.W11 (F := Ideal) m ρ c) (Proc.devRef (τ := Cert.KernelIdeal.τ) .tc Cert.KernelIdeal.main_v3) = (RB4 c m') (Proc.devRef (τ := Cert.ReferenceIdeal.τ) .tc Cert.ReferenceIdeal.main_v3) := (keepK4 (Cert.KernelIdeal.Gen.W10 (F := Ideal) m ρ c) Cert.KernelIdeal.main_v3 (by decide)).trans ((I10row m ρ c m' hA).trans (keepRB4 (RD3 c m') Cert.ReferenceIdeal.main_v3 (by decide)).symm)
theorem I11col : (Cert.KernelIdeal.Gen.W11 (F := Ideal) m ρ c) (Proc.devRef (τ := Cert.KernelIdeal.τ) .tc Cert.KernelIdeal.main_v6) = (RB4 c m') (Proc.devRef (τ := Cert.ReferenceIdeal.τ) .tc Cert.ReferenceIdeal.main_v6) := (keepK4 (Cert.KernelIdeal.Gen.W10 (F := Ideal) m ρ c) Cert.KernelIdeal.main_v6 (by decide)).trans ((I10col m ρ c m' hA).trans (keepRB4 (RD3 c m') Cert.ReferenceIdeal.main_v6 (by decide)).symm)
theorem I11norm : (Cert.KernelIdeal.Gen.W11 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RB4 c m') (Proc.devRef (τ := Cert.ReferenceIdeal.τ) .tc Cert.ReferenceIdeal.main_v29)) :=
  (keepK4 (Cert.KernelIdeal.Gen.W10 (F := Ideal) m ρ c) Cert.KernelIdeal.main_v30 (by decide)).trans ((I10norm m ρ c m' hA).trans (congrArg (fun x => broadcastInDim (s := Cert.ReferenceIdeal.S1310720) Cert.ReferenceIdeal.S1310720x1 ![0] Cert.ReferenceIdeal.Gen.bcast_S1310720_S1310720x1_0 (x)) (keepRB4 (RD3 c m') Cert.ReferenceIdeal.main_v29 (by decide)).symm))
theorem I12row : (Cert.KernelIdeal.Gen.W12 (F := Ideal) m ρ c) (Proc.devRef (τ := Cert.KernelIdeal.τ) .tc Cert.KernelIdeal.main_v3) = (RD4 c m') (Proc.devRef (τ := Cert.ReferenceIdeal.τ) .tc Cert.ReferenceIdeal.main_v3) := (Cert.KernelIdeal.Gen.W12_of_ne (F := Ideal) m ρ c Cert.KernelIdeal.main_v3 (by decide)).trans ((I11row m ρ c m' hA).trans (keepRD4 (RB4 c m') Cert.ReferenceIdeal.main_v3 (by decide)).symm)
theorem I12col : (Cert.KernelIdeal.Gen.W12 (F := Ideal) m ρ c) (Proc.devRef (τ := Cert.KernelIdeal.τ) .tc Cert.KernelIdeal.main_v6) = (RD4 c m') (Proc.devRef (τ := Cert.ReferenceIdeal.τ) .tc Cert.ReferenceIdeal.main_v6) := (Cert.KernelIdeal.Gen.W12_of_ne (F := Ideal) m ρ c Cert.KernelIdeal.main_v6 (by decide)).trans ((I11col m ρ c m' hA).trans (keepRD4 (RB4 c m') Cert.ReferenceIdeal.main_v6 (by decide)).symm)
theorem I12norm : (Cert.KernelIdeal.Gen.W12 (F := Ideal) m ρ c) (Proc.devRef (τ := Cert.KernelIdeal.τ) .tc Cert.KernelIdeal.main_v30) = broadcastInDim (s := Cert.ReferenceIdeal.S1310720) Cert.ReferenceIdeal.S1310720x1 ![0] Cert.ReferenceIdeal.Gen.bcast_S1310720_S1310720x1_0 ((RD4 c m') (Proc.devRef (τ := Cert.ReferenceIdeal.τ) .tc Cert.ReferenceIdeal.main_v29)) :=
  (Cert.KernelIdeal.Gen.W12_of_ne (F := Ideal) m ρ c Cert.KernelIdeal.main_v30 (by decide)).trans ((I11norm m ρ c m' hA).trans (congrArg (fun x => broadcastInDim (s := Cert.ReferenceIdeal.S1310720) Cert.ReferenceIdeal.S1310720x1 ![0] Cert.ReferenceIdeal.Gen.bcast_S1310720_S1310720x1_0 (x)) (keepRD4 (RB4 c m') Cert.ReferenceIdeal.main_v29 (by decide)).symm))

/-! ## The stages -/
theorem S4 : (Cert.KernelIdeal.Gen.W4 (F := Ideal) m ρ c) (Proc.devRef (τ := Cert.KernelIdeal.τ) .tc Cert.KernelIdeal.main_v31) = (RD0 c m') (Proc.devRef (τ := Cert.ReferenceIdeal.τ) .tc Cert.ReferenceIdeal.main_v30) :=
  ((Cert.KernelIdeal.Gen.W4_arr (F := Ideal) m ρ c 2).trans (Cert.KernelIdeal.Stage0.result (Cert.KernelIdeal.Gen.V3 (F := Ideal) m ρ) c)).trans
    ((congr2 Cert.Dense.linear1 ((K3a0 m ρ c m' hA).trans (hA.a0.symm.trans (R3a0 m ρ c m' hA).symm)) ((K3a2 m ρ c m' hA).trans (hA.a2.symm.trans (R3a2 m ρ c m' hA).symm))).trans (dR0 (RA c m')).symm)
theorem S5 : (Cert.KernelIdeal.Gen.W5 (F := Ideal) m ρ c) (Proc.devRef (τ := Cert.KernelIdeal.τ) .tc Cert.KernelIdeal.main_v43) = (RB1 c m') (Proc.devRef (τ := Cert.ReferenceIdeal.τ) .tc Cert.ReferenceIdeal.main_v43) := agg1 (Cert.KernelIdeal.Gen.W4 (F := Ideal) m ρ c) (RD0 c m') (I4row m ρ c m' hA) (I4col m ρ c m' hA) (I4norm m ρ c m' hA) (S4 m ρ c m' hA)
theorem B5 : (Cert.KernelIdeal.Gen.W5 (F := Ideal) m ρ c) (Proc.devRef (τ := Cert.KernelIdeal.τ) .tc Cert.KernelIdeal.main_v44) = shapeCast Cert.KernelIdeal.S1x128 (m ((c.tc : Thread Cert.KernelIdeal.nD Cert.KernelIdeal.τ).loc Cert.KernelIdeal.main_arg3)) Cert.KernelIdeal.Gen.shapeCasts_S128_S1x128 :=
  (bias1 (Cert.KernelIdeal.Gen.W4 (F := Ideal) m ρ c)).trans (congrArg (fun x => shapeCast Cert.KernelIdeal.S1x128 x Cert.KernelIdeal.Gen.shapeCasts_S128_S1x128) (K4a3 m ρ c m' hA))
theorem hb5 (k : Fin 128) : (Cert.KernelIdeal.Gen.V5 (F := Ideal) m ρ) c Cert.KernelIdeal.main_v44 (ix2 (0 : Fin 1) k) = (m ((c.tc : Thread Cert.KernelIdeal.nD Cert.KernelIdeal.τ).loc Cert.KernelIdeal.main_arg3)) (ix1 k) :=
  (congrFun (B5 m ρ c m' hA) (ix2 (0 : Fin 1) k)).trans (row_apply _ k)

theorem S6 : (Cert.KernelIdeal.Gen.W6 (F := Ideal) m ρ c) (Proc.devRef (τ := Cert.KernelIdeal.τ) .tc Cert.KernelIdeal.main_v45) = (RD1 c m') (Proc.devRef (τ := Cert.ReferenceIdeal.τ) .tc Cert.ReferenceIdeal.main_v48) :=
  ((Cert.KernelIdeal.Gen.W6_arr (F := Ideal) m ρ c 3).trans (Cert.KernelIdeal.Stage1.result (Cert.KernelIdeal.Gen.V5 (F := Ideal) m ρ) c _ (hb5 m ρ c m' hA))).trans
    ((congr3 Cert.Dense.reluLinear (S5 m ρ c m' hA) (hA.a3.symm.trans (R5a3 m ρ c m' hA).symm) ((K5a4 m ρ c m' hA).trans (hA.a4.symm.trans (R5a4 m ρ c m' hA).symm))).trans (dR1 (RB1 c m')).symm)
theorem S7 : (Cert.KernelIdeal.Gen.W7 (F := Ideal) m ρ c) (Proc.devRef (τ := Cert.KernelIdeal.τ) .tc Cert.KernelIdeal.main_v57) = (RB2 c m') (Proc.devRef (τ := Cert.ReferenceIdeal.τ) .tc Cert.ReferenceIdeal.main_v61) := agg2 (Cert.KernelIdeal.Gen.W6 (F := Ideal) m ρ c) (RD1 c m') (I6row m ρ c m' hA) (I6col m ρ c m' hA) (I6norm m ρ c m' hA) (S6 m ρ c m' hA)
theorem B7 : (Cert.KernelIdeal.Gen.W7 (F := Ideal) m ρ c) (Proc.devRef (τ := Cert.KernelIdeal.τ) .tc Cert.KernelIdeal.main_v58) = shapeCast Cert.KernelIdeal.S1x128 (m ((c.tc : Thread Cert.KernelIdeal.nD Cert.KernelIdeal.τ).loc Cert.KernelIdeal.main_arg5)) Cert.KernelIdeal.Gen.shapeCasts_S128_S1x128 :=
  (bias2 (Cert.KernelIdeal.Gen.W6 (F := Ideal) m ρ c)).trans (congrArg (fun x => shapeCast Cert.KernelIdeal.S1x128 x Cert.KernelIdeal.Gen.shapeCasts_S128_S1x128) (K6a5 m ρ c m' hA))
theorem hb7 (k : Fin 128) : (Cert.KernelIdeal.Gen.V7 (F := Ideal) m ρ) c Cert.KernelIdeal.main_v58 (ix2 (0 : Fin 1) k) = (m ((c.tc : Thread Cert.KernelIdeal.nD Cert.KernelIdeal.τ).loc Cert.KernelIdeal.main_arg5)) (ix1 k) :=
  (congrFun (B7 m ρ c m' hA) (ix2 (0 : Fin 1) k)).trans (row_apply _ k)

theorem S8 : (Cert.KernelIdeal.Gen.W8 (F := Ideal) m ρ c) (Proc.devRef (τ := Cert.KernelIdeal.τ) .tc Cert.KernelIdeal.main_v59) = (RD2 c m') (Proc.devRef (τ := Cert.ReferenceIdeal.τ) .tc Cert.ReferenceIdeal.main_v65) :=
  ((Cert.KernelIdeal.Gen.W8_arr (F := Ideal) m ρ c 2).trans (Cert.KernelIdeal.Stage2.result (Cert.KernelIdeal.Gen.V7 (F := Ideal) m ρ) c _ (hb7 m ρ c m' hA))).trans
    ((congr2 Cert.Dense.biasRelu (S7 m ρ c m' hA) (hA.a5.symm.trans (R7a5 m ρ c m' hA).symm)).trans (dR2 (RB2 c m')).symm)
theorem S9mu : (Cert.KernelIdeal.Gen.W9 (F := Ideal) m ρ c) (Proc.devRef (τ := Cert.KernelIdeal.τ) .tc Cert.KernelIdeal.main_v73) = (RB3 c m') (Proc.devRef (τ := Cert.ReferenceIdeal.τ) .tc Cert.ReferenceIdeal.main_v79) :=
  pool_mu (Cert.KernelIdeal.Gen.W8 (F := Ideal) m ρ c) (RD2 c m') (S8 m ρ c m' hA) ((K8a19 m ρ c m' hA).trans (hA.a19.symm.trans (R8a19 m ρ c m' hA).symm)) ((K8a6 m ρ c m' hA).trans (hA.a6.symm.trans (R8a6 m ρ c m' hA).symm)) ((K8a7 m ρ c m' hA).trans (hA.a7.symm.trans (R8a7 m ρ c m' hA).symm)) ((K8a8 m ρ c m' hA).trans (hA.a8.symm.trans (R8a8 m ρ c m' hA).symm)) ((K8a9 m ρ c m' hA).trans (hA.a9.symm.trans (R8a9 m ρ c m' hA).symm)) ((K8a1 m ρ c m' hA).trans (hA.a1.symm.trans (R8a1 m ρ c m' hA).symm)) ((K8a10 m ρ c m' hA).trans (hA.a10.symm.trans (R8a10 m ρ c m' hA).symm)) ((K8a11 m ρ c m' hA).trans (hA.a11.symm.trans (R8a11 m ρ c m' hA).symm))
theorem S9logvar : (Cert.KernelIdeal.Gen.W9 (F := Ideal) m ρ c) (Proc.devRef (τ := Cert.KernelIdeal.τ) .tc Cert.KernelIdeal.main_v77) = (RB3 c m') (Proc.devRef (τ := Cert.ReferenceIdeal.τ) .tc Cert.ReferenceIdeal.main_v83) :=
  pool_logvar (Cert.KernelIdeal.Gen.W8 (F := Ideal) m ρ c) (RD2 c m') (S8 m ρ c m' hA) ((K8a19 m ρ c m' hA).trans (hA.a19.symm.trans (R8a19 m ρ c m' hA).symm)) ((K8a6 m ρ c m' hA).trans (hA.a6.symm.trans (R8a6 m ρ c m' hA).symm)) ((K8a7 m ρ c m' hA).trans (hA.a7.symm.trans (R8a7 m ρ c m' hA).symm)) ((K8a8 m ρ c m' hA).trans (hA.a8.symm.trans (R8a8 m ρ c m' hA).symm)) ((K8a9 m ρ c m' hA).trans (hA.a9.symm.trans (R8a9 m ρ c m' hA).symm)) ((K8a1 m ρ c m' hA).trans (hA.a1.symm.trans (R8a1 m ρ c m' hA).symm)) ((K8a10 m ρ c m' hA).trans (hA.a10.symm.trans (R8a10 m ρ c m' hA).symm)) ((K8a11 m ρ c m' hA).trans (hA.a11.symm.trans (R8a11 m ρ c m' hA).symm))
theorem S9z : (Cert.KernelIdeal.Gen.W9 (F := Ideal) m ρ c) (Proc.devRef (τ := Cert.KernelIdeal.τ) .tc Cert.KernelIdeal.main_v82) = (RB3 c m') (Proc.devRef (τ := Cert.ReferenceIdeal.τ) .tc Cert.ReferenceIdeal.main_v88) :=
  pool_z (Cert.KernelIdeal.Gen.W8 (F := Ideal) m ρ c) (RD2 c m') (S8 m ρ c m' hA) ((K8a19 m ρ c m' hA).trans (hA.a19.symm.trans (R8a19 m ρ c m' hA).symm)) ((K8a6 m ρ c m' hA).trans (hA.a6.symm.trans (R8a6 m ρ c m' hA).symm)) ((K8a7 m ρ c m' hA).trans (hA.a7.symm.trans (R8a7 m ρ c m' hA).symm)) ((K8a8 m ρ c m' hA).trans (hA.a8.symm.trans (R8a8 m ρ c m' hA).symm)) ((K8a9 m ρ c m' hA).trans (hA.a9.symm.trans (R8a9 m ρ c m' hA).symm)) ((K8a1 m ρ c m' hA).trans (hA.a1.symm.trans (R8a1 m ρ c m' hA).symm)) ((K8a10 m ρ c m' hA).trans (hA.a10.symm.trans (R8a10 m ρ c m' hA).symm)) ((K8a11 m ρ c m' hA).trans (hA.a11.symm.trans (R8a11 m ρ c m' hA).symm))
theorem S9hd0 : (Cert.KernelIdeal.Gen.W9 (F := Ideal) m ρ c) (Proc.devRef (τ := Cert.KernelIdeal.τ) .tc Cert.KernelIdeal.main_v93) = (RB3 c m') (Proc.devRef (τ := Cert.ReferenceIdeal.τ) .tc Cert.ReferenceIdeal.main_v99) :=
  pool_hd0 (Cert.KernelIdeal.Gen.W8 (F := Ideal) m ρ c) (RD2 c m') (S8 m ρ c m' hA) ((K8a19 m ρ c m' hA).trans (hA.a19.symm.trans (R8a19 m ρ c m' hA).symm)) ((K8a6 m ρ c m' hA).trans (hA.a6.symm.trans (R8a6 m ρ c m' hA).symm)) ((K8a7 m ρ c m' hA).trans (hA.a7.symm.trans (R8a7 m ρ c m' hA).symm)) ((K8a8 m ρ c m' hA).trans (hA.a8.symm.trans (R8a8 m ρ c m' hA).symm)) ((K8a9 m ρ c m' hA).trans (hA.a9.symm.trans (R8a9 m ρ c m' hA).symm)) ((K8a1 m ρ c m' hA).trans (hA.a1.symm.trans (R8a1 m ρ c m' hA).symm)) ((K8a10 m ρ c m' hA).trans (hA.a10.symm.trans (R8a10 m ρ c m' hA).symm)) ((K8a11 m ρ c m' hA).trans (hA.a11.symm.trans (R8a11 m ρ c m' hA).symm))
theorem S10 : (Cert.KernelIdeal.Gen.W10 (F := Ideal) m ρ c) (Proc.devRef (τ := Cert.KernelIdeal.τ) .tc Cert.KernelIdeal.main_v94) = (RD3 c m') (Proc.devRef (τ := Cert.ReferenceIdeal.τ) .tc Cert.ReferenceIdeal.main_v100) :=
  ((Cert.KernelIdeal.Gen.W10_arr (F := Ideal) m ρ c 2).trans (Cert.KernelIdeal.Stage3.result (Cert.KernelIdeal.Gen.V9 (F := Ideal) m ρ) c)).trans
    ((congr2 Cert.Dense.linear (S9hd0 m ρ c m' hA) ((K9a12 m ρ c m' hA).trans (hA.a12.symm.trans (R9a12 m ρ c m' hA).symm))).trans (dR3 (RB3 c m')).symm)
theorem S11 : (Cert.KernelIdeal.Gen.W11 (F := Ideal) m ρ c) (Proc.devRef (τ := Cert.KernelIdeal.τ) .tc Cert.KernelIdeal.main_v106) = (RB4 c m') (Proc.devRef (τ := Cert.ReferenceIdeal.τ) .tc Cert.ReferenceIdeal.main_v113) := agg4 (Cert.KernelIdeal.Gen.W10 (F := Ideal) m ρ c) (RD3 c m') (I10row m ρ c m' hA) (I10col m ρ c m' hA) (I10norm m ρ c m' hA) (S10 m ρ c m' hA)
theorem B11 : (Cert.KernelIdeal.Gen.W11 (F := Ideal) m ρ c) (Proc.devRef (τ := Cert.KernelIdeal.τ) .tc Cert.KernelIdeal.main_v107) = shapeCast Cert.KernelIdeal.S1x128 (m ((c.tc : Thread Cert.KernelIdeal.nD Cert.KernelIdeal.τ).loc Cert.KernelIdeal.main_arg13)) Cert.KernelIdeal.Gen.shapeCasts_S128_S1x128 :=
  (bias4 (Cert.KernelIdeal.Gen.W10 (F := Ideal) m ρ c)).trans (congrArg (fun x => shapeCast Cert.KernelIdeal.S1x128 x Cert.KernelIdeal.Gen.shapeCasts_S128_S1x128) (K10a13 m ρ c m' hA))
theorem hb11 (k : Fin 128) : (Cert.KernelIdeal.Gen.V11 (F := Ideal) m ρ) c Cert.KernelIdeal.main_v107 (ix2 (0 : Fin 1) k) = (m ((c.tc : Thread Cert.KernelIdeal.nD Cert.KernelIdeal.τ).loc Cert.KernelIdeal.main_arg13)) (ix1 k) :=
  (congrFun (B11 m ρ c m' hA) (ix2 (0 : Fin 1) k)).trans (row_apply _ k)

theorem S12 : (Cert.KernelIdeal.Gen.W12 (F := Ideal) m ρ c) (Proc.devRef (τ := Cert.KernelIdeal.τ) .tc Cert.KernelIdeal.main_v108) = (RD4 c m') (Proc.devRef (τ := Cert.ReferenceIdeal.τ) .tc Cert.ReferenceIdeal.main_v118) :=
  ((Cert.KernelIdeal.Gen.W12_arr (F := Ideal) m ρ c 3).trans (Cert.KernelIdeal.Stage4.result (Cert.KernelIdeal.Gen.V11 (F := Ideal) m ρ) c _ (hb11 m ρ c m' hA))).trans
    ((congr3 Cert.Dense.reluLinear (S11 m ρ c m' hA) (hA.a13.symm.trans (R11a13 m ρ c m' hA).symm) ((K11a14 m ρ c m' hA).trans (hA.a14.symm.trans (R11a14 m ρ c m' hA).symm))).trans (dR4 (RB4 c m')).symm)
theorem S13 : (Cert.KernelIdeal.Gen.W13 (F := Ideal) m ρ c) (Proc.devRef (τ := Cert.KernelIdeal.τ) .tc Cert.KernelIdeal.main_v120) = (RB5 c m') (Proc.devRef (τ := Cert.ReferenceIdeal.τ) .tc Cert.ReferenceIdeal.main_v131) := agg5 (Cert.KernelIdeal.Gen.W12 (F := Ideal) m ρ c) (RD4 c m') (I12row m ρ c m' hA) (I12col m ρ c m' hA) (I12norm m ρ c m' hA) (S12 m ρ c m' hA)
theorem B13 : (Cert.KernelIdeal.Gen.W13 (F := Ideal) m ρ c) (Proc.devRef (τ := Cert.KernelIdeal.τ) .tc Cert.KernelIdeal.main_v121) = shapeCast Cert.KernelIdeal.S1x128 (m ((c.tc : Thread Cert.KernelIdeal.nD Cert.KernelIdeal.τ).loc Cert.KernelIdeal.main_arg15)) Cert.KernelIdeal.Gen.shapeCasts_S128_S1x128 :=
  (bias5 (Cert.KernelIdeal.Gen.W12 (F := Ideal) m ρ c)).trans (congrArg (fun x => shapeCast Cert.KernelIdeal.S1x128 x Cert.KernelIdeal.Gen.shapeCasts_S128_S1x128) (K12a15 m ρ c m' hA))
theorem hb13 (k : Fin 128) : (Cert.KernelIdeal.Gen.V13 (F := Ideal) m ρ) c Cert.KernelIdeal.main_v121 (ix2 (0 : Fin 1) k) = (m ((c.tc : Thread Cert.KernelIdeal.nD Cert.KernelIdeal.τ).loc Cert.KernelIdeal.main_arg15)) (ix1 k) :=
  (congrFun (B13 m ρ c m' hA) (ix2 (0 : Fin 1) k)).trans (row_apply _ k)

theorem B13o : (Cert.KernelIdeal.Gen.W13 (F := Ideal) m ρ c) (Proc.devRef (τ := Cert.KernelIdeal.τ) .tc Cert.KernelIdeal.main_v122) = shapeCast Cert.KernelIdeal.S1x1 (m ((c.tc : Thread Cert.KernelIdeal.nD Cert.KernelIdeal.τ).loc Cert.KernelIdeal.main_arg17)) Cert.KernelIdeal.Gen.shapeCasts_S1_S1x1 :=
  (bias5out (Cert.KernelIdeal.Gen.W12 (F := Ideal) m ρ c)).trans (congrArg (fun x => shapeCast Cert.KernelIdeal.S1x1 x Cert.KernelIdeal.Gen.shapeCasts_S1_S1x1) (K12a17 m ρ c m' hA))
theorem hob13 (q : Fin 1) : (Cert.KernelIdeal.Gen.V13 (F := Ideal) m ρ) c Cert.KernelIdeal.main_v122 (ix2 (0 : Fin 1) q) = (m ((c.tc : Thread Cert.KernelIdeal.nD Cert.KernelIdeal.τ).loc Cert.KernelIdeal.main_arg17)) (ix1 q) :=
  (congrFun (B13o m ρ c m' hA) (ix2 (0 : Fin 1) q)).trans (one_apply _ q)
theorem S14 : (Cert.KernelIdeal.Gen.W14 (F := Ideal) m ρ c) (Proc.devRef (τ := Cert.KernelIdeal.τ) .tc Cert.KernelIdeal.main_v123) = (RD5 c m') (Proc.devRef (τ := Cert.ReferenceIdeal.τ) .tc Cert.ReferenceIdeal.main_v140) :=
  ((Cert.KernelIdeal.Gen.W14_arr (F := Ideal) m ρ c 4).trans (Cert.KernelIdeal.Stage5.result (Cert.KernelIdeal.Gen.V13 (F := Ideal) m ρ) c _ _ (hb13 m ρ c m' hA) (hob13 m ρ c m' hA))).trans
    ((congr4 Cert.Dense.reluLinearTanh (S13 m ρ c m' hA) (hA.a15.symm.trans (R13a15 m ρ c m' hA).symm) ((K13a16 m ρ c m' hA).trans (hA.a16.symm.trans (R13a16 m ρ c m' hA).symm)) (hA.a17.symm.trans (R13a17 m ρ c m' hA).symm)).trans (dR5 (RB5 c m')).symm)
theorem S15 : (Cert.KernelIdeal.Gen.W15 (F := Ideal) m ρ c) (Proc.devRef (τ := Cert.KernelIdeal.τ) .tc Cert.KernelIdeal.main_v124) = (RB6 c m') (Proc.devRef (τ := Cert.ReferenceIdeal.τ) .tc Cert.ReferenceIdeal.main_v141) := recon (Cert.KernelIdeal.Gen.W14 (F := Ideal) m ρ c) (RD5 c m') (S14 m ρ c m' hA)

/-! ## The latent results, carried to the end -/
theorem I10mu : (Cert.KernelIdeal.Gen.W10 (F := Ideal) m ρ c) (Proc.devRef (τ := Cert.KernelIdeal.τ) .tc Cert.KernelIdeal.main_v73) = (RD3 c m') (Proc.devRef (τ := Cert.ReferenceIdeal.τ) .tc Cert.ReferenceIdeal.main_v79) := (Cert.KernelIdeal.Gen.W10_of_ne (F := Ideal) m ρ c Cert.KernelIdeal.main_v73 (by decide)).trans ((S9mu m ρ c m' hA).trans (keepRD3 (RB3 c m') Cert.ReferenceIdeal.main_v79 (by decide)).symm)
theorem I11mu : (Cert.KernelIdeal.Gen.W11 (F := Ideal) m ρ c) (Proc.devRef (τ := Cert.KernelIdeal.τ) .tc Cert.KernelIdeal.main_v73) = (RB4 c m') (Proc.devRef (τ := Cert.ReferenceIdeal.τ) .tc Cert.ReferenceIdeal.main_v79) := (keepK4 (Cert.KernelIdeal.Gen.W10 (F := Ideal) m ρ c) Cert.KernelIdeal.main_v73 (by decide)).trans ((I10mu m ρ c m' hA).trans (keepRB4 (RD3 c m') Cert.ReferenceIdeal.main_v79 (by decide)).symm)
theorem I12mu : (Cert.KernelIdeal.Gen.W12 (F := Ideal) m ρ c) (Proc.devRef (τ := Cert.KernelIdeal.τ) .tc Cert.KernelIdeal.main_v73) = (RD4 c m') (Proc.devRef (τ := Cert.ReferenceIdeal.τ) .tc Cert.ReferenceIdeal.main_v79) := (Cert.KernelIdeal.Gen.W12_of_ne (F := Ideal) m ρ c Cert.KernelIdeal.main_v73 (by decide)).trans ((I11mu m ρ c m' hA).trans (keepRD4 (RB4 c m') Cert.ReferenceIdeal.main_v79 (by decide)).symm)
theorem I13mu : (Cert.KernelIdeal.Gen.W13 (F := Ideal) m ρ c) (Proc.devRef (τ := Cert.KernelIdeal.τ) .tc Cert.KernelIdeal.main_v73) = (RB5 c m') (Proc.devRef (τ := Cert.ReferenceIdeal.τ) .tc Cert.ReferenceIdeal.main_v79) := (keepK5 (Cert.KernelIdeal.Gen.W12 (F := Ideal) m ρ c) Cert.KernelIdeal.main_v73 (by decide)).trans ((I12mu m ρ c m' hA).trans (keepRB5 (RD4 c m') Cert.ReferenceIdeal.main_v79 (by decide)).symm)
theorem I14mu : (Cert.KernelIdeal.Gen.W14 (F := Ideal) m ρ c) (Proc.devRef (τ := Cert.KernelIdeal.τ) .tc Cert.KernelIdeal.main_v73) = (RD5 c m') (Proc.devRef (τ := Cert.ReferenceIdeal.τ) .tc Cert.ReferenceIdeal.main_v79) := (Cert.KernelIdeal.Gen.W14_of_ne (F := Ideal) m ρ c Cert.KernelIdeal.main_v73 (by decide)).trans ((I13mu m ρ c m' hA).trans (keepRD5 (RB5 c m') Cert.ReferenceIdeal.main_v79 (by decide)).symm)
theorem I15mu : (Cert.KernelIdeal.Gen.W15 (F := Ideal) m ρ c) (Proc.devRef (τ := Cert.KernelIdeal.τ) .tc Cert.KernelIdeal.main_v73) = (RB6 c m') (Proc.devRef (τ := Cert.ReferenceIdeal.τ) .tc Cert.ReferenceIdeal.main_v79) := (keepK6 (Cert.KernelIdeal.Gen.W14 (F := Ideal) m ρ c) Cert.KernelIdeal.main_v73 (by decide)).trans ((I14mu m ρ c m' hA).trans (keepRB6 (RD5 c m') Cert.ReferenceIdeal.main_v79 (by decide)).symm)
theorem I10logvar : (Cert.KernelIdeal.Gen.W10 (F := Ideal) m ρ c) (Proc.devRef (τ := Cert.KernelIdeal.τ) .tc Cert.KernelIdeal.main_v77) = (RD3 c m') (Proc.devRef (τ := Cert.ReferenceIdeal.τ) .tc Cert.ReferenceIdeal.main_v83) := (Cert.KernelIdeal.Gen.W10_of_ne (F := Ideal) m ρ c Cert.KernelIdeal.main_v77 (by decide)).trans ((S9logvar m ρ c m' hA).trans (keepRD3 (RB3 c m') Cert.ReferenceIdeal.main_v83 (by decide)).symm)
theorem I11logvar : (Cert.KernelIdeal.Gen.W11 (F := Ideal) m ρ c) (Proc.devRef (τ := Cert.KernelIdeal.τ) .tc Cert.KernelIdeal.main_v77) = (RB4 c m') (Proc.devRef (τ := Cert.ReferenceIdeal.τ) .tc Cert.ReferenceIdeal.main_v83) := (keepK4 (Cert.KernelIdeal.Gen.W10 (F := Ideal) m ρ c) Cert.KernelIdeal.main_v77 (by decide)).trans ((I10logvar m ρ c m' hA).trans (keepRB4 (RD3 c m') Cert.ReferenceIdeal.main_v83 (by decide)).symm)
theorem I12logvar : (Cert.KernelIdeal.Gen.W12 (F := Ideal) m ρ c) (Proc.devRef (τ := Cert.KernelIdeal.τ) .tc Cert.KernelIdeal.main_v77) = (RD4 c m') (Proc.devRef (τ := Cert.ReferenceIdeal.τ) .tc Cert.ReferenceIdeal.main_v83) := (Cert.KernelIdeal.Gen.W12_of_ne (F := Ideal) m ρ c Cert.KernelIdeal.main_v77 (by decide)).trans ((I11logvar m ρ c m' hA).trans (keepRD4 (RB4 c m') Cert.ReferenceIdeal.main_v83 (by decide)).symm)
theorem I13logvar : (Cert.KernelIdeal.Gen.W13 (F := Ideal) m ρ c) (Proc.devRef (τ := Cert.KernelIdeal.τ) .tc Cert.KernelIdeal.main_v77) = (RB5 c m') (Proc.devRef (τ := Cert.ReferenceIdeal.τ) .tc Cert.ReferenceIdeal.main_v83) := (keepK5 (Cert.KernelIdeal.Gen.W12 (F := Ideal) m ρ c) Cert.KernelIdeal.main_v77 (by decide)).trans ((I12logvar m ρ c m' hA).trans (keepRB5 (RD4 c m') Cert.ReferenceIdeal.main_v83 (by decide)).symm)
theorem I14logvar : (Cert.KernelIdeal.Gen.W14 (F := Ideal) m ρ c) (Proc.devRef (τ := Cert.KernelIdeal.τ) .tc Cert.KernelIdeal.main_v77) = (RD5 c m') (Proc.devRef (τ := Cert.ReferenceIdeal.τ) .tc Cert.ReferenceIdeal.main_v83) := (Cert.KernelIdeal.Gen.W14_of_ne (F := Ideal) m ρ c Cert.KernelIdeal.main_v77 (by decide)).trans ((I13logvar m ρ c m' hA).trans (keepRD5 (RB5 c m') Cert.ReferenceIdeal.main_v83 (by decide)).symm)
theorem I15logvar : (Cert.KernelIdeal.Gen.W15 (F := Ideal) m ρ c) (Proc.devRef (τ := Cert.KernelIdeal.τ) .tc Cert.KernelIdeal.main_v77) = (RB6 c m') (Proc.devRef (τ := Cert.ReferenceIdeal.τ) .tc Cert.ReferenceIdeal.main_v83) := (keepK6 (Cert.KernelIdeal.Gen.W14 (F := Ideal) m ρ c) Cert.KernelIdeal.main_v77 (by decide)).trans ((I14logvar m ρ c m' hA).trans (keepRB6 (RD5 c m') Cert.ReferenceIdeal.main_v83 (by decide)).symm)
theorem I10z : (Cert.KernelIdeal.Gen.W10 (F := Ideal) m ρ c) (Proc.devRef (τ := Cert.KernelIdeal.τ) .tc Cert.KernelIdeal.main_v82) = (RD3 c m') (Proc.devRef (τ := Cert.ReferenceIdeal.τ) .tc Cert.ReferenceIdeal.main_v88) := (Cert.KernelIdeal.Gen.W10_of_ne (F := Ideal) m ρ c Cert.KernelIdeal.main_v82 (by decide)).trans ((S9z m ρ c m' hA).trans (keepRD3 (RB3 c m') Cert.ReferenceIdeal.main_v88 (by decide)).symm)
theorem I11z : (Cert.KernelIdeal.Gen.W11 (F := Ideal) m ρ c) (Proc.devRef (τ := Cert.KernelIdeal.τ) .tc Cert.KernelIdeal.main_v82) = (RB4 c m') (Proc.devRef (τ := Cert.ReferenceIdeal.τ) .tc Cert.ReferenceIdeal.main_v88) := (keepK4 (Cert.KernelIdeal.Gen.W10 (F := Ideal) m ρ c) Cert.KernelIdeal.main_v82 (by decide)).trans ((I10z m ρ c m' hA).trans (keepRB4 (RD3 c m') Cert.ReferenceIdeal.main_v88 (by decide)).symm)
theorem I12z : (Cert.KernelIdeal.Gen.W12 (F := Ideal) m ρ c) (Proc.devRef (τ := Cert.KernelIdeal.τ) .tc Cert.KernelIdeal.main_v82) = (RD4 c m') (Proc.devRef (τ := Cert.ReferenceIdeal.τ) .tc Cert.ReferenceIdeal.main_v88) := (Cert.KernelIdeal.Gen.W12_of_ne (F := Ideal) m ρ c Cert.KernelIdeal.main_v82 (by decide)).trans ((I11z m ρ c m' hA).trans (keepRD4 (RB4 c m') Cert.ReferenceIdeal.main_v88 (by decide)).symm)
theorem I13z : (Cert.KernelIdeal.Gen.W13 (F := Ideal) m ρ c) (Proc.devRef (τ := Cert.KernelIdeal.τ) .tc Cert.KernelIdeal.main_v82) = (RB5 c m') (Proc.devRef (τ := Cert.ReferenceIdeal.τ) .tc Cert.ReferenceIdeal.main_v88) := (keepK5 (Cert.KernelIdeal.Gen.W12 (F := Ideal) m ρ c) Cert.KernelIdeal.main_v82 (by decide)).trans ((I12z m ρ c m' hA).trans (keepRB5 (RD4 c m') Cert.ReferenceIdeal.main_v88 (by decide)).symm)
theorem I14z : (Cert.KernelIdeal.Gen.W14 (F := Ideal) m ρ c) (Proc.devRef (τ := Cert.KernelIdeal.τ) .tc Cert.KernelIdeal.main_v82) = (RD5 c m') (Proc.devRef (τ := Cert.ReferenceIdeal.τ) .tc Cert.ReferenceIdeal.main_v88) := (Cert.KernelIdeal.Gen.W14_of_ne (F := Ideal) m ρ c Cert.KernelIdeal.main_v82 (by decide)).trans ((I13z m ρ c m' hA).trans (keepRD5 (RB5 c m') Cert.ReferenceIdeal.main_v88 (by decide)).symm)
theorem I15z : (Cert.KernelIdeal.Gen.W15 (F := Ideal) m ρ c) (Proc.devRef (τ := Cert.KernelIdeal.τ) .tc Cert.KernelIdeal.main_v82) = (RB6 c m') (Proc.devRef (τ := Cert.ReferenceIdeal.τ) .tc Cert.ReferenceIdeal.main_v88) := (keepK6 (Cert.KernelIdeal.Gen.W14 (F := Ideal) m ρ c) Cert.KernelIdeal.main_v82 (by decide)).trans ((I14z m ρ c m' hA).trans (keepRB6 (RD5 c m') Cert.ReferenceIdeal.main_v88 (by decide)).symm)

/-! ## The four results -/
theorem result_recon : (Cert.KernelIdeal.Gen.W15 (F := Ideal) m ρ c) (Proc.devRef (τ := Cert.KernelIdeal.τ) .tc Cert.KernelIdeal.main_v124) = after Cert.ReferenceIdeal.Line.ops (launchContents m' c) (Proc.devRef (τ := Cert.ReferenceIdeal.τ) .tc Cert.ReferenceIdeal.main_v141) :=
  (S15 m ρ c m' hA).trans (congrFun (fold c m').symm _)
theorem result_mu : (Cert.KernelIdeal.Gen.W15 (F := Ideal) m ρ c) (Proc.devRef (τ := Cert.KernelIdeal.τ) .tc Cert.KernelIdeal.main_v73) = after Cert.ReferenceIdeal.Line.ops (launchContents m' c) (Proc.devRef (τ := Cert.ReferenceIdeal.τ) .tc Cert.ReferenceIdeal.main_v79) :=
  (I15mu m ρ c m' hA).trans (congrFun (fold c m').symm _)
theorem result_logvar : (Cert.KernelIdeal.Gen.W15 (F := Ideal) m ρ c) (Proc.devRef (τ := Cert.KernelIdeal.τ) .tc Cert.KernelIdeal.main_v77) = after Cert.ReferenceIdeal.Line.ops (launchContents m' c) (Proc.devRef (τ := Cert.ReferenceIdeal.τ) .tc Cert.ReferenceIdeal.main_v83) :=
  (I15logvar m ρ c m' hA).trans (congrFun (fold c m').symm _)
theorem result_z : (Cert.KernelIdeal.Gen.W15 (F := Ideal) m ρ c) (Proc.devRef (τ := Cert.KernelIdeal.τ) .tc Cert.KernelIdeal.main_v82) = after Cert.ReferenceIdeal.Line.ops (launchContents m' c) (Proc.devRef (τ := Cert.ReferenceIdeal.τ) .tc Cert.ReferenceIdeal.main_v88) :=
  (I15z m ρ c m' hA).trans (congrFun (fold c m').symm _)

end Chain

end Cert.Bridge

end
-- ==== Proof.BridgeKeepAll.lean ====
/-
  The plain program never writes an argument.

  Every one of its 178 host operations writes its own result buffer, and no result buffer is an argument; so
  every argument holds at the end what it held at launch.
-/
import proofs.«168201_j91182155694152_1_alg».proof.Proof.RefLine
import Idealize.ShloMosaic.Lib.ValueIdx
import Idealize.ShloMosaic.Lib.Pipeline.Value
import Idealize.ShloMosaic.Lib.StableHlo.Run

set_option maxRecDepth 16384
set_option maxHeartbeats 4000000

noncomputable section

namespace Cert.Bridge

open Idealize.ShloMosaic Idealize.ShloMosaic.TcCoe Idealize.ShloMosaic.ValueIdx Idealize.SL.Sem Idealize.ShloMosaic.StableHlo

theorem writesRops : (Cert.ReferenceIdeal.Line.ops : List (HloOp Cert.ReferenceIdeal.τ Cert.ReferenceIdeal.sig (Elt Ideal))).Forall fun op =>
    op.writes ⊆ (([Cert.ReferenceIdeal.main_v0, Cert.ReferenceIdeal.main_v1, Cert.ReferenceIdeal.main_v2, Cert.ReferenceIdeal.main_v3, Cert.ReferenceIdeal.main_v4, Cert.ReferenceIdeal.main_v5, Cert.ReferenceIdeal.main_v6, Cert.ReferenceIdeal.main_cst, Cert.ReferenceIdeal.main_v7, Cert.ReferenceIdeal.main_cst_0, Cert.ReferenceIdeal.main_v8, Cert.ReferenceIdeal.main_v9, Cert.ReferenceIdeal.main_v10, Cert.ReferenceIdeal.main_cst_1, Cert.ReferenceIdeal.main_v11, Cert.ReferenceIdeal.main_v12, Cert.ReferenceIdeal.main_v13, Cert.ReferenceIdeal.main_cst_2, Cert.ReferenceIdeal.main_call0_v0, Cert.ReferenceIdeal.main_call0_v1, Cert.ReferenceIdeal.main_v14, Cert.ReferenceIdeal.main_c, Cert.ReferenceIdeal.main_v15, Cert.ReferenceIdeal.main_v16, Cert.ReferenceIdeal.main_c_3, Cert.ReferenceIdeal.main_v17, Cert.ReferenceIdeal.main_v18, Cert.ReferenceIdeal.main_v19, Cert.ReferenceIdeal.main_v20, Cert.ReferenceIdeal.main_v21, Cert.ReferenceIdeal.main_c_4, Cert.ReferenceIdeal.main_v22, Cert.ReferenceIdeal.main_v23, Cert.ReferenceIdeal.main_c_5, Cert.ReferenceIdeal.main_v24, Cert.ReferenceIdeal.main_v25, Cert.ReferenceIdeal.main_v26, Cert.ReferenceIdeal.main_v27, Cert.ReferenceIdeal.main_v28, Cert.ReferenceIdeal.main_v29, Cert.ReferenceIdeal.main_v30, Cert.ReferenceIdeal.main_c_6, Cert.ReferenceIdeal.main_v31, Cert.ReferenceIdeal.main_v32, Cert.ReferenceIdeal.main_c_7, Cert.ReferenceIdeal.main_v33, Cert.ReferenceIdeal.main_v34, Cert.ReferenceIdeal.main_v35, Cert.ReferenceIdeal.main_v36, Cert.ReferenceIdeal.main_v37, Cert.ReferenceIdeal.main_v38, Cert.ReferenceIdeal.main_v39, Cert.ReferenceIdeal.main_v40, Cert.ReferenceIdeal.main_cst_8, Cert.ReferenceIdeal.main_v41, Cert.ReferenceIdeal.main_v42, Cert.ReferenceIdeal.main_v43, Cert.ReferenceIdeal.main_v44, Cert.ReferenceIdeal.main_v45, Cert.ReferenceIdeal.main_v46, Cert.ReferenceIdeal.main_call1_cst, Cert.ReferenceIdeal.main_call1_v0, Cert.ReferenceIdeal.main_v47, Cert.ReferenceIdeal.main_v48, Cert.ReferenceIdeal.main_c_9, Cert.ReferenceIdeal.main_v49, Cert.ReferenceIdeal.main_v50, Cert.ReferenceIdeal.main_c_10, Cert.ReferenceIdeal.main_v51, Cert.ReferenceIdeal.main_v52, Cert.ReferenceIdeal.main_v53, Cert.ReferenceIdeal.main_v54, Cert.ReferenceIdeal.main_v55, Cert.ReferenceIdeal.main_v56, Cert.ReferenceIdeal.main_v57, Cert.ReferenceIdeal.main_v58, Cert.ReferenceIdeal.main_cst_11, Cert.ReferenceIdeal.main_v59, Cert.ReferenceIdeal.main_v60, Cert.ReferenceIdeal.main_v61, Cert.ReferenceIdeal.main_v62, Cert.ReferenceIdeal.main_v63, Cert.ReferenceIdeal.main_v64, Cert.ReferenceIdeal.main_call2_cst, Cert.ReferenceIdeal.main_call2_v0, Cert.ReferenceIdeal.main_v65, Cert.ReferenceIdeal.main_cst_12, Cert.ReferenceIdeal.main_v66, Cert.ReferenceIdeal.main_cst_13, Cert.ReferenceIdeal.main_v67, Cert.ReferenceIdeal.main_v68, Cert.ReferenceIdeal.main_v69, Cert.ReferenceIdeal.main_cst_14, Cert.ReferenceIdeal.main_v70, Cert.ReferenceIdeal.main_v71, Cert.ReferenceIdeal.main_v72, Cert.ReferenceIdeal.main_v73, Cert.ReferenceIdeal.main_v74, Cert.ReferenceIdeal.main_v75, Cert.ReferenceIdeal.main_v76, Cert.ReferenceIdeal.main_v77, Cert.ReferenceIdeal.main_v78, Cert.ReferenceIdeal.main_v79, Cert.ReferenceIdeal.main_v80, Cert.ReferenceIdeal.main_v81, Cert.ReferenceIdeal.main_v82, Cert.ReferenceIdeal.main_v83, Cert.ReferenceIdeal.main_cst_15, Cert.ReferenceIdeal.main_v84, Cert.ReferenceIdeal.main_v85, Cert.ReferenceIdeal.main_v86, Cert.ReferenceIdeal.main_v87, Cert.ReferenceIdeal.main_v88, Cert.ReferenceIdeal.main_v89, Cert.ReferenceIdeal.main_v90, Cert.ReferenceIdeal.main_v91, Cert.ReferenceIdeal.main_v92, Cert.ReferenceIdeal.main_c_16, Cert.ReferenceIdeal.main_v93, Cert.ReferenceIdeal.main_v94, Cert.ReferenceIdeal.main_c_17, Cert.ReferenceIdeal.main_v95, Cert.ReferenceIdeal.main_v96, Cert.ReferenceIdeal.main_v97, Cert.ReferenceIdeal.main_v98, Cert.ReferenceIdeal.main_v99, Cert.ReferenceIdeal.main_v100, Cert.ReferenceIdeal.main_c_18, Cert.ReferenceIdeal.main_v101, Cert.ReferenceIdeal.main_v102, Cert.ReferenceIdeal.main_c_19, Cert.ReferenceIdeal.main_v103, Cert.ReferenceIdeal.main_v104, Cert.ReferenceIdeal.main_v105, Cert.ReferenceIdeal.main_v106, Cert.ReferenceIdeal.main_v107, Cert.ReferenceIdeal.main_v108, Cert.ReferenceIdeal.main_v109, Cert.ReferenceIdeal.main_v110, Cert.ReferenceIdeal.main_cst_20, Cert.ReferenceIdeal.main_v111, Cert.ReferenceIdeal.main_v112, Cert.ReferenceIdeal.main_v113, Cert.ReferenceIdeal.main_v114, Cert.ReferenceIdeal.main_v115, Cert.ReferenceIdeal.main_v116, Cert.ReferenceIdeal.main_call3_cst, Cert.ReferenceIdeal.main_call3_v0, Cert.ReferenceIdeal.main_v117, Cert.ReferenceIdeal.main_v118, Cert.ReferenceIdeal.main_c_21, Cert.ReferenceIdeal.main_v119, Cert.ReferenceIdeal.main_v120, Cert.ReferenceIdeal.main_c_22, Cert.ReferenceIdeal.main_v121, Cert.ReferenceIdeal.main_v122, Cert.ReferenceIdeal.main_v123, Cert.ReferenceIdeal.main_v124, Cert.ReferenceIdeal.main_v125, Cert.ReferenceIdeal.main_v126, Cert.ReferenceIdeal.main_v127, Cert.ReferenceIdeal.main_v128, Cert.ReferenceIdeal.main_cst_23, Cert.ReferenceIdeal.main_v129, Cert.ReferenceIdeal.main_v130, Cert.ReferenceIdeal.main_v131, Cert.ReferenceIdeal.main_v132, Cert.ReferenceIdeal.main_v133, Cert.ReferenceIdeal.main_v134, Cert.ReferenceIdeal.main_call4_cst, Cert.ReferenceIdeal.main_call4_v0, Cert.ReferenceIdeal.main_v135, Cert.ReferenceIdeal.main_v136, Cert.ReferenceIdeal.main_v137, Cert.ReferenceIdeal.main_v138, Cert.ReferenceIdeal.main_v139, Cert.ReferenceIdeal.main_v140, Cert.ReferenceIdeal.main_v141] : List (Ref Cert.ReferenceIdeal.sig .tc)).map (Proc.devRef (τ := Cert.ReferenceIdeal.τ) .tc)).toFinset := by
  simp only [Cert.ReferenceIdeal.Line.ops, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer the line does not write keeps its contents. -/
theorem keepRops (W : (Valuation Cert.ReferenceIdeal.τ Cert.ReferenceIdeal.sig (Elt Ideal))) (b : Ref Cert.ReferenceIdeal.sig .tc)
    (hb : b ∉ ([Cert.ReferenceIdeal.main_v0, Cert.ReferenceIdeal.main_v1, Cert.ReferenceIdeal.main_v2, Cert.ReferenceIdeal.main_v3, Cert.ReferenceIdeal.main_v4, Cert.ReferenceIdeal.main_v5, Cert.ReferenceIdeal.main_v6, Cert.ReferenceIdeal.main_cst, Cert.ReferenceIdeal.main_v7, Cert.ReferenceIdeal.main_cst_0, Cert.ReferenceIdeal.main_v8, Cert.ReferenceIdeal.main_v9, Cert.ReferenceIdeal.main_v10, Cert.ReferenceIdeal.main_cst_1, Cert.ReferenceIdeal.main_v11, Cert.ReferenceIdeal.main_v12, Cert.ReferenceIdeal.main_v13, Cert.ReferenceIdeal.main_cst_2, Cert.ReferenceIdeal.main_call0_v0, Cert.ReferenceIdeal.main_call0_v1, Cert.ReferenceIdeal.main_v14, Cert.ReferenceIdeal.main_c, Cert.ReferenceIdeal.main_v15, Cert.ReferenceIdeal.main_v16, Cert.ReferenceIdeal.main_c_3, Cert.ReferenceIdeal.main_v17, Cert.ReferenceIdeal.main_v18, Cert.ReferenceIdeal.main_v19, Cert.ReferenceIdeal.main_v20, Cert.ReferenceIdeal.main_v21, Cert.ReferenceIdeal.main_c_4, Cert.ReferenceIdeal.main_v22, Cert.ReferenceIdeal.main_v23, Cert.ReferenceIdeal.main_c_5, Cert.ReferenceIdeal.main_v24, Cert.ReferenceIdeal.main_v25, Cert.ReferenceIdeal.main_v26, Cert.ReferenceIdeal.main_v27, Cert.ReferenceIdeal.main_v28, Cert.ReferenceIdeal.main_v29, Cert.ReferenceIdeal.main_v30, Cert.ReferenceIdeal.main_c_6, Cert.ReferenceIdeal.main_v31, Cert.ReferenceIdeal.main_v32, Cert.ReferenceIdeal.main_c_7, Cert.ReferenceIdeal.main_v33, Cert.ReferenceIdeal.main_v34, Cert.ReferenceIdeal.main_v35, Cert.ReferenceIdeal.main_v36, Cert.ReferenceIdeal.main_v37, Cert.ReferenceIdeal.main_v38, Cert.ReferenceIdeal.main_v39, Cert.ReferenceIdeal.main_v40, Cert.ReferenceIdeal.main_cst_8, Cert.ReferenceIdeal.main_v41, Cert.ReferenceIdeal.main_v42, Cert.ReferenceIdeal.main_v43, Cert.ReferenceIdeal.main_v44, Cert.ReferenceIdeal.main_v45, Cert.ReferenceIdeal.main_v46, Cert.ReferenceIdeal.main_call1_cst, Cert.ReferenceIdeal.main_call1_v0, Cert.ReferenceIdeal.main_v47, Cert.ReferenceIdeal.main_v48, Cert.ReferenceIdeal.main_c_9, Cert.ReferenceIdeal.main_v49, Cert.ReferenceIdeal.main_v50, Cert.ReferenceIdeal.main_c_10, Cert.ReferenceIdeal.main_v51, Cert.ReferenceIdeal.main_v52, Cert.ReferenceIdeal.main_v53, Cert.ReferenceIdeal.main_v54, Cert.ReferenceIdeal.main_v55, Cert.ReferenceIdeal.main_v56, Cert.ReferenceIdeal.main_v57, Cert.ReferenceIdeal.main_v58, Cert.ReferenceIdeal.main_cst_11, Cert.ReferenceIdeal.main_v59, Cert.ReferenceIdeal.main_v60, Cert.ReferenceIdeal.main_v61, Cert.ReferenceIdeal.main_v62, Cert.ReferenceIdeal.main_v63, Cert.ReferenceIdeal.main_v64, Cert.ReferenceIdeal.main_call2_cst, Cert.ReferenceIdeal.main_call2_v0, Cert.ReferenceIdeal.main_v65, Cert.ReferenceIdeal.main_cst_12, Cert.ReferenceIdeal.main_v66, Cert.ReferenceIdeal.main_cst_13, Cert.ReferenceIdeal.main_v67, Cert.ReferenceIdeal.main_v68, Cert.ReferenceIdeal.main_v69, Cert.ReferenceIdeal.main_cst_14, Cert.ReferenceIdeal.main_v70, Cert.ReferenceIdeal.main_v71, Cert.ReferenceIdeal.main_v72, Cert.ReferenceIdeal.main_v73, Cert.ReferenceIdeal.main_v74, Cert.ReferenceIdeal.main_v75, Cert.ReferenceIdeal.main_v76, Cert.ReferenceIdeal.main_v77, Cert.ReferenceIdeal.main_v78, Cert.ReferenceIdeal.main_v79, Cert.ReferenceIdeal.main_v80, Cert.ReferenceIdeal.main_v81, Cert.ReferenceIdeal.main_v82, Cert.ReferenceIdeal.main_v83, Cert.ReferenceIdeal.main_cst_15, Cert.ReferenceIdeal.main_v84, Cert.ReferenceIdeal.main_v85, Cert.ReferenceIdeal.main_v86, Cert.ReferenceIdeal.main_v87, Cert.ReferenceIdeal.main_v88, Cert.ReferenceIdeal.main_v89, Cert.ReferenceIdeal.main_v90, Cert.ReferenceIdeal.main_v91, Cert.ReferenceIdeal.main_v92, Cert.ReferenceIdeal.main_c_16, Cert.ReferenceIdeal.main_v93, Cert.ReferenceIdeal.main_v94, Cert.ReferenceIdeal.main_c_17, Cert.ReferenceIdeal.main_v95, Cert.ReferenceIdeal.main_v96, Cert.ReferenceIdeal.main_v97, Cert.ReferenceIdeal.main_v98, Cert.ReferenceIdeal.main_v99, Cert.ReferenceIdeal.main_v100, Cert.ReferenceIdeal.main_c_18, Cert.ReferenceIdeal.main_v101, Cert.ReferenceIdeal.main_v102, Cert.ReferenceIdeal.main_c_19, Cert.ReferenceIdeal.main_v103, Cert.ReferenceIdeal.main_v104, Cert.ReferenceIdeal.main_v105, Cert.ReferenceIdeal.main_v106, Cert.ReferenceIdeal.main_v107, Cert.ReferenceIdeal.main_v108, Cert.ReferenceIdeal.main_v109, Cert.ReferenceIdeal.main_v110, Cert.ReferenceIdeal.main_cst_20, Cert.ReferenceIdeal.main_v111, Cert.ReferenceIdeal.main_v112, Cert.ReferenceIdeal.main_v113, Cert.ReferenceIdeal.main_v114, Cert.ReferenceIdeal.main_v115, Cert.ReferenceIdeal.main_v116, Cert.ReferenceIdeal.main_call3_cst, Cert.ReferenceIdeal.main_call3_v0, Cert.ReferenceIdeal.main_v117, Cert.ReferenceIdeal.main_v118, Cert.ReferenceIdeal.main_c_21, Cert.ReferenceIdeal.main_v119, Cert.ReferenceIdeal.main_v120, Cert.ReferenceIdeal.main_c_22, Cert.ReferenceIdeal.main_v121, Cert.ReferenceIdeal.main_v122, Cert.ReferenceIdeal.main_v123, Cert.ReferenceIdeal.main_v124, Cert.ReferenceIdeal.main_v125, Cert.ReferenceIdeal.main_v126, Cert.ReferenceIdeal.main_v127, Cert.ReferenceIdeal.main_v128, Cert.ReferenceIdeal.main_cst_23, Cert.ReferenceIdeal.main_v129, Cert.ReferenceIdeal.main_v130, Cert.ReferenceIdeal.main_v131, Cert.ReferenceIdeal.main_v132, Cert.ReferenceIdeal.main_v133, Cert.ReferenceIdeal.main_v134, Cert.ReferenceIdeal.main_call4_cst, Cert.ReferenceIdeal.main_call4_v0, Cert.ReferenceIdeal.main_v135, Cert.ReferenceIdeal.main_v136, Cert.ReferenceIdeal.main_v137, Cert.ReferenceIdeal.main_v138, Cert.ReferenceIdeal.main_v139, Cert.ReferenceIdeal.main_v140, Cert.ReferenceIdeal.main_v141] : List (Ref Cert.ReferenceIdeal.sig .tc))) :
    after Cert.ReferenceIdeal.Line.ops W (Proc.devRef (τ := Cert.ReferenceIdeal.τ) .tc b) = W (Proc.devRef (τ := Cert.ReferenceIdeal.τ) .tc b) :=
  after_of_writes_sub _ W writesRops hb

end Cert.Bridge

end
-- ==== Proof.lean ====
/-
  The certificate of the graph variational autoencoder: a row-tiled computation of its six dense stages against
  the plain computation.

  The network is two graph-convolution layers, a per-graph mean, a latent mean / log-variance / sample, and a
  decoder of two more graph-convolution layers and one output per node.  A graph-convolution layer is
  rows ↦ relu (aggregate (rows · W) + b), where aggregate gathers each edge's source row, scales it by the edge's
  weight and adds it into the edge's target row.  The tiled program keeps the gathers, the scatters, the pooling
  and the latent arithmetic as host operations, identical to the plain program's, and computes the dense parts
  — rows · W, relu (rows + b) · W, relu (rows + b), tanh (relu (rows + b) · w + c) — in tiles of 8192 node rows.
  On the extended reals rounding to the matrix unit's input format is the identity, a tile's entry depends only
  on its own row, and the 32 tiles cover the 262144 rows; so every dense stage leaves exactly the array the plain
  program's matching operations compute, and the two programs agree on all four results.  No law of arithmetic
  beyond that is used: the two sides are the same sums in the same order, so the inputs' finiteness is never
  opened.

  The three frames: the two tiled programs' are the segment-by-segment run of @main; the plain program's is the
  run of its line of host operations, no operation of which writes an argument.  The idealization rewrote no
  operation, so there is nothing to preserve.
-/
import proofs.«168201_j91182155694152_1_alg».proof.Defs
import proofs.«168201_j91182155694152_1_alg».proof.Proof.Gen.Kernel
import proofs.«168201_j91182155694152_1_alg».proof.Proof.Gen.Kernel.Skeleton
import proofs.«168201_j91182155694152_1_alg».proof.Proof.Gen.Kernel.Launch
import proofs.«168201_j91182155694152_1_alg».proof.Proof.Gen.Kernel.Points
import proofs.«168201_j91182155694152_1_alg».proof.Proof.Gen.Kernel.Frame
import proofs.«168201_j91182155694152_1_alg».proof.Proof.Gen.KernelIdeal
import proofs.«168201_j91182155694152_1_alg».proof.Proof.Gen.KernelIdeal.Skeleton
import proofs.«168201_j91182155694152_1_alg».proof.Proof.Gen.KernelIdeal.Launch
import proofs.«168201_j91182155694152_1_alg».proof.Proof.Gen.KernelIdeal.Points
import proofs.«168201_j91182155694152_1_alg».proof.Proof.Gen.KernelIdeal.Frame
import proofs.«168201_j91182155694152_1_alg».proof.Proof.Gen.ReferenceIdeal
import proofs.«168201_j91182155694152_1_alg».proof.Proof.Gen.Pre_finite_inputs
import proofs.«168201_j91182155694152_1_alg».proof.Proof.Bridge
import proofs.«168201_j91182155694152_1_alg».proof.Proof.BridgeKeepAll
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The plain program runs, and no operation of its line writes an argument. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans ((Cert.Bridge.keepRops (launchContents m c) Cert.ReferenceIdeal.main_arg0 (by decide)).trans rfl),
     (h c Cert.ReferenceIdeal.main_arg1).trans ((Cert.Bridge.keepRops (launchContents m c) Cert.ReferenceIdeal.main_arg1 (by decide)).trans rfl),
     (h c Cert.ReferenceIdeal.main_arg2).trans ((Cert.Bridge.keepRops (launchContents m c) Cert.ReferenceIdeal.main_arg2 (by decide)).trans rfl),
     (h c Cert.ReferenceIdeal.main_arg3).trans ((Cert.Bridge.keepRops (launchContents m c) Cert.ReferenceIdeal.main_arg3 (by decide)).trans rfl),
     (h c Cert.ReferenceIdeal.main_arg4).trans ((Cert.Bridge.keepRops (launchContents m c) Cert.ReferenceIdeal.main_arg4 (by decide)).trans rfl),
     (h c Cert.ReferenceIdeal.main_arg5).trans ((Cert.Bridge.keepRops (launchContents m c) Cert.ReferenceIdeal.main_arg5 (by decide)).trans rfl),
     (h c Cert.ReferenceIdeal.main_arg6).trans ((Cert.Bridge.keepRops (launchContents m c) Cert.ReferenceIdeal.main_arg6 (by decide)).trans rfl),
     (h c Cert.ReferenceIdeal.main_arg7).trans ((Cert.Bridge.keepRops (launchContents m c) Cert.ReferenceIdeal.main_arg7 (by decide)).trans rfl),
     (h c Cert.ReferenceIdeal.main_arg8).trans ((Cert.Bridge.keepRops (launchContents m c) Cert.ReferenceIdeal.main_arg8 (by decide)).trans rfl),
     (h c Cert.ReferenceIdeal.main_arg9).trans ((Cert.Bridge.keepRops (launchContents m c) Cert.ReferenceIdeal.main_arg9 (by decide)).trans rfl),
     (h c Cert.ReferenceIdeal.main_arg10).trans ((Cert.Bridge.keepRops (launchContents m c) Cert.ReferenceIdeal.main_arg10 (by decide)).trans rfl),
     (h c Cert.ReferenceIdeal.main_arg11).trans ((Cert.Bridge.keepRops (launchContents m c) Cert.ReferenceIdeal.main_arg11 (by decide)).trans rfl),
     (h c Cert.ReferenceIdeal.main_arg12).trans ((Cert.Bridge.keepRops (launchContents m c) Cert.ReferenceIdeal.main_arg12 (by decide)).trans rfl),
     (h c Cert.ReferenceIdeal.main_arg13).trans ((Cert.Bridge.keepRops (launchContents m c) Cert.ReferenceIdeal.main_arg13 (by decide)).trans rfl),
     (h c Cert.ReferenceIdeal.main_arg14).trans ((Cert.Bridge.keepRops (launchContents m c) Cert.ReferenceIdeal.main_arg14 (by decide)).trans rfl),
     (h c Cert.ReferenceIdeal.main_arg15).trans ((Cert.Bridge.keepRops (launchContents m c) Cert.ReferenceIdeal.main_arg15 (by decide)).trans rfl),
     (h c Cert.ReferenceIdeal.main_arg16).trans ((Cert.Bridge.keepRops (launchContents m c) Cert.ReferenceIdeal.main_arg16 (by decide)).trans rfl),
     (h c Cert.ReferenceIdeal.main_arg17).trans ((Cert.Bridge.keepRops (launchContents m c) Cert.ReferenceIdeal.main_arg17 (by decide)).trans rfl),
     (h c Cert.ReferenceIdeal.main_arg18).trans ((Cert.Bridge.keepRops (launchContents m c) Cert.ReferenceIdeal.main_arg18 (by decide)).trans rfl),
     (h c Cert.ReferenceIdeal.main_arg19).trans ((Cert.Bridge.keepRops (launchContents m c) Cert.ReferenceIdeal.main_arg19 (by decide)).trans rfl)⟩)
    (Cert.ReferenceIdeal.Line.run_after (F := Ideal) m ρ)

/-- Both idealized programs run from memories that agree on the arguments and end with the same four results:
    the tiled program's at its last segment boundary, the plain program's at the fold of its line, equal by the
    boundary-by-boundary comparison. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have hA : ∀ c : Dev Cert.KernelIdeal.nD, Cert.Bridge.Agree m c m' := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2⟩
  refine ⟨fun c => Cert.KernelIdeal.Gen.W15 (F := Ideal) m ρ c (Proc.devRef .tc Cert.KernelIdeal.main_v124),
    fun c => Cert.KernelIdeal.Gen.W15 (F := Ideal) m ρ c (Proc.devRef .tc Cert.KernelIdeal.main_v73),
    fun c => Cert.KernelIdeal.Gen.W15 (F := Ideal) m ρ c (Proc.devRef .tc Cert.KernelIdeal.main_v77),
    fun c => Cert.KernelIdeal.Gen.W15 (F := Ideal) m ρ c (Proc.devRef .tc Cert.KernelIdeal.main_v82),
    Cert.KernelIdeal.Whole.run_values (F := Ideal) m ρ, ?_⟩
  exact (θ_run Cert.ReferenceIdeal.defs _ _).mono (fun r h c =>
    ⟨(h c Cert.ReferenceIdeal.main_v141).trans (Cert.Bridge.result_recon m ρ c m' (hA c)).symm,
     (h c Cert.ReferenceIdeal.main_v79).trans (Cert.Bridge.result_mu m ρ c m' (hA c)).symm,
     (h c Cert.ReferenceIdeal.main_v83).trans (Cert.Bridge.result_logvar m ρ c m' (hA c)).symm,
     (h c Cert.ReferenceIdeal.main_v88).trans (Cert.Bridge.result_z m ρ c m' (hA c)).symm,
     (h c Cert.ReferenceIdeal.main_arg0).trans ((Cert.Bridge.keepRops (launchContents m' c) Cert.ReferenceIdeal.main_arg0 (by decide)).trans rfl),
     (h c Cert.ReferenceIdeal.main_arg1).trans ((Cert.Bridge.keepRops (launchContents m' c) Cert.ReferenceIdeal.main_arg1 (by decide)).trans rfl),
     (h c Cert.ReferenceIdeal.main_arg2).trans ((Cert.Bridge.keepRops (launchContents m' c) Cert.ReferenceIdeal.main_arg2 (by decide)).trans rfl),
     (h c Cert.ReferenceIdeal.main_arg3).trans ((Cert.Bridge.keepRops (launchContents m' c) Cert.ReferenceIdeal.main_arg3 (by decide)).trans rfl),
     (h c Cert.ReferenceIdeal.main_arg4).trans ((Cert.Bridge.keepRops (launchContents m' c) Cert.ReferenceIdeal.main_arg4 (by decide)).trans rfl),
     (h c Cert.ReferenceIdeal.main_arg5).trans ((Cert.Bridge.keepRops (launchContents m' c) Cert.ReferenceIdeal.main_arg5 (by decide)).trans rfl),
     (h c Cert.ReferenceIdeal.main_arg6).trans ((Cert.Bridge.keepRops (launchContents m' c) Cert.ReferenceIdeal.main_arg6 (by decide)).trans rfl),
     (h c Cert.ReferenceIdeal.main_arg7).trans ((Cert.Bridge.keepRops (launchContents m' c) Cert.ReferenceIdeal.main_arg7 (by decide)).trans rfl),
     (h c Cert.ReferenceIdeal.main_arg8).trans ((Cert.Bridge.keepRops (launchContents m' c) Cert.ReferenceIdeal.main_arg8 (by decide)).trans rfl),
     (h c Cert.ReferenceIdeal.main_arg9).trans ((Cert.Bridge.keepRops (launchContents m' c) Cert.ReferenceIdeal.main_arg9 (by decide)).trans rfl),
     (h c Cert.ReferenceIdeal.main_arg10).trans ((Cert.Bridge.keepRops (launchContents m' c) Cert.ReferenceIdeal.main_arg10 (by decide)).trans rfl),
     (h c Cert.ReferenceIdeal.main_arg11).trans ((Cert.Bridge.keepRops (launchContents m' c) Cert.ReferenceIdeal.main_arg11 (by decide)).trans rfl),
     (h c Cert.ReferenceIdeal.main_arg12).trans ((Cert.Bridge.keepRops (launchContents m' c) Cert.ReferenceIdeal.main_arg12 (by decide)).trans rfl),
     (h c Cert.ReferenceIdeal.main_arg13).trans ((Cert.Bridge.keepRops (launchContents m' c) Cert.ReferenceIdeal.main_arg13 (by decide)).trans rfl),
     (h c Cert.ReferenceIdeal.main_arg14).trans ((Cert.Bridge.keepRops (launchContents m' c) Cert.ReferenceIdeal.main_arg14 (by decide)).trans rfl),
     (h c Cert.ReferenceIdeal.main_arg15).trans ((Cert.Bridge.keepRops (launchContents m' c) Cert.ReferenceIdeal.main_arg15 (by decide)).trans rfl),
     (h c Cert.ReferenceIdeal.main_arg16).trans ((Cert.Bridge.keepRops (launchContents m' c) Cert.ReferenceIdeal.main_arg16 (by decide)).trans rfl),
     (h c Cert.ReferenceIdeal.main_arg17).trans ((Cert.Bridge.keepRops (launchContents m' c) Cert.ReferenceIdeal.main_arg17 (by decide)).trans rfl),
     (h c Cert.ReferenceIdeal.main_arg18).trans ((Cert.Bridge.keepRops (launchContents m' c) Cert.ReferenceIdeal.main_arg18 (by decide)).trans rfl),
     (h c Cert.ReferenceIdeal.main_arg19).trans ((Cert.Bridge.keepRops (launchContents m' c) Cert.ReferenceIdeal.main_arg19 (by decide)).trans rfl)⟩)
    (Cert.ReferenceIdeal.Line.run_after (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
